-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192 : Shape := ⟨2, ![32, 8192]⟩
abbrev S32x64x8192 : Shape := ⟨3, ![32, 64, 8192]⟩
abbrev S16x8192 : Shape := ⟨2, ![16, 8192]⟩
abbrev S16 : Shape := ⟨1, ![16]⟩
abbrev S8192x16 : Shape := ⟨2, ![8192, 16]⟩
abbrev S8192 : Shape := ⟨1, ![8192]⟩
abbrev S_ : Shape := ⟨0, ![]⟩

class Facts : Prop where
  bcast_S_S32x8192 : S_.BroadcastsInDim S32x8192 (![] : Fin 0 → Fin S32x8192.rank)
  reducesTo_S32x8192_S_d0_1 : S32x8192.ReducesTo [0, 1] S_
  h_S_ : 0 < S_.numel
  bcast_S_S32x64x8192 : S_.BroadcastsInDim S32x64x8192 (![] : Fin 0 → Fin S32x64x8192.rank)
  reducesTo_S32x64x8192_S_d0_1_2 : S32x64x8192.ReducesTo [0, 1, 2] S_
  bcast_S_S16x8192 : S_.BroadcastsInDim S16x8192 (![] : Fin 0 → Fin S16x8192.rank)
  reducesTo_S16x8192_S_d0_1 : S16x8192.ReducesTo [0, 1] S_
  bcast_S_S16 : S_.BroadcastsInDim S16 (![] : Fin 0 → Fin S16.rank)
  reducesTo_S16_S_d0 : S16.ReducesTo [0] S_
  bcast_S_S8192x16 : S_.BroadcastsInDim S8192x16 (![] : Fin 0 → Fin S8192x16.rank)
  reducesTo_S8192x16_S_d0_1 : S8192x16.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192x16 .f32) (main_arg5 : FVec F S8192 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S8192x16 .f32 := Host.absf main_arg4
  let main_cst_6 : FVec F S_ .f32 := constant S_ .f32 0x7F800000#32
  let main_v20 : FVec F S8192x16 .f32 := broadcastInDim S8192x16 ![] bcast_S_S8192x16 main_cst_6
  let main_v21 : IVec S8192x16 1 := cmpf .olt main_v19 main_v20
  let main_c_7 : IVec S_ 1 := constantI S_ 1 1#1
  let main_v22 : IVec S_ 1 := (fun x v => Host.reduce IntOp.andi x v reducesTo_S8192x16_S_d0_1 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  main_v28

def fn {F : FTy → Type} [FloatOps F] (main_arg0 : FVec F S32x8192 .f32) (main_arg1 : FVec F S32x64x8192 .f32) (main_arg2 : FVec F S16x8192 .f32) (main_arg3 : FVec F S16 .f32) (main_arg4 : FVec F S8192x16 .f32) (main_arg5 : FVec F S8192 .f32) : IVec S_ 1 :=
  let main_v0 : FVec F S32x8192 .f32 := Host.absf main_arg0
  let main_cst : FVec F S_ .f32 := constant S_ .f32 0x7F800000#32
  let main_v1 : FVec F S32x8192 .f32 := broadcastInDim S32x8192 ![] bcast_S_S32x8192 main_cst
  let main_v2 : IVec S32x8192 1 := cmpf .olt main_v0 main_v1
  let main_c : IVec S_ 1 := constantI S_ 1 1#1
  let main_v3 : IVec S_ 1 := (fun x v => Host.reduce IntOp.andi x v reducesTo_S32x8192_S_d0_1 h_S_) main_v2 main_c
  let main_v4 : FVec F S32x64x8192 .f32 := Host.absf main_arg1
  let main_cst_0 : FVec F S_ .f32 := constant S_ .f32 0x7F800000#32
  let main_v5 : FVec F S32x64x8192 .f32 := broadcastInDim S32x64x8192 ![] bcast_S_S32x64x8192 main_cst_0
  let main_v6 : IVec S32x64x8192 1 := cmpf .olt main_v4 main_v5
  let main_c_1 : IVec S_ 1 := constantI S_ 1 1#1
  let main_v7 : IVec S_ 1 := (fun x v => Host.reduce IntOp.andi x v reducesTo_S32x64x8192_S_d0_1_2 h_S_) main_v6 main_c_1
  let main_v8 : IVec S_ 1 := andi main_v3 main_v7
  let main_v9 : FVec F S16x8192 .f32 := Host.absf main_arg2
  let main_cst_2 : FVec F S_ .f32 := constant S_ .f32 0x7F800000#32
  let main_v10 : FVec F S16x8192 .f32 := broadcastInDim S16x8192 ![] bcast_S_S16x8192 main_cst_2
  let main_v11 : IVec S16x8192 1 := cmpf .olt main_v9 main_v10
  let main_c_3 : IVec S_ 1 := constantI S_ 1 1#1
  let main_v12 : IVec S_ 1 := (fun x v => Host.reduce IntOp.andi x v reducesTo_S16x8192_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S32x8192 : Shape := ⟨2, ![32, 8192]⟩
abbrev S32x64x8192 : Shape := ⟨3, ![32, 64, 8192]⟩
abbrev S16x8192 : Shape := ⟨2, ![16, 8192]⟩
abbrev S16 : Shape := ⟨1, ![16]⟩
abbrev S8192x16 : Shape := ⟨2, ![8192, 16]⟩
abbrev S8192 : Shape := ⟨1, ![8192]⟩
abbrev S32x64 : Shape := ⟨2, ![32, 64]⟩
abbrev S8x8192 : Shape := ⟨2, ![8, 8192]⟩
abbrev S8x64x2048 : Shape := ⟨3, ![8, 64, 2048]⟩
abbrev S32x2048 : Shape := ⟨2, ![32, 2048]⟩
abbrev S8x64 : Shape := ⟨2, ![8, 64]⟩
abbrev S512x32 : Shape := ⟨2, ![512, 32]⟩
abbrev S8x16 : Shape := ⟨2, ![8, 16]⟩
abbrev S1x16 : Shape := ⟨2, ![1, 16]⟩
abbrev S1x8192 : Shape := ⟨2, ![1, 8192]⟩
abbrev S512x2048 : Shape := ⟨2, ![512, 2048]⟩
abbrev S8x64x32 : Shape := ⟨3, ![8, 64, 32]⟩
abbrev S8x64x16 : Shape := ⟨3, ![8, 64, 16]⟩
abbrev S8x1x16 : Shape := ⟨3, ![8, 1, 16]⟩
abbrev S_ : Shape := ⟨0, ![]⟩
abbrev S1x1 : Shape := ⟨2, ![1, 1]⟩

abbrev nBuf : Space → Nat
  | .hbm => 15
  | .vmem => 16
  | .smem => 0
  | _ => 0

abbrev bufTy : (tb : Table) → Fin (tcTables nBuf tb) → BufTy
  | .hbm, ⟨0, _⟩ => ⟨S32x8192, .f32⟩
  | .hbm, ⟨1, _⟩ => ⟨S32x64x8192, .f32⟩
  | .hbm, ⟨2, _⟩ => ⟨S16x8192, .f32⟩
  | .hbm, ⟨3, _⟩ => ⟨S16, .f32⟩
  | .hbm, ⟨4, _⟩ => ⟨S8192x16, .f32⟩
  | .hbm, ⟨5, _⟩ => ⟨S8192, .f32⟩
  | .hbm, ⟨6, _⟩ => ⟨S16x8192, .f32⟩
  | .hbm, ⟨7, _⟩ => ⟨S32x8192, .f32⟩
  | .hbm, ⟨8, _⟩ => ⟨S32x8192, .f32⟩
  | .hbm, ⟨9, _⟩ => ⟨S32x64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x1, .f32⟩
  | .local _ .vmem, ⟨0, _⟩ => ⟨S8x8192, .f32⟩
  | .local _ .vmem, ⟨1, _⟩ => ⟨S8x8192, .f32⟩
  | .local _ .vmem, ⟨2, _⟩ => ⟨S8x64x2048, .f32⟩
  | .local _ .vmem, ⟨3, _⟩ => ⟨S8x64x2048, .f32⟩
  | .local _ .vmem, ⟨4, _⟩ => ⟨S16x8192, .f32⟩
  | .local _ .vmem, ⟨5, _⟩ => ⟨S16, .f32⟩
  | .local _ .vmem, ⟨6, _⟩ => ⟨S16x8192, .f32⟩
  | .local _ .vmem, ⟨7, _⟩ => ⟨S8192, .f32⟩
  | .local _ .vmem, ⟨8, _⟩ => ⟨S32x2048, .f32⟩
  | .local _ .vmem, ⟨9, _⟩ => ⟨S32x2048, .f32⟩
  | .local _ .vmem, ⟨10, _⟩ => ⟨S8x8192, .f32⟩
  | .local _ .vmem, ⟨11, _⟩ => ⟨S8x8192, .f32⟩
  | .local _ .vmem, ⟨12, _⟩ => ⟨S8x64, .f32⟩
  | .local _ .vmem, ⟨13, _⟩ => ⟨S8x64, .f32⟩
  | .local _ .vmem, ⟨14, _⟩ => ⟨S512x32, .f32⟩
  | .local _ .vmem, ⟨15, _⟩ => ⟨S8x16, .f32⟩
  | _, _ => ⟨S32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S8x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  transposes_S8192x16_S16x8192_1_0 : S8192x16.Transposes [1, 0] S16x8192
  concatenates_S16x8192_S16x8192_S32x8192_d0 : Shape.Concatenates [S16x8192, S16x8192] S32x8192 0
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S8x8192_S8x8192_0_0 : ∀ a, (![0, 0] : Fin 2 → Nat) a + S8x8192.size a ≤ S8x8192.size a
  h_S8x8192 : 0 < S8x8192.numel
  inb_S16x8192_S16x8192_0_0 : ∀ a, (![0, 0] : Fin 2 → Nat) a + S16x8192.size a ≤ S16x8192.size a
  h_S16x8192 : 0 < S16x8192.numel
  inb_S16_S16_0 : ∀ a, (![0] : Fin 1 → Nat) a + S16.size a ≤ S16.size a
  h_S16 : 0 < S16.numel
  shapeCasts_S16x8192_S16x8192 : S16x8192.ShapeCasts S16x8192
  inb_S8192_S8192_0 : ∀ a, (![0] : Fin 1 → Nat) a + S8192.size a ≤ S8192.size a
  h_S8192 : 0 < S8192.numel
  shapeCasts_S16_S1x16 : S16.ShapeCasts S1x16
  broadcasts_S1x16_S8x16 : S1x16.Broadcasts S8x16
  shapeCasts_S8192_S1x8192 : S8192.ShapeCasts S1x8192
  broadcasts_S1x8192_S8x8192 : S1x8192.Broadcasts S8x8192
  inb_S8x16_S8x16_0_0 : ∀ a, (![0, 0] : Fin 2 → Nat) a + S8x16.size a ≤ S8x16.size a
  h_S8x16 : 0 < S8x16.numel
  shapeCasts_S8x16_S8x16 : S8x16.ShapeCasts S8x16
  inb_S8x64x2048_S8x64x2048_0_0_0 : ∀ a, (![0, 0, 0] : Fin 3 → Nat) a + S8x64x2048.size a ≤ S8x64x2048.size a
  h_S8x64x2048 : 0 < S8x64x2048.numel
  shapeCasts_S8x64x2048_S512x2048 : S8x64x2048.ShapeCasts S512x2048
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  shapeCasts_S512x32_S8x64x32 : S512x32.ShapeCasts S8x64x32
  slices_S8x64x32_o0_0_0_S8x64x16 : S8x64x32.Slices ![0, 0, 0] S8x64x16
  slices_S8x64x32_o0_0_16_S8x64x16 : S8x64x32.Slices ![0, 0, 16] S8x64x16
  shapeCasts_S8x16_S8x1x16 : S8x16.ShapeCasts S8x1x16
  broadcasts_S8x1x16_S8x64x16 : S8x1x16.Broadcasts S8x64x16
  reduces_S8x64x16_S8x64 : S8x64x16.Reduces [2] S8x64
  inb_S8x64_S8x64_0_0 : ∀ a, (![0, 0] : Fin 2 → Nat) a + S8x64.size a ≤ S8x64.size a
  h_S8x64 : 0 < S8x64.numel
  reducesTo_S32x64_S_d0_1 : S32x64.ReducesTo [0, 1] S_
  h_S_ : 0 < S_.numel
  shapeCasts_S_S1x1 : S_.ShapeCasts S1x1
  dot_S8x8192_S16x8192_S8x16_1_1_0_0_n_n_wf : DotDims.WF S8x8192 S16x8192 S8x16 [1] [1] [0] [0] [] []
  dot_S8x16_S16x8192_S8x8192_1_0_0_1_n_n_wf : DotDims.WF S8x16 S16x8192 S8x8192 [1] [0] [0] [1] [] []
  dot_S512x2048_S32x2048_S512x32_1_1_0_0_n_n_wf : DotDims.WF S512x2048 S32x2048 S512x32 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8192.size a ≤ S32x8192.size a
  hwx0_0 : ∀ i : grid0.Coords, EltTy.bits .f32 = 32 ∨ (Rect.block (s := S32x8192) S8x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64x2048.size a ≤ S32x64x8192.size a
  hwx0_1 : ∀ i : grid0.Coords, EltTy.bits .f32 = 32 ∨ (Rect.block (s := S32x64x8192) S8x64x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x8192.size a ≤ S16x8192.size a
  hwx0_2 : ∀ i : grid0.Coords, EltTy.bits .f32 = 32 ∨ (Rect.block (s := S16x8192) S16x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16.size a ≤ S16.size a
  hwx0_3 : ∀ i : grid0.Coords, EltTy.bits .f32 = 32 ∨ (Rect.block (s := S16) S16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x8192.size a ≤ S16x8192.size a
  hwx0_4 : ∀ i : grid0.Coords, EltTy.bits .f32 = 32 ∨ (Rect.block (s := S16x8192) S16x8192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8192.size a ≤ S8192.size a
  hwx0_5 : ∀ i : grid0.Coords, EltTy.bits .f32 = 32 ∨ (Rect.block (s := S8192) S8192.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x2048.size a ≤ S32x8192.size a
  hwx0_6 : ∀ i : grid0.Coords, EltTy.bits .f32 = 32 ∨ (Rect.block (s := S32x8192) S32x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x8192.size a ≤ S32x8192.size a
  hwx0_7 : ∀ i : grid0.Coords, EltTy.bits .f32 = 32 ∨ (Rect.block (s := S32x8192) S8x8192.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x64.size a ≤ S32x64.size a
  hwx0_8 : ∀ i : grid0.Coords, EltTy.bits .f32 = 32 ∨ (Rect.block (s := S32x64) S8x64.size (cc0_transform_8 i) (hinb0_8 i)).WholeWords (EltTy.packing .f32)

variable [Facts₀]

def dot_S8x8192_S16x8192_S8x16_1_1_0_0_n_n : DotDims S8x8192 S16x8192 S8x16 where
  lhsContracting := [1]
  rhsContracting := [1]
  lhsNonContracting := [0]
  rhsNonContracting := [0]
  lhsBatch := []
  rhsBatch := []
  wf := dot_S8x8192_S16x8192_S8x16_1_1_0_0_n_n_wf
def dot_S8x16_S16x8192_S8x8192_1_0_0_1_n_n : DotDims S8x16 S16x8192 S8x8192 where
  lhsContracting := [1]
  rhsContracting := [0]
  lhsNonContracting := [0]
  rhsNonContracting := [1]
  lhsBatch := []
  rhsBatch := []
  wf := dot_S8x16_S16x8192_S8x8192_1_0_0_1_n_n_wf
def dot_S512x2048_S32x2048_S512x32_1_1_0_0_n_n : DotDims S512x2048 S32x2048 S512x32 where
  lhsContracting := [1]
  rhsContracting := [1]
  lhsNonContracting := [0]
  rhsNonContracting := [0]
  lhsBatch := []
  rhsBatch := []
  wf := dot_S512x2048_S32x2048_S512x32_1_1_0_0_n_n_wf

abbrev win0_0 : Pipeline.Window sig grid0 :=
  Pipeline.Window.ofSpec (Memref.whole main_arg0) S8x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S16x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S32x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S8x8192.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S8x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond1 i == 1#1) | 8 => fun i => !(k0_cond2 i == 1#1) | ⟨_ + 9, h⟩ => absurd h (Nat.not_lt.2 (Nat.le_add_left _ _))

class Facts : Prop extends Facts₀ where

variable [Facts]
-- ==== ReferenceIdeal.lean ====
abbrev S32x8192 : Shape := ⟨2, ![32, 8192]⟩
abbrev S32x64x8192 : Shape := ⟨3, ![32, 64, 8192]⟩
abbrev S16x8192 : Shape := ⟨2, ![16, 8192]⟩
abbrev S16 : Shape := ⟨1, ![16]⟩
abbrev S8192x16 : Shape := ⟨2, ![8192, 16]⟩
abbrev S8192 : Shape := ⟨1, ![8192]⟩
abbrev S32x16 : Shape := ⟨2, ![32, 16]⟩
abbrev S1x16 : Shape := ⟨2, ![1, 16]⟩
abbrev S1x8192 : Shape := ⟨2, ![1, 8192]⟩
abbrev S_ : Shape := ⟨0, ![]⟩
abbrev S32x64x16 : Shape := ⟨3, ![32, 64, 16]⟩
abbrev S32x1x16 : Shape := ⟨3, ![32, 1, 16]⟩
abbrev S32x64 : Shape := ⟨2, ![32, 64]⟩
abbrev S1x1 : Shape := ⟨2, ![1, 1]⟩

abbrev nBuf : Space → Nat
  | .hbm => 34
  | .vmem => 0
  | .smem => 0
  | _ => 0

abbrev bufTy : (tb : Table) → Fin (tcTables nBuf tb) → BufTy
  | .hbm, ⟨0, _⟩ => ⟨S32x8192, .f32⟩
  | .hbm, ⟨1, _⟩ => ⟨S32x64x8192, .f32⟩
  | .hbm, ⟨2, _⟩ => ⟨S16x8192, .f32⟩
  | .hbm, ⟨3, _⟩ => ⟨S16, .f32⟩
  | .hbm, ⟨4, _⟩ => ⟨S8192x16, .f32⟩
  | .hbm, ⟨5, _⟩ => ⟨S8192, .f32⟩
  | .hbm, ⟨6, _⟩ => ⟨S8192x16, .f32⟩
  | .hbm, ⟨7, _⟩ => ⟨S32x16, .f32⟩
  | .hbm, ⟨8, _⟩ => ⟨S1x16, .f32⟩
  | .hbm, ⟨9, _⟩ => ⟨S32x16, .f32⟩
  | .hbm, ⟨10, _⟩ => ⟨S32x16, .f32⟩
  | .hbm, ⟨11, _⟩ => ⟨S32x16, .f32⟩
  | .hbm, ⟨12, _⟩ => ⟨S16x8192, .f32⟩
  | .hbm, ⟨13, _⟩ => ⟨S32x8192, .f32⟩
  | .hbm, ⟨14, _⟩ => ⟨S1x8192, .f32⟩
  | .hbm, ⟨15, _⟩ => ⟨S32x8192, .f32⟩
  | .hbm, ⟨16, _⟩ => ⟨S32x8192, .f32⟩
  | .hbm, ⟨17, _⟩ => ⟨S32x16, .f32⟩
  | .hbm, ⟨18, _⟩ => ⟨S_, .f32⟩
  | .hbm, ⟨19, _⟩ => ⟨S32x16, .f32⟩
  | .hbm, ⟨20, _⟩ => ⟨S32x16, .f32⟩
  | .hbm, ⟨21, _⟩ => ⟨S32x64x16, .f32⟩
  | .hbm, ⟨22, _⟩ => ⟨S32x1x16, .f32⟩
  | .hbm, ⟨23, _⟩ => ⟨S32x64x16, .f32⟩
  | .hbm, ⟨24, _⟩ => ⟨S32x64x16, .f32⟩
  | .hbm, ⟨25, _⟩ => ⟨S32x64x8192, .f32⟩
  | .hbm, ⟨26, _⟩ => ⟨S32x64x8192, .f32⟩
  | .hbm, ⟨27, _⟩ => ⟨S_, .f32⟩
  | .hbm, ⟨28, _⟩ => ⟨S32x64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1x1, .f32⟩
  | _, _ => ⟨S32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  transposes_S16x8192_S8192x16_1_0 : S16x8192.Transposes [1, 0] S8192x16
  bcast_S16_S1x16_1 : S16.BroadcastsInDim S1x16 (![1] : Fin 1 → Fin S1x16.rank)
  bcast_S1x16_S32x16_0_1 : S1x16.BroadcastsInDim S32x16 (![0, 1] : Fin 2 → Fin S32x16.rank)
  transposes_S8192x16_S16x8192_1_0 : S8192x16.Transposes [1, 0] S16x8192
  bcast_S8192_S1x8192_1 : S8192.BroadcastsInDim S1x8192 (![1] : Fin 1 → Fin S1x8192.rank)
  bcast_S1x8192_S32x8192_0_1 : S1x8192.BroadcastsInDim S32x8192 (![0, 1] : Fin 2 → Fin S32x8192.rank)
  bcast_S_S32x16 : S_.BroadcastsInDim S32x16 (![] : Fin 0 → Fin S32x16.rank)
  bcast_S32x16_S32x1x16_0_2 : S32x16.BroadcastsInDim S32x1x16 (![0, 2] : Fin 2 → Fin S32x1x16.rank)
  bcast_S32x1x16_S32x64x16_0_1_2 : S32x1x16.BroadcastsInDim S32x64x16 (![0, 1, 2] : Fin 3 → Fin S32x64x16.rank)
  reducesTo_S32x64x8192_S32x64_d2 : S32x64x8192.ReducesTo [2] S32x64
  h_S_ : 0 < S_.numel
  reducesTo_S32x64_S_d0_1 : S32x64.ReducesTo [0, 1] S_
  shapeCasts_S_S1x1 : S_.ShapeCasts S1x1
  dot_S32x8192_S8192x16_S32x16_1_0_0_1_n_n_wf : DotDims.WF S32x8192 S8192x16 S32x16 [1] [0] [0] [1] [] []
  dot_S32x16_S16x8192_S32x8192_1_0_0_1_n_n_wf : DotDims.WF S32x16 S16x8192 S32x8192 [1] [0] [0] [1] [] []
  dot_S32x64x8192_S8192x16_S32x64x16_2_0_01_1_n_n_wf : DotDims.WF S32x64x8192 S8192x16 S32x64x16 [2] [0] [0, 1] [1] [] []
  dot_S32x64x16_S16x8192_S32x64x8192_2_0_01_1_n_n_wf : DotDims.WF S32x64x16 S16x8192 S32x64x8192 [2] [0] [0, 1] [1] [] []

variable [Facts₀]

def dot_S32x8192_S8192x16_S32x16_1_0_0_1_n_n : DotDims S32x8192 S8192x16 S32x16 where
  lhsContracting := [1]
  rhsContracting := [0]
  lhsNonContracting := [0]
  rhsNonContracting := [1]
  lhsBatch := []
  rhsBatch := []
  wf := dot_S32x8192_S8192x16_S32x16_1_0_0_1_n_n_wf
def dot_S32x16_S16x8192_S32x8192_1_0_0_1_n_n : DotDims S32x16 S16x8192 S32x8192 where
  lhsContracting := [1]
  rhsContracting := [0]
  lhsNonContracting := [0]
  rhsNonContracting := [1]
  lhsBatch := []
  rhsBatch := []
  wf := dot_S32x16_S16x8192_S32x8192_1_0_0_1_n_n_wf
def dot_S32x64x8192_S8192x16_S32x64x16_2_0_01_1_n_n : DotDims S32x64x8192 S8192x16 S32x64x16 where
  lhsContracting := [2]
  rhsContracting := [0]
  lhsNonContracting := [0, 1]
  rhsNonContracting := [1]
  lhsBatch := []
  rhsBatch := []
  wf := dot_S32x64x8192_S8192x16_S32x64x16_2_0_01_1_n_n_wf
def dot_S32x64x16_S16x8192_S32x64x8192_2_0_01_1_n_n : DotDims S32x64x16 S16x8192 S32x64x8192 where
  lhsContracting := [2]
  rhsContracting := [0]
  lhsNonContracting := [0, 1]
  rhsNonContracting := [1]
  lhsBatch := []
  rhsBatch := []
  wf := dot_S32x64x16_S16x8192_S32x64x8192_2_0_01_1_n_n_wf

class Facts : Prop extends Facts₀ where

variable [Facts]
-- ==== Proof.BodyBits.Setup.lean ====
/-
  The kernel body of this program runs on a 4 × 4 grid of points t = 4·i + j: i picks a tile of 8 rows, j a chunk of
  2048 positions of the long axis. At j = 0 the body computes the hidden layer, the network output for the tile and the
  tanh slope, and resets the running projection; at every j it adds the chunk's partial projection; at j = 3 it
  contracts the hidden axis into the quadratic forms. This module fixes the vocabulary the three cases share: the two
  branch conditions decided over the grid, where the two output windows are idle, the staging and scratch memrefs at
  a point, and the region invariant with the two scratch buffers spelt out.
-/
import proofs.«108424_j41781441855509_2_alg».proof.Proof.Gen.Kernel.Frame
import proofs.«108424_j41781441855509_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken: the point is the first chunk of its row tile. -/
abbrev isFirst (i : grid0.Coords) : Prop := k0_cond1 i = 1#1
/-- That is at the points t with t % 4 = 0. -/
theorem isFirst_iff : ∀ t : Fin cfg0.N, isFirst (grid0.coords t) ↔ t.val % 4 = 0 :=
  (by decide +kernel : ∀ t : Fin grid0.N, isFirst (grid0.coords t) ↔ t.val % 4 = 0)

/-- The body's second branch is taken: the point is the last chunk of its row tile. -/
abbrev isLast (i : grid0.Coords) : Prop := k0_cond2 i = 1#1
/-- That is at the points t with t % 4 = 3. -/
theorem isLast_iff : ∀ t : Fin cfg0.N, isLast (grid0.coords t) ↔ t.val % 4 = 3 :=
  (by decide +kernel : ∀ t : Fin grid0.N, isLast (grid0.coords t) ↔ t.val % 4 = 3)

/-- The seven input windows are never idle. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
/-- The network-output window is idle exactly off the first chunk. -/
theorem idle_7 : ∀ t : Fin cfg0.N, cfg0.idle 7 (grid0.coords t) = true ↔ t.val % 4 ≠ 0 :=
  (by decide +kernel : ∀ t : Fin grid0.N, cfg0.idle 7 (grid0.coords t) = true ↔ t.val % 4 ≠ 0)
/-- The quadratic-form window is idle exactly off the last chunk. -/
theorem idle_8 : ∀ t : Fin cfg0.N, cfg0.idle 8 (grid0.coords t) = true ↔ t.val % 4 ≠ 3 :=
  (by decide +kernel : ∀ t : Fin grid0.N, cfg0.idle 8 (grid0.coords t) = true ↔ t.val % 4 ≠ 3)

/-- Each window's current staging memref at point t, as the pipeline passes it to the body, and its wholeness. -/
abbrev ms_0 (t : Fin cfg0.N) : Memref sig .tc .vmem S8x8192 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S8x64x2048 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S16x8192 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S16 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S16x8192 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S8192 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S32x2048 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S8x8192 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S8x64 .f32 := win0_8.stage (cfg0.slots t 8)
abbrev hs_8 (t : Fin cfg0.N) : (ms_8 t).IsWhole := hstage0_8 ((cfg0.slots t 8).cast nbuf0_8)
/-- The two scratch operands: the running projection [512, 32] and the tanh slope [8, 16]. -/
abbrev accM : Memref sig .tc .vmem S512x32 .f32 := Memref.whole cc0_scratch0
abbrev slopeM : Memref sig .tc .vmem S8x16 .f32 := Memref.whole cc0_scratch1

/-- The region's invariant before anything ran: both scratch buffers owned at some contents, and the generator register. -/
theorem phiA_eq (c : Dev nD) :
    (Pipeline.ΦA spec0 c : sProp 𝕄)
      = iprop(iprop((∃ d, owns (c : Thread nD τ) accM fullShare d) ∗ (∃ d, owns (c : Thread nD τ) slopeM fullShare d)) ∗ (∃ r, prngReg c r)) := by
  unfold Pipeline.ΦA; rw [scopedRest0_eq]; simp only [accM, slopeM, owns_whole]; try rfl

end Cert.Kernel.Body

end
-- ==== Proof.BodyBits.CaseA.lean ====
/-
  The body at the first chunk of a row tile (j = 0). It resets the running projection, computes the hidden layer from
  the tile's rows, stores the network output for the tile and the tanh slope, then adds the first chunk's partial
  projection. What it leaves in the three buffers it writes is found as the list of its stores (last first); the
  quadratic-form buffer is not touched and is handed back as it was found.
-/
import proofs.«108424_j41781441855509_2_alg».proof.Proof.BodyBits.Setup

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores of the body at a first chunk — into the network-output buffer, the running projection and the slope
    buffer — together with the proof that, on whole staging memrefs holding the inputs' blocks, the body runs and
    hands every buffer back: the inputs as they were, the three written buffers with those stores applied, the
    quadratic-form buffer at the contents `y10` it had. -/
noncomputable def runFirst (c : Dev nD) (i : grid0.Coords) (arg2 : Memref sig .tc .vmem S8x8192 .f32) (harg2 : arg2.IsWhole) (arg3 : Memref sig .tc .vmem S8x64x2048 .f32) (harg3 : arg3.IsWhole) (arg4 : Memref sig .tc .vmem S16x8192 .f32) (harg4 : arg4.IsWhole) (arg5 : Memref sig .tc .vmem S16 .f32) (harg5 : arg5.IsWhole) (arg6 : Memref sig .tc .vmem S16x8192 .f32) (harg6 : arg6.IsWhole) (arg7 : Memref sig .tc .vmem S8192 .f32) (harg7 : arg7.IsWhole) (arg8 : Memref sig .tc .vmem S32x2048 .f32) (harg8 : arg8.IsWhole) (arg9 : Memref sig .tc .vmem S8x8192 .f32) (harg9 : arg9.IsWhole) (arg10 : Memref sig .tc .vmem S8x64 .f32) (harg10 : arg10.IsWhole) (arg11 : Memref sig .tc .vmem S512x32 .f32) (harg11 : arg11.IsWhole) (arg12 : Memref sig .tc .vmem S8x16 .f32) (harg12 : arg12.IsWhole) (hc0 : isFirst i) (hc1 : ¬isLast i)
    (x0 : Vec F S8x8192 .f32) (x1 : Vec F S8x64x2048 .f32) (x2 : Vec F S16x8192 .f32) (x3 : Vec F S16 .f32) (x4 : Vec F S16x8192 .f32) (x5 : Vec F S8192 .f32) (x6 : Vec F S32x2048 .f32) :
    (L9 : List (View.Piece (Elt F) S8x8192 .f32)) ×' (L11 : List (View.Piece (Elt F) S512x32 .f32)) ×'
    { L12 : List (View.Piece (Elt F) S8x16 .f32) //
      ∀ (E : Set ℕ) (K : PUnit → sProp 𝕄) (y10 : Vec F S8x64 .f32),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare y10 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L9) ∗ owns (c : Thread nD τ) arg10 fullShare y10 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, ?_, ?_, fun E K y10 => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [HS0]; · iexists _; iexact HS0
    iexists _; iexact HS1

end Cert.Kernel.Body

end
-- ==== Proof.BodyBits.CaseB.lean ====
/-
  The body at a middle chunk of a row tile (j = 1, 2). Neither branch is taken: the body loads the chunk of probes and
  the chunk of the stacked weights, reads the running projection, and stores it back with the chunk's partial
  projection added. The two output buffers and the slope buffer are not touched and are handed back as found.
-/
import proofs.«108424_j41781441855509_2_alg».proof.Proof.BodyBits.CaseA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The store of the body at a middle chunk into the running projection, found from the run, with the proof that the
    body runs from the running projection at `a` and hands back every other buffer at the contents it had. -/
noncomputable def runMid (c : Dev nD) (i : grid0.Coords) (arg2 : Memref sig .tc .vmem S8x8192 .f32) (harg2 : arg2.IsWhole) (arg3 : Memref sig .tc .vmem S8x64x2048 .f32) (harg3 : arg3.IsWhole) (arg4 : Memref sig .tc .vmem S16x8192 .f32) (harg4 : arg4.IsWhole) (arg5 : Memref sig .tc .vmem S16 .f32) (harg5 : arg5.IsWhole) (arg6 : Memref sig .tc .vmem S16x8192 .f32) (harg6 : arg6.IsWhole) (arg7 : Memref sig .tc .vmem S8192 .f32) (harg7 : arg7.IsWhole) (arg8 : Memref sig .tc .vmem S32x2048 .f32) (harg8 : arg8.IsWhole) (arg9 : Memref sig .tc .vmem S8x8192 .f32) (harg9 : arg9.IsWhole) (arg10 : Memref sig .tc .vmem S8x64 .f32) (harg10 : arg10.IsWhole) (arg11 : Memref sig .tc .vmem S512x32 .f32) (harg11 : arg11.IsWhole) (arg12 : Memref sig .tc .vmem S8x16 .f32) (harg12 : arg12.IsWhole) (hc0 : ¬isFirst i) (hc1 : ¬isLast i)
    (x0 : Vec F S8x8192 .f32) (x1 : Vec F S8x64x2048 .f32) (x2 : Vec F S16x8192 .f32) (x3 : Vec F S16 .f32) (x4 : Vec F S16x8192 .f32) (x5 : Vec F S8192 .f32) (x6 : Vec F S32x2048 .f32) (a : Vec F S512x32 .f32) :
    { L11 : List (View.Piece (Elt F) S512x32 .f32) //
      ∀ (E : Set ℕ) (K : PUnit → sProp 𝕄) (y9 : Vec F S8x8192 .f32) (y10 : Vec F S8x64 .f32) (y12 : Vec F S8x16 .f32),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y9 ∗ owns (c : Thread nD τ) arg10 fullShare y10 ∗ owns (c : Thread nD τ) arg11 fullShare a ∗ owns (c : Thread nD τ) arg12 fullShare y12
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y9 ∗ owns (c : Thread nD τ) arg10 fullShare y10 ∗ (∃ f, arg11.view.loc (c : Thread nD τ) ↦[arg11.view.set]{fullShare} arg11.view.writes (Elt F) f L11) ∗ owns (c : Thread nD τ) arg12 fullShare y12) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, fun E K y9 y10 y12 => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; isplitr; · ipureintro; exact harg12.read_unread _
    iexact HS1

end Cert.Kernel.Body

end
-- ==== Proof.BodyBits.CaseC.lean ====
/-
  The body at the last chunk of a row tile (j = 3). It adds the last partial projection to the running projection and
  then, in its second branch, reads the completed projection and the tanh slope and stores the tile's quadratic forms.
  The network-output buffer is not touched — it still holds what the first chunk stored — and is handed back as found,
  as is the slope buffer.
-/
import proofs.«108424_j41781441855509_2_alg».proof.Proof.BodyBits.CaseB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores of the body at a last chunk — into the quadratic-form buffer and the running projection — with the
    proof that the body runs from the running projection at `a` and the slope buffer at `s`, and hands back the
    network-output buffer and the slope buffer at the contents they had. -/
noncomputable def runLast (c : Dev nD) (i : grid0.Coords) (arg2 : Memref sig .tc .vmem S8x8192 .f32) (harg2 : arg2.IsWhole) (arg3 : Memref sig .tc .vmem S8x64x2048 .f32) (harg3 : arg3.IsWhole) (arg4 : Memref sig .tc .vmem S16x8192 .f32) (harg4 : arg4.IsWhole) (arg5 : Memref sig .tc .vmem S16 .f32) (harg5 : arg5.IsWhole) (arg6 : Memref sig .tc .vmem S16x8192 .f32) (harg6 : arg6.IsWhole) (arg7 : Memref sig .tc .vmem S8192 .f32) (harg7 : arg7.IsWhole) (arg8 : Memref sig .tc .vmem S32x2048 .f32) (harg8 : arg8.IsWhole) (arg9 : Memref sig .tc .vmem S8x8192 .f32) (harg9 : arg9.IsWhole) (arg10 : Memref sig .tc .vmem S8x64 .f32) (harg10 : arg10.IsWhole) (arg11 : Memref sig .tc .vmem S512x32 .f32) (harg11 : arg11.IsWhole) (arg12 : Memref sig .tc .vmem S8x16 .f32) (harg12 : arg12.IsWhole) (hc0 : ¬isFirst i) (hc1 : isLast i)
    (x0 : Vec F S8x8192 .f32) (x1 : Vec F S8x64x2048 .f32) (x2 : Vec F S16x8192 .f32) (x3 : Vec F S16 .f32) (x4 : Vec F S16x8192 .f32) (x5 : Vec F S8192 .f32) (x6 : Vec F S32x2048 .f32) (a : Vec F S512x32 .f32) (s : Vec F S8x16 .f32) :
    (L10 : List (View.Piece (Elt F) S8x64 .f32)) ×'
    { L11 : List (View.Piece (Elt F) S512x32 .f32) //
      ∀ (E : Set ℕ) (K : PUnit → sProp 𝕄) (y9 : Vec F S8x8192 .f32),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y9 ∗ (∃ d, owns (c : Thread nD τ) arg10 fullShare d) ∗ owns (c : Thread nD τ) arg11 fullShare a ∗ owns (c : Thread nD τ) arg12 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y9 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ owns (c : Thread nD τ) arg12 fullShare s) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, ?_, fun E K y9 => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexists _; iexact HS0
    iexists _; isplitr; · ipureintro; exact harg12.read_unread _
    iexact HS1

end Cert.Kernel.Body

end
-- ==== Proof.BodyBits.Covers.lean ====
/-
  Each buffer a case writes is written whole by that case's last store into it, so the case's stores cover the buffer
  and what they leave does not depend on what the buffer held before.
-/
import proofs.«108424_j41781441855509_2_alg».proof.Proof.BodyBits.CaseC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem runFirst_cover9 (c : Dev nD) (i : grid0.Coords) (arg2 : Memref sig .tc .vmem S8x8192 .f32) (harg2 : arg2.IsWhole) (arg3 : Memref sig .tc .vmem S8x64x2048 .f32) (harg3 : arg3.IsWhole) (arg4 : Memref sig .tc .vmem S16x8192 .f32) (harg4 : arg4.IsWhole) (arg5 : Memref sig .tc .vmem S16 .f32) (harg5 : arg5.IsWhole) (arg6 : Memref sig .tc .vmem S16x8192 .f32) (harg6 : arg6.IsWhole) (arg7 : Memref sig .tc .vmem S8192 .f32) (harg7 : arg7.IsWhole) (arg8 : Memref sig .tc .vmem S32x2048 .f32) (harg8 : arg8.IsWhole) (arg9 : Memref sig .tc .vmem S8x8192 .f32) (harg9 : arg9.IsWhole) (arg10 : Memref sig .tc .vmem S8x64 .f32) (harg10 : arg10.IsWhole) (arg11 : Memref sig .tc .vmem S512x32 .f32) (harg11 : arg11.IsWhole) (arg12 : Memref sig .tc .vmem S8x16 .f32) (harg12 : arg12.IsWhole) (hc0 : isFirst i) (hc1 : ¬isLast i) (x0 : Vec F S8x8192 .f32) (x1 : Vec F S8x64x2048 .f32) (x2 : Vec F S16x8192 .f32) (x3 : Vec F S16 .f32) (x4 : Vec F S16x8192 .f32) (x5 : Vec F S8192 .f32) (x6 : Vec F S32x2048 .f32) (y : S8x8192.Idx) :
    ∃ pc ∈ (runFirst (F := F) c i arg2 harg2 arg3 harg3 arg4 harg4 arg5 harg5 arg6 harg6 arg7 harg7 arg8 harg8 arg9 harg9 arg10 harg10 arg11 harg11 arg12 harg12 hc0 hc1 x0 x1 x2 x3 x4 x5 x6).1, y ∈ pc.1.set :=
  View.cover_of_tiledL (runFirst (F := F) c i arg2 harg2 arg3 harg3 arg4 harg4 arg5 harg5 arg6 harg6 arg7 harg7 arg8 harg8 arg9 harg9 arg10 harg10 arg11 harg11 arg12 harg12 hc0 hc1 x0 x1 x2 x3 x4 x5 x6).1 S8x8192.size (by sl_kernel_rfl) y
theorem runFirst_cover11 (c : Dev nD) (i : grid0.Coords) (arg2 : Memref sig .tc .vmem S8x8192 .f32) (harg2 : arg2.IsWhole) (arg3 : Memref sig .tc .vmem S8x64x2048 .f32) (harg3 : arg3.IsWhole) (arg4 : Memref sig .tc .vmem S16x8192 .f32) (harg4 : arg4.IsWhole) (arg5 : Memref sig .tc .vmem S16 .f32) (harg5 : arg5.IsWhole) (arg6 : Memref sig .tc .vmem S16x8192 .f32) (harg6 : arg6.IsWhole) (arg7 : Memref sig .tc .vmem S8192 .f32) (harg7 : arg7.IsWhole) (arg8 : Memref sig .tc .vmem S32x2048 .f32) (harg8 : arg8.IsWhole) (arg9 : Memref sig .tc .vmem S8x8192 .f32) (harg9 : arg9.IsWhole) (arg10 : Memref sig .tc .vmem S8x64 .f32) (harg10 : arg10.IsWhole) (arg11 : Memref sig .tc .vmem S512x32 .f32) (harg11 : arg11.IsWhole) (arg12 : Memref sig .tc .vmem S8x16 .f32) (harg12 : arg12.IsWhole) (hc0 : isFirst i) (hc1 : ¬isLast i) (x0 : Vec F S8x8192 .f32) (x1 : Vec F S8x64x2048 .f32) (x2 : Vec F S16x8192 .f32) (x3 : Vec F S16 .f32) (x4 : Vec F S16x8192 .f32) (x5 : Vec F S8192 .f32) (x6 : Vec F S32x2048 .f32) (y : S512x32.Idx) :
    ∃ pc ∈ (runFirst (F := F) c i arg2 harg2 arg3 harg3 arg4 harg4 arg5 harg5 arg6 harg6 arg7 harg7 arg8 harg8 arg9 harg9 arg10 harg10 arg11 harg11 arg12 harg12 hc0 hc1 x0 x1 x2 x3 x4 x5 x6).2.1, y ∈ pc.1.set :=
  View.cover_of_tiledL (runFirst (F := F) c i arg2 harg2 arg3 harg3 arg4 harg4 arg5 harg5 arg6 harg6 arg7 harg7 arg8 harg8 arg9 harg9 arg10 harg10 arg11 harg11 arg12 harg12 hc0 hc1 x0 x1 x2 x3 x4 x5 x6).2.1 S512x32.size (by sl_kernel_rfl) y
theorem runFirst_cover12 (c : Dev nD) (i : grid0.Coords) (arg2 : Memref sig .tc .vmem S8x8192 .f32) (harg2 : arg2.IsWhole) (arg3 : Memref sig .tc .vmem S8x64x2048 .f32) (harg3 : arg3.IsWhole) (arg4 : Memref sig .tc .vmem S16x8192 .f32) (harg4 : arg4.IsWhole) (arg5 : Memref sig .tc .vmem S16 .f32) (harg5 : arg5.IsWhole) (arg6 : Memref sig .tc .vmem S16x8192 .f32) (harg6 : arg6.IsWhole) (arg7 : Memref sig .tc .vmem S8192 .f32) (harg7 : arg7.IsWhole) (arg8 : Memref sig .tc .vmem S32x2048 .f32) (harg8 : arg8.IsWhole) (arg9 : Memref sig .tc .vmem S8x8192 .f32) (harg9 : arg9.IsWhole) (arg10 : Memref sig .tc .vmem S8x64 .f32) (harg10 : arg10.IsWhole) (arg11 : Memref sig .tc .vmem S512x32 .f32) (harg11 : arg11.IsWhole) (arg12 : Memref sig .tc .vmem S8x16 .f32) (harg12 : arg12.IsWhole) (hc0 : isFirst i) (hc1 : ¬isLast i) (x0 : Vec F S8x8192 .f32) (x1 : Vec F S8x64x2048 .f32) (x2 : Vec F S16x8192 .f32) (x3 : Vec F S16 .f32) (x4 : Vec F S16x8192 .f32) (x5 : Vec F S8192 .f32) (x6 : Vec F S32x2048 .f32) (y : S8x16.Idx) :
    ∃ pc ∈ (runFirst (F := F) c i arg2 harg2 arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (runFirst (F := F) c i arg2 harg2 arg3 harg3 arg4 harg4 arg5 harg5 arg6 harg6 arg7 harg7 arg8 harg8 arg9 harg9 arg10 harg10 arg11 harg11 arg12 harg12 hc0 hc1 x0 x1 x2 x3 x4 x5 x6).2.2.1 S8x16.size (by sl_kernel_rfl) y
theorem runMid_cover11 (c : Dev nD) (i : grid0.Coords) (arg2 : Memref sig .tc .vmem S8x8192 .f32) (harg2 : arg2.IsWhole) (arg3 : Memref sig .tc .vmem S8x64x2048 .f32) (harg3 : arg3.IsWhole) (arg4 : Memref sig .tc .vmem S16x8192 .f32) (harg4 : arg4.IsWhole) (arg5 : Memref sig .tc .vmem S16 .f32) (harg5 : arg5.IsWhole) (arg6 : Memref sig .tc .vmem S16x8192 .f32) (harg6 : arg6.IsWhole) (arg7 : Memref sig .tc .vmem S8192 .f32) (harg7 : arg7.IsWhole) (arg8 : Memref sig .tc .vmem S32x2048 .f32) (harg8 : arg8.IsWhole) (arg9 : Memref sig .tc .vmem S8x8192 .f32) (harg9 : arg9.IsWhole) (arg10 : Memref sig .tc .vmem S8x64 .f32) (harg10 : arg10.IsWhole) (arg11 : Memref sig .tc .vmem S512x32 .f32) (harg11 : arg11.IsWhole) (arg12 : Memref sig .tc .vmem S8x16 .f32) (harg12 : arg12.IsWhole) (hc0 : ¬isFirst i) (hc1 : ¬isLast i) (x0 : Vec F S8x8192 .f32) (x1 : Vec F S8x64x2048 .f32) (x2 : Vec F S16x8192 .f32) (x3 : Vec F S16 .f32) (x4 : Vec F S16x8192 .f32) (x5 : Vec F S8192 .f32) (x6 : Vec F S32x2048 .f32) (a : Vec F S512x32 .f32) (y : S512x32.Idx) :
    ∃ pc ∈ (runMid (F := F) c i arg2 harg2 arg3 harg3 arg4 harg4 arg5 harg5 arg6 harg6 arg7 harg7 arg8 harg8 arg9 harg9 arg10 harg10 arg11 harg11 arg12 harg12 hc0 hc1 x0 x1 x2 x3 x4 x5 x6 a).1, y ∈ pc.1.set :=
  View.cover_of_tiledL (runMid (F := F) c i arg2 harg2 arg3 harg3 arg4 harg4 arg5 harg5 arg6 harg6 arg7 harg7 arg8 harg8 arg9 harg9 arg10 harg10 arg11 harg11 arg12 harg12 hc0 hc1 x0 x1 x2 x3 x4 x5 x6 a).1 S512x32.size (by sl_kernel_rfl) y
theorem runLast_cover10 (c : Dev nD) (i : grid0.Coords) (arg2 : Memref sig .tc .vmem S8x8192 .f32) (harg2 : arg2.IsWhole) (arg3 : Memref sig .tc .vmem S8x64x2048 .f32) (harg3 : arg3.IsWhole) (arg4 : Memref sig .tc .vmem S16x8192 .f32) (harg4 : arg4.IsWhole) (arg5 : Memref sig .tc .vmem S16 .f32) (harg5 : arg5.IsWhole) (arg6 : Memref sig .tc .vmem S16x8192 .f32) (harg6 : arg6.IsWhole) (arg7 : Memref sig .tc .vmem S8192 .f32) (harg7 : arg7.IsWhole) (arg8 : Memref sig .tc .vmem S32x2048 .f32) (harg8 : arg8.IsWhole) (arg9 : Memref sig .tc .vmem S8x8192 .f32) (harg9 : arg9.IsWhole) (arg10 : Memref sig .tc .vmem S8x64 .f32) (harg10 : arg10.IsWhole) (arg11 : Memref sig .tc .vmem S512x32 .f32) (harg11 : arg11.IsWhole) (arg12 : Memref sig .tc .vmem S8x16 .f32) (harg12 : arg12.IsWhole) (hc0 : ¬isFirst i) (hc1 : isLast i) (x0 : Vec F S8x8192 .f32) (x1 : Vec F S8x64x2048 .f32) (x2 : Vec F S16x8192 .f32) (x3 : Vec F S16 .f32) (x4 : Vec F S16x8192 .f32) (x5 : Vec F S8192 .f32) (x6 : Vec F S32x2048 .f32) (a : Vec F S512x32 .f32) (s : Vec F S8x16 .f32) (y : S8x64.Idx) :
    ∃ pc ∈ (runLast (F := F) c i arg2 harg2 arg3 harg3 arg4 harg4 arg5 harg5 arg6 harg6 arg7 harg7 arg8 harg8 arg9 harg9 arg10 harg10 arg11 harg11 arg12 harg12 hc0 hc1 x0 x1 x2 x3 x4 x5 x6 a s).1, y ∈ pc.1.set :=
  View.cover_of_tiledL (runLast (F := F) c i arg2 harg2 arg3 harg3 arg4 harg4 arg5 harg5 arg6 harg6 arg7 harg7 arg8 harg8 arg9 harg9 arg10 harg10 arg11 harg11 arg12 harg12 hc0 hc1 x0 x1 x2 x3 x4 x5 x6 a s).1 S8x64.size (by sl_kernel_rfl) y
theorem runLast_cover11 (c : Dev nD) (i : grid0.Coords) (arg2 : Memref sig .tc .vmem S8x8192 .f32) (harg2 : arg2.IsWhole) (arg3 : Memref sig .tc .vmem S8x64x2048 .f32) (harg3 : arg3.IsWhole) (arg4 : Memref sig .tc .vmem S16x8192 .f32) (harg4 : arg4.IsWhole) (arg5 : Memref sig .tc .vmem S16 .f32) (harg5 : arg5.IsWhole) (arg6 : Memref sig .tc .vmem S16x8192 .f32) (harg6 : arg6.IsWhole) (arg7 : Memref sig .tc .vmem S8192 .f32) (harg7 : arg7.IsWhole) (arg8 : Memref sig .tc .vmem S32x2048 .f32) (harg8 : arg8.IsWhole) (arg9 : Memref sig .tc .vmem S8x8192 .f32) (harg9 : arg9.IsWhole) (arg10 : Memref sig .tc .vmem S8x64 .f32) (harg10 : arg10.IsWhole) (arg11 : Memref sig .tc .vmem S512x32 .f32) (harg11 : arg11.IsWhole) (arg12 : Memref sig .tc .vmem S8x16 .f32) (harg12 : arg12.IsWhole) (hc0 : ¬isFirst i) (hc1 : isLast i) (x0 : Vec F S8x8192 .f32) (x1 : Vec F S8x64x2048 .f32) (x2 : Vec F S16x8192 .f32) (x3 : Vec F S16 .f32) (x4 : Vec F S16x8192 .f32) (x5 : Vec F S8192 .f32) (x6 : Vec F S32x2048 .f32) (a : Vec F S512x32 .f32) (s : Vec F S8x16 .f32) (y : S512x32.Idx) :
    ∃ pc ∈ (runLast (F := F) c i arg2 harg2 arg3 harg3 arg4 harg4 arg5 harg5 arg6 harg6 arg7 harg7 arg8 harg8 arg9 harg9 arg10 harg10 arg11 harg11 arg12 harg12 hc0 hc1 x0 x1 x2 x3 x4 x5 x6 a s).2.1, y ∈ pc.1.set :=
  View.cover_of_tiledL (runLast (F := F) c i arg2 harg2 arg3 harg3 arg4 harg4 arg5 harg5 arg6 harg6 arg7 harg7 arg8 harg8 arg9 harg9 arg10 harg10 arg11 harg11 arg12 harg12 hc0 hc1 x0 x1 x2 x3 x4 x5 x6 a s).2.1 S512x32.size (by sl_kernel_rfl) y

end Cert.Kernel.Body

end
-- ==== Proof.BodyBits.Data.lean ====
/-
  The proof data of the kernel's one region, point by point (t = 4·i + j).

  What the three cases leave is named once: at a first chunk the network output of the tile, the reset running
  projection plus the first partial projection, and the tanh slope; at a later chunk the running projection of the
  point before plus this chunk's partial projection; at the last chunk also the tile's quadratic forms. The network
  output is stored at j = 0 and written back only after j = 3, its buffer untouched in between, so its contents at
  every point of the tile are those the tile's base point 4·i left; the slope buffer likewise. The running projection
  is a recursion on the point. From these the region invariant (the two scratch buffers at named contents after
  every point) and the body obligation follow, case by case.
-/
import proofs.«108424_j41781441855509_2_alg».proof.Proof.BodyBits.Covers

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases at a point -/

/-- The body's run at a first-chunk point, on the point's memrefs and input blocks. -/
def firstAt (c : Dev nD) (t : Fin cfg0.N) (h0 : t.val % 4 = 0) :=
  runFirst (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accM (Memref.isWhole_whole _) slopeM (Memref.isWhole_whole _)
    ((isFirst_iff t).mpr h0) (fun h => by have := (isLast_iff t).mp h; omega) (iblk m c 0 t) (iblk m c 1 t) (iblk m c 2 t) (iblk m c 3 t) (iblk m c 4 t) (iblk m c 5 t) (iblk m c 6 t)

/-- The body's run at a middle-chunk point, from the running projection `a`. -/
def midAt (c : Dev nD) (t : Fin cfg0.N) (h0 : ¬t.val % 4 = 0) (h3 : ¬t.val % 4 = 3) (a : Vec F S512x32 .f32) :=
  runMid (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accM (Memref.isWhole_whole _) slopeM (Memref.isWhole_whole _)
    (fun h => h0 ((isFirst_iff t).mp h)) (fun h => h3 ((isLast_iff t).mp h)) (iblk m c 0 t) (iblk m c 1 t) (iblk m c 2 t) (iblk m c 3 t) (iblk m c 4 t) (iblk m c 5 t) (iblk m c 6 t) a

/-- The body's run at a last-chunk point, from the running projection `a` and the slope `s`. -/
def lastAt (c : Dev nD) (t : Fin cfg0.N) (h3 : t.val % 4 = 3) (a : Vec F S512x32 .f32) (s : Vec F S8x16 .f32) :=
  runLast (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accM (Memref.isWhole_whole _) slopeM (Memref.isWhole_whole _)
    (fun h => by have := (isFirst_iff t).mp h; omega) ((isLast_iff t).mpr h3) (iblk m c 0 t) (iblk m c 1 t) (iblk m c 2 t) (iblk m c 3 t) (iblk m c 4 t) (iblk m c 5 t) (iblk m c 6 t) a s

/-- The network output a first chunk leaves for its tile. -/
def fOf (c : Dev nD) (t : Fin cfg0.N) (h0 : t.val % 4 = 0) : Vec F S8x8192 .f32 := View.canon (firstAt m c t h0).1
/-- The running projection a first chunk leaves: reset, plus the first partial projection. -/
def acc0Of (c : Dev nD) (t : Fin cfg0.N) (h0 : t.val % 4 = 0) : Vec F S512x32 .f32 := View.canon (firstAt m c t h0).2.1
/-- The tanh slope a first chunk leaves for its tile. -/
def slopeOf (c : Dev nD) (t : Fin cfg0.N) (h0 : t.val % 4 = 0) : Vec F S8x16 .f32 := View.canon (firstAt m c t h0).2.2.1

theorem fOf_congr (c : Dev nD) {s s' : Fin cfg0.N} (e : s = s') (h : s.val % 4 = 0) (h' : s'.val % 4 = 0) :
    fOf m c s h = fOf m c s' h' := by subst e; rfl
theorem slopeOf_congr (c : Dev nD) {s s' : Fin cfg0.N} (e : s = s') (h : s.val % 4 = 0) (h' : s'.val % 4 = 0) :
    slopeOf m c s h = slopeOf m c s' h' := by subst e; rfl

/-! ## The base point of a tile -/

/-- The first point of the row tile that point t belongs to. -/
def base (t : Fin cfg0.N) : Fin cfg0.N := ⟨t.val - t.val % 4, Nat.lt_of_le_of_lt (Nat.sub_le _ _) t.isLt⟩
theorem base_mod (t : Fin cfg0.N) : (base t).val % 4 = 0 := by show (t.val - t.val % 4) % 4 = 0; omega
theorem base_of_first (t : Fin cfg0.N) (h0 : t.val % 4 = 0) : base t = t :=
  Fin.ext (by show t.val - t.val % 4 = t.val; omega)
theorem base_pred (t : Fin cfg0.N) (hne : t.val % 4 ≠ 0) (hlt : t.val - 1 < cfg0.N) : base ⟨t.val - 1, hlt⟩ = base t :=
  Fin.ext (by show (t.val - 1) - (t.val - 1) % 4 = t.val - t.val % 4; omega)

/-! ## The running projection, point by point -/

/-- What the running-projection scratch holds after the body at position n. -/
def accAt (c : Dev nD) : (n : ℕ) → n < cfg0.N → Vec F S512x32 .f32
  | 0, hn => acc0Of m c ⟨0, hn⟩ (Nat.zero_mod _)
  | n + 1, hn =>
    if h0 : (n + 1) % 4 = 0 then acc0Of m c ⟨n + 1, hn⟩ h0
    else if h3 : (n + 1) % 4 = 3 then
      View.canon (lastAt m c ⟨n + 1, hn⟩ h3 (accAt c n (Nat.lt_of_succ_lt hn)) (slopeOf m c (base ⟨n + 1, hn⟩) (base_mod _))).2.1
    else View.canon (midAt m c ⟨n + 1, hn⟩ h0 h3 (accAt c n (Nat.lt_of_succ_lt hn))).1

theorem accAt_first (c : Dev nD) (t : Fin cfg0.N) (h0 : t.val % 4 = 0) : accAt m c t.val t.isLt = acc0Of m c t h0 := by
  obtain ⟨n, hn⟩ := t
  cases n with
  | zero => rfl
  | succ n => exact dif_pos h0
theorem accAt_mid (c : Dev nD) (t : Fin cfg0.N) (h0 : ¬t.val % 4 = 0) (h3 : ¬t.val % 4 = 3) :
    accAt m c t.val t.isLt
      = View.canon (midAt m c t h0 h3 (accAt m c (t.val - 1) (Nat.lt_of_le_of_lt (Nat.sub_le _ _) t.isLt))).1 := by
  obtain ⟨n, hn⟩ := t
  cases n with
  | zero => exact absurd (Nat.zero_mod _) h0
  | succ n => exact (dif_neg h0).trans (dif_neg h3)
theorem accAt_last (c : Dev nD) (t : Fin cfg0.N) (h3 : t.val % 4 = 3) :
    accAt m c t.val t.isLt
      = View.canon (lastAt m c t h3 (accAt m c (t.val - 1) (Nat.lt_of_le_of_lt (Nat.sub_le _ _) t.isLt)) (slopeOf m c (base t) (base_mod t))).2.1 := by
  obtain ⟨n, hn⟩ := t
  cases n with
  | zero => exact absurd (show (0 : ℕ) % 4 = 3 from h3) (by decide)
  | succ n =>
    have h3' : (n + 1) % 4 = 3 := h3
    exact (dif_neg (fun h => by omega)).trans (dif_pos h3')

/-- The tile's quadratic forms, as the last chunk leaves them. -/
def traceOf (c : Dev nD) (t : Fin cfg0.N) (h3 : t.val % 4 = 3) : Vec F S8x64 .f32 :=
  View.canon (lastAt m c t h3 (accAt m c (t.val - 1) (Nat.lt_of_le_of_lt (Nat.sub_le _ _) t.isLt)) (slopeOf m c (base t) (base_mod t))).1

/-! ## The region invariant -/

/-- Before the first point: both scratch buffers at anything. After point n: the running projection at `accAt n`, the
    slope buffer at what the tile's base point left, and the generator register at some state. -/
def Phi (c : Dev nD) : (n : ℕ) → n ≤ cfg0.N → sProp 𝕄
  | 0, _ => Pipeline.ΦA spec0 c
  | n + 1, hn => iprop(iprop(owns (c : Thread nD τ) accM fullShare (accAt m c n hn) ∗ owns (c : Thread nD τ) slopeM fullShare (slopeOf m c (base ⟨n, hn⟩) (base_mod _))) ∗ (∃ r, prngReg c r))

theorem Phi_zero (c : Dev nD) (n : ℕ) (h : n ≤ cfg0.N) (hz : n = 0) : Phi m c n h = Pipeline.ΦA spec0 c := by
  subst hz; rfl
theorem Phi_succ (c : Dev nD) (n : ℕ) (hn : n < cfg0.N) :
    Phi m c (n + 1) hn = iprop(iprop(owns (c : Thread nD τ) accM fullShare (accAt m c n hn) ∗ owns (c : Thread nD τ) slopeM fullShare (slopeOf m c (base ⟨n, hn⟩) (base_mod _))) ∗ (∃ r, prngReg c r)) := rfl
theorem Phi_pos (c : Dev nD) (n : ℕ) (h : n ≤ cfg0.N) (hz : n ≠ 0) :
    Phi m c n h = iprop(iprop(owns (c : Thread nD τ) accM fullShare (accAt m c (n - 1) (by omega)) ∗ owns (c : Thread nD τ) slopeM fullShare (slopeOf m c (base ⟨n - 1, by omega⟩) (base_mod _))) ∗ (∃ r, prngReg c r)) := by
  cases n with
  | zero => exact absurd rfl hz
  | succ n => rfl

/-! ## The proof data -/

/-- The proof data of the region on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => fOf m c (base t) (base_mod t)
    | ⟨8, h⟩ => if h3 : t.val % 4 = 3 then traceOf m c t h3 else Pipeline.Dat.unnamed (cfg := cfg0) ⟨8, h⟩ t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) :
    (dats m 0 c).Φ t.castSucc = Phi m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = fOf m c (base t) (base_mod t) := by dsimp only [dats]
theorem after_8 (c : Dev nD) (t : Fin cfg0.N) (h3 : t.val % 4 = 3) : (dats m 0 c).after 8 t = traceOf m c t h3 := by
  dsimp only [dats]; exact dif_pos h3

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- Off the first chunk the network-output buffer holds what it held a point earlier — what the base point stored,
    if that was the point before, else what was found there: it is neither fetched nor written back in between, and
    the body does not touch it. -/
theorem before_7_step (c : Dev nD) (t : Fin cfg0.N) (hne : t.val % 4 ≠ 0) (d) :
    (dats m 0 c).before 7 t d
      = if (t.val - 1) % 4 = 0 then (dats m 0 c).after 7 ⟨t.val - 1, Nat.lt_of_le_of_lt (Nat.sub_le _ _) t.isLt⟩
        else (dats m 0 c).before 7 ⟨t.val - 1, Nat.lt_of_le_of_lt (Nat.sub_le _ _) t.isLt⟩ d := by
  have ht : t.val ≠ 0 := fun h => hne (by rw [h])
  rw [Dat.before_of_pos _ 7 t ht ((cfg0.win 7).fetch_out rfl t) d]
  have hfl : (cfg0.win 7).flush ⟨t.val - 1, Nat.lt_of_le_of_lt (Nat.sub_le _ _) t.isLt⟩ = false :=
    Bool.eq_false_iff.mpr fun h => by have := (flush0_7 _).mp h; dsimp only at this; omega
  rw [hfl, if_neg Bool.false_ne_true]
  unfold Dat.left
  by_cases hb : (t.val - 1) % 4 = 0
  · have hi : cfg0.idle 7 (grid0.coords ⟨t.val - 1, Nat.lt_of_le_of_lt (Nat.sub_le _ _) t.isLt⟩) = false :=
      Bool.eq_false_iff.mpr fun h => (idle_7 _).mp h hb
    rw [if_pos hb, hi]
    unfold Dat.kept
    rw [Pipeline.fill_of_clip_none (cfg := cfg0) 7 _ (fun _ => rfl) d ((dats m 0 c).after 7 _), Window.fill_cut]
  · have hi : cfg0.idle 7 (grid0.coords ⟨t.val - 1, Nat.lt_of_le_of_lt (Nat.sub_le _ _) t.isLt⟩) = true :=
      (idle_7 _).mpr hb
    rw [if_neg hb, hi]

/-- So at every later point of a tile the network-output buffer holds the base point's output. -/
theorem before_7 (c : Dev nD) : ∀ (k : ℕ) (t : Fin cfg0.N), t.val % 4 = k + 1 → ∀ d,
    (dats m 0 c).before 7 t d = fOf m c (base t) (base_mod t)
  | 0, t, h, d => by
    rw [before_7_step m c t (by omega) d, if_pos (by omega), after_7]
    exact fOf_congr m c (base_pred t (by omega) _) _ _
  | k + 1, t, h, d => by
    rw [before_7_step m c t (by omega) d, if_neg (by omega),
      before_7 c k ⟨t.val - 1, Nat.lt_of_le_of_lt (Nat.sub_le _ _) t.isLt⟩ (by show (t.val - 1) % 4 = k + 1; omega) d]
    exact fOf_congr m c (base_pred t (by omega) _) _ _

end Cert.Kernel.Body

end
-- ==== Proof.BodyBits.Oblig.lean ====
/-
  The body obligation of the region: at every point, from the invariant and every window's buffer at what it then
  holds, the body runs to the invariant of the next point and every buffer at what the proof data says it leaves.
  The point's position in its tile selects the case; a buffer the case does not touch is handed back as found, which
  at an idle point is all that is asked, and for the network-output buffer at the tile's last point is the base
  point's output, the very block the write-back then carries to the array.
-/
import proofs.«108424_j41781441855509_2_alg».proof.Proof.BodyBits.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves_0 (c : Dev nD) (t : Fin cfg0.N) :
    (dats m 0 c).leavesExact 0 t = owns (c : Thread nD τ) (ms_0 t) fullShare ((dats m 0 c).after 0 t) := by
  unfold Dat.leavesExact; rw [live_0 t]
theorem leaves_1 (c : Dev nD) (t : Fin cfg0.N) :
    (dats m 0 c).leavesExact 1 t = owns (c : Thread nD τ) (ms_1 t) fullShare ((dats m 0 c).after 1 t) := by
  unfold Dat.leavesExact; rw [live_1 t]
theorem leaves_2 (c : Dev nD) (t : Fin cfg0.N) :
    (dats m 0 c).leavesExact 2 t = owns (c : Thread nD τ) (ms_2 t) fullShare ((dats m 0 c).after 2 t) := by
  unfold Dat.leavesExact; rw [live_2 t]
theorem leaves_3 (c : Dev nD) (t : Fin cfg0.N) :
    (dats m 0 c).leavesExact 3 t = owns (c : Thread nD τ) (ms_3 t) fullShare ((dats m 0 c).after 3 t) := by
  unfold Dat.leavesExact; rw [live_3 t]
theorem leaves_4 (c : Dev nD) (t : Fin cfg0.N) :
    (dats m 0 c).leavesExact 4 t = owns (c : Thread nD τ) (ms_4 t) fullShare ((dats m 0 c).after 4 t) := by
  unfold Dat.leavesExact; rw [live_4 t]
theorem leaves_5 (c : Dev nD) (t : Fin cfg0.N) :
    (dats m 0 c).leavesExact 5 t = owns (c : Thread nD τ) (ms_5 t) fullShare ((dats m 0 c).after 5 t) := by
  unfold Dat.leavesExact; rw [live_5 t]
theorem leaves_6 (c : Dev nD) (t : Fin cfg0.N) :
    (dats m 0 c).leavesExact 6 t = owns (c : Thread nD τ) (ms_6 t) fullShare ((dats m 0 c).after 6 t) := by
  unfold Dat.leavesExact; rw [live_6 t]

/-- The network-output window at a first chunk: live, left at the tile's output. -/
theorem leaves_7_first (c : Dev nD) (t : Fin cfg0.N) (h0 : t.val % 4 = 0) :
    (dats m 0 c).leavesExact 7 t = owns (c : Thread nD τ) (ms_7 t) fullShare ((dats m 0 c).after 7 t) := by
  unfold Dat.leavesExact
  rw [show cfg0.idle 7 (grid0.coords t) = false from Bool.eq_false_iff.mpr fun h => (idle_7 t).mp h h0]
/-- At a middle chunk: idle and not written back, handed back as found. -/
theorem leaves_7_mid (c : Dev nD) (t : Fin cfg0.N) (h0 : ¬t.val % 4 = 0) (h3 : ¬t.val % 4 = 3) :
    (dats m 0 c).leavesExact 7 t = iprop(∃ d, owns (c : Thread nD τ) (ms_7 t) fullShare ((dats m 0 c).before 7 t d)) :=
  Dat.leavesExact_idle _ 7 t ((idle_7 t).mpr h0) (Bool.eq_false_iff.mpr fun h => h3 ((flush0_7 t).mp h))
/-- At the last chunk: idle but written back, so it must hold the tile's output. -/
theorem leaves_7_last (c : Dev nD) (t : Fin cfg0.N) (h3 : t.val % 4 = 3) :
    (dats m 0 c).leavesExact 7 t = owns (c : Thread nD τ) (ms_7 t) fullShare ((dats m 0 c).after 7 t) := by
  unfold Dat.leavesExact
  rw [(idle_7 t).mpr (by omega), (flush0_7 t).mpr h3]
/-- The quadratic-form window off the last chunk: idle and not written back. -/
theorem leaves_8_idle (c : Dev nD) (t : Fin cfg0.N) (h3 : ¬t.val % 4 = 3) :
    (dats m 0 c).leavesExact 8 t = iprop(∃ d, owns (c : Thread nD τ) (ms_8 t) fullShare ((dats m 0 c).before 8 t d)) :=
  Dat.leavesExact_idle _ 8 t ((idle_8 t).mpr h3) (Bool.eq_false_iff.mpr fun h => h3 ((flush0_8 t).mp h))
/-- At the last chunk: live, left at the tile's quadratic forms. -/
theorem leaves_8_last (c : Dev nD) (t : Fin cfg0.N) (h3 : t.val % 4 = 3) :
    (dats m 0 c).leavesExact 8 t = owns (c : Thread nD τ) (ms_8 t) fullShare ((dats m 0 c).after 8 t) := by
  unfold Dat.leavesExact
  rw [show cfg0.idle 8 (grid0.coords t) = false from Bool.eq_false_iff.mpr fun h => (idle_8 t).mp h h3]

/-- The invariant after point t, stated at the point. -/
theorem Phi_after (c : Dev nD) (t : Fin cfg0.N) :
    (dats m 0 c).Φ t.succ = iprop(iprop(owns (c : Thread nD τ) accM fullShare (accAt m c t.val t.isLt) ∗ owns (c : Thread nD τ) slopeM fullShare (slopeOf m c (base t) (base_mod t))) ∗ (∃ r, prngReg c r)) := rfl

/-- The invariant before a point that is not the first, with the slope buffer's contents stated at this point's tile
    when the point is not a first chunk. -/
theorem Phi_before (c : Dev nD) (t : Fin cfg0.N) (hne : t.val % 4 ≠ 0) :
    (dats m 0 c).Φ t.castSucc = iprop(iprop(owns (c : Thread nD τ) accM fullShare (accAt m c (t.val - 1) (Nat.lt_of_le_of_lt (Nat.sub_le _ _) t.isLt)) ∗ owns (c : Thread nD τ) slopeM fullShare (slopeOf m c (base t) (base_mod t))) ∗ (∃ r, prngReg c r)) := by
  have hz : t.val ≠ 0 := fun h => hne (by rw [h])
  rw [Phi_castSucc m c t, Phi_pos m c _ _ hz,
    slopeOf_congr m c (base_pred t hne (Nat.lt_of_le_of_lt (Nat.sub_le _ _) t.isLt)) (base_mod _) (base_mod t)]

set_option maxHeartbeats 4000000 in
/-- The body at a first chunk. -/
theorem sound_first (c : Dev nD) (t : Fin cfg0.N) (h0 : t.val % 4 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl, Phi_after]
  rw [leaves_0, leaves_1, leaves_2, leaves_3, leaves_4, leaves_5, leaves_6, after_0, after_1, after_2, after_3, after_4, after_5, after_6]
  rw [leaves_7_first m c t h0, leaves_8_idle m c t (by omega), after_7]
  rw [accAt_first m c t h0, fOf_congr m c (base_of_first t h0) (base_mod t) h0,
    slopeOf_congr m c (base_of_first t h0) (base_mod t) h0]
  by_cases hz : t.val = 0
  · rw [Phi_castSucc m c t, Phi_zero m c _ _ hz, phiA_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((firstAt m c t h0).2.2.2 Set.univ _ ((dats m 0 c).before 8 t d8))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS0]; · iexact HS0
    isplitl [HS1]; · iexact HS1
    iintro ⟨H0, H1, H2, H3, H4, H5, H6, ⟨%e7, H7⟩, H8, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_eq_canon _ _ _ (runFirst_cover11 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accM (Memref.isWhole_whole _) slopeM (Memref.isWhole_whole _) _ _ (iblk m c 0 t) (iblk m c 1 t) (iblk m c 2 t) (iblk m c 3 t) (iblk m c 4 t) (iblk m c 5 t) (iblk m c 6 t))
        unfold owns; iexists _; isplitr
        swap; · iexact HS1
        ipureintro; exact View.read_writes_eq_canon _ _ _ (runFirst_cover12 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accM (Memref.isWhole_whole _) slopeM (Memref.isWhole_whole _) _ _ (iblk m c 0 t) (iblk m c 1 t) (iblk m c 2 t) (iblk m c 3 t) (iblk m c 4 t) (iblk m c 5 t) (iblk m c 6 t))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_eq_canon _ _ _ (runFirst_cover9 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accM (Memref.isWhole_whole _) slopeM (Memref.isWhole_whole _) _ _ (iblk m c 0 t) (iblk m c 1 t) (iblk m c 2 t) (iblk m c 3 t) (iblk m c 4 t) (iblk m c 5 t) (iblk m c 6 t))
    iexists _; iexact H8
  · rw [Phi_castSucc m c t, Phi_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((firstAt m c t h0).2.2.2 Set.univ _ ((dats m 0 c).before 8 t d8))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS0]; · iexists _; iexact HS0
    isplitl [HS1]; · iexists _; iexact HS1
    iintro ⟨H0, H1, H2, H3, H4, H5, H6, ⟨%e7, H7⟩, H8, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_eq_canon _ _ _ (runFirst_cover11 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accM (Memref.isWhole_whole _) slopeM (Memref.isWhole_whole _) _ _ (iblk m c 0 t) (iblk m c 1 t) (iblk m c 2 t) (iblk m c 3 t) (iblk m c 4 t) (iblk m c 5 t) (iblk m c 6 t))
        unfold owns; iexists _; isplitr
        swap; · iexact HS1
        ipureintro; exact View.read_writes_eq_canon _ _ _ (runFirst_cover12 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accM (Memref.isWhole_whole _) slopeM (Memref.isWhole_whole _) _ _ (iblk m c 0 t) (iblk m c 1 t) (iblk m c 2 t) (iblk m c 3 t) (iblk m c 4 t) (iblk m c 5 t) (iblk m c 6 t))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_eq_canon _ _ _ (runFirst_cover9 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accM (Memref.isWhole_whole _) slopeM (Memref.isWhole_whole _) _ _ (iblk m c 0 t) (iblk m c 1 t) (iblk m c 2 t) (iblk m c 3 t) (iblk m c 4 t) (iblk m c 5 t) (iblk m c 6 t))
    iexists _; iexact H8

set_option maxHeartbeats 4000000 in
/-- The body at a middle chunk. -/
theorem sound_mid (c : Dev nD) (t : Fin cfg0.N) (h0 : ¬t.val % 4 = 0) (h3 : ¬t.val % 4 = 3) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl, Phi_after, Phi_before m c t h0]
  rw [leaves_0, leaves_1, leaves_2, leaves_3, leaves_4, leaves_5, leaves_6, after_0, after_1, after_2, after_3, after_4, after_5, after_6]
  rw [leaves_7_mid m c t h0 h3, leaves_8_idle m c t h3]
  rw [accAt_mid m c t h0 h3]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((midAt m c t h0 h3 (accAt m c (t.val - 1) (Nat.lt_of_le_of_lt (Nat.sub_le _ _) t.isLt))).2 Set.univ _
    ((dats m 0 c).before 7 t d7) ((dats m 0 c).before 8 t d8) (slopeOf m c (base t) (base_mod t)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, ⟨%es0, HS0⟩, HS1⟩
  isplitl [HS0 HS1 Hg]
  · isplitl [HS0 HS1]
    · isplitl [HS0]
      · unfold owns; iexists _; isplitr
        swap; · iexact HS0
        ipureintro; exact View.read_writes_eq_canon _ _ _ (runMid_cover11 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accM (Memref.isWhole_whole _) slopeM (Memref.isWhole_whole _) _ _ (iblk m c 0 t) (iblk m c 1 t) (iblk m c 2 t) (iblk m c 3 t) (iblk m c 4 t) (iblk m c 5 t) (iblk m c 6 t) _)
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iexists _; iexact H8

set_option maxHeartbeats 4000000 in
/-- The body at a last chunk. -/
theorem sound_last (c : Dev nD) (t : Fin cfg0.N) (h3 : t.val % 4 = 3) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl, Phi_after, Phi_before m c t (by omega)]
  rw [leaves_0, leaves_1, leaves_2, leaves_3, leaves_4, leaves_5, leaves_6, after_0, after_1, after_2, after_3, after_4, after_5, after_6]
  rw [leaves_7_last m c t h3, leaves_8_last m c t h3, after_7, after_8 m c t h3]
  rw [accAt_last m c t h3]
  unfold traceOf
  simp only [before_7 m c 2 t h3]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((lastAt m c t h3 (accAt m c (t.val - 1) (Nat.lt_of_le_of_lt (Nat.sub_le _ _) t.isLt)) (slopeOf m c (base t) (base_mod t))).2.2 Set.univ _
    (fOf m c (base t) (base_mod t)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, ⟨%e8, H8⟩, ⟨%es0, HS0⟩, HS1⟩
  isplitl [HS0 HS1 Hg]
  · isplitl [HS0 HS1]
    · isplitl [HS0]
      · unfold owns; iexists _; isplitr
        swap; · iexact HS0
        ipureintro; exact View.read_writes_eq_canon _ _ _ (runLast_cover11 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accM (Memref.isWhole_whole _) slopeM (Memref.isWhole_whole _) _ _ (iblk m c 0 t) (iblk m c 1 t) (iblk m c 2 t) (iblk m c 3 t) (iblk m c 4 t) (iblk m c 5 t) (iblk m c 6 t) _ _)
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_eq_canon _ _ _ (runLast_cover10 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accM (Memref.isWhole_whole _) slopeM (Memref.isWhole_whole _) _ _ (iblk m c 0 t) (iblk m c 1 t) (iblk m c 2 t) (iblk m c 3 t) (iblk m c 4 t) (iblk m c 5 t) (iblk m c 6 t) _ _)

/-- The body at any point: its position in the tile selects the case. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact sound_first m c t h0
  · by_cases h3 : t.val % 4 = 3
    · exact sound_last m c t h3
    · exact sound_mid m c t h0 h3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]

/-- After the last point the invariant gives the launch's back: the scratch buffers' named contents are forgotten. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 16 := N_0; omega), phiA_eq]
  iintro ⟨⟨HS0, HS1⟩, Hg⟩
  isplitl [HS0 HS1]
  · isplitl [HS0]
    · iexists _; iexact HS0
    iexists _; iexact HS1
  iexact Hg

/-! ## The run -/

set_option backward.isDefEq.respectTransparency.types false in
/-- Every weakly fair execution of the program terminates, and every final state has each array of the region at
    what the library computes from the proof data, the buffers of the host operations after the region at those
    operations applied to them, and every other unscoped buffer as the region found it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.BodyIdeal.Setup.lean ====
/-
  The kernel body of this program runs on a 4 × 4 grid of points t = 4·i + j: i picks a tile of 8 rows, j a chunk of
  2048 positions of the long axis. At j = 0 the body computes the hidden layer, the network output for the tile and the
  tanh slope, and resets the running projection; at every j it adds the chunk's partial projection; at j = 3 it
  contracts the hidden axis into the quadratic forms. This module fixes the vocabulary the three cases share: the two
  branch conditions decided over the grid, where the two output windows are idle, the staging and scratch memrefs at
  a point, and the region invariant with the two scratch buffers spelt out.
-/
import proofs.«108424_j41781441855509_2_alg».proof.Proof.Gen.KernelIdeal.Frame
import proofs.«108424_j41781441855509_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken: the point is the first chunk of its row tile. -/
abbrev isFirst (i : grid0.Coords) : Prop := k0_cond1 i = 1#1
/-- That is at the points t with t % 4 = 0. -/
theorem isFirst_iff : ∀ t : Fin cfg0.N, isFirst (grid0.coords t) ↔ t.val % 4 = 0 :=
  (by decide +kernel : ∀ t : Fin grid0.N, isFirst (grid0.coords t) ↔ t.val % 4 = 0)

/-- The body's second branch is taken: the point is the last chunk of its row tile. -/
abbrev isLast (i : grid0.Coords) : Prop := k0_cond2 i = 1#1
/-- That is at the points t with t % 4 = 3. -/
theorem isLast_iff : ∀ t : Fin cfg0.N, isLast (grid0.coords t) ↔ t.val % 4 = 3 :=
  (by decide +kernel : ∀ t : Fin grid0.N, isLast (grid0.coords t) ↔ t.val % 4 = 3)

/-- The seven input windows are never idle. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
/-- The network-output window is idle exactly off the first chunk. -/
theorem idle_7 : ∀ t : Fin cfg0.N, cfg0.idle 7 (grid0.coords t) = true ↔ t.val % 4 ≠ 0 :=
  (by decide +kernel : ∀ t : Fin grid0.N, cfg0.idle 7 (grid0.coords t) = true ↔ t.val % 4 ≠ 0)
/-- The quadratic-form window is idle exactly off the last chunk. -/
theorem idle_8 : ∀ t : Fin cfg0.N, cfg0.idle 8 (grid0.coords t) = true ↔ t.val % 4 ≠ 3 :=
  (by decide +kernel : ∀ t : Fin grid0.N, cfg0.idle 8 (grid0.coords t) = true ↔ t.val % 4 ≠ 3)

/-- Each window's current staging memref at point t, as the pipeline passes it to the body, and its wholeness. -/
abbrev ms_0 (t : Fin cfg0.N) : Memref sig .tc .vmem S8x8192 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S8x64x2048 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S16x8192 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S16 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S16x8192 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S8192 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S32x2048 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S8x8192 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S8x64 .f32 := win0_8.stage (cfg0.slots t 8)
abbrev hs_8 (t : Fin cfg0.N) : (ms_8 t).IsWhole := hstage0_8 ((cfg0.slots t 8).cast nbuf0_8)
/-- The two scratch operands: the running projection [512, 32] and the tanh slope [8, 16]. -/
abbrev accM : Memref sig .tc .vmem S512x32 .f32 := Memref.whole cc0_scratch0
abbrev slopeM : Memref sig .tc .vmem S8x16 .f32 := Memref.whole cc0_scratch1

/-- The region's invariant before anything ran: both scratch buffers owned at some contents, and the generator register. -/
theorem phiA_eq (c : Dev nD) :
    (Pipeline.ΦA spec0 c : sProp 𝕄)
      = iprop(iprop((∃ d, owns (c : Thread nD τ) accM fullShare d) ∗ (∃ d, owns (c : Thread nD τ) slopeM fullShare d)) ∗ (∃ r, prngReg c r)) := by
  unfold Pipeline.ΦA; rw [scopedRest0_eq]; simp only [accM, slopeM, owns_whole]; try rfl

end Cert.KernelIdeal.Body

end
-- ==== Proof.BodyIdeal.CaseA.lean ====
/-
  The body at the first chunk of a row tile (j = 0). It resets the running projection, computes the hidden layer from
  the tile's rows, stores the network output for the tile and the tanh slope, then adds the first chunk's partial
  projection. What it leaves in the three buffers it writes is found as the list of its stores (last first); the
  quadratic-form buffer is not touched and is handed back as it was found.
-/
import proofs.«108424_j41781441855509_2_alg».proof.Proof.BodyIdeal.Setup

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores of the body at a first chunk — into the network-output buffer, the running projection and the slope
    buffer — together with the proof that, on whole staging memrefs holding the inputs' blocks, the body runs and
    hands every buffer back: the inputs as they were, the three written buffers with those stores applied, the
    quadratic-form buffer at the contents `y10` it had. -/
noncomputable def runFirst (c : Dev nD) (i : grid0.Coords) (arg2 : Memref sig .tc .vmem S8x8192 .f32) (harg2 : arg2.IsWhole) (arg3 : Memref sig .tc .vmem S8x64x2048 .f32) (harg3 : arg3.IsWhole) (arg4 : Memref sig .tc .vmem S16x8192 .f32) (harg4 : arg4.IsWhole) (arg5 : Memref sig .tc .vmem S16 .f32) (harg5 : arg5.IsWhole) (arg6 : Memref sig .tc .vmem S16x8192 .f32) (harg6 : arg6.IsWhole) (arg7 : Memref sig .tc .vmem S8192 .f32) (harg7 : arg7.IsWhole) (arg8 : Memref sig .tc .vmem S32x2048 .f32) (harg8 : arg8.IsWhole) (arg9 : Memref sig .tc .vmem S8x8192 .f32) (harg9 : arg9.IsWhole) (arg10 : Memref sig .tc .vmem S8x64 .f32) (harg10 : arg10.IsWhole) (arg11 : Memref sig .tc .vmem S512x32 .f32) (harg11 : arg11.IsWhole) (arg12 : Memref sig .tc .vmem S8x16 .f32) (harg12 : arg12.IsWhole) (hc0 : isFirst i) (hc1 : ¬isLast i)
    (x0 : Vec F S8x8192 .f32) (x1 : Vec F S8x64x2048 .f32) (x2 : Vec F S16x8192 .f32) (x3 : Vec F S16 .f32) (x4 : Vec F S16x8192 .f32) (x5 : Vec F S8192 .f32) (x6 : Vec F S32x2048 .f32) :
    (L9 : List (View.Piece (Elt F) S8x8192 .f32)) ×' (L11 : List (View.Piece (Elt F) S512x32 .f32)) ×'
    { L12 : List (View.Piece (Elt F) S8x16 .f32) //
      ∀ (E : Set ℕ) (K : PUnit → sProp 𝕄) (y10 : Vec F S8x64 .f32),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare y10 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L9) ∗ owns (c : Thread nD τ) arg10 fullShare y10 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, ?_, ?_, fun E K y10 => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [HS0]; · iexists _; iexact HS0
    iexists _; iexact HS1

end Cert.KernelIdeal.Body

end
-- ==== Proof.BodyIdeal.CaseB.lean ====
/-
  The body at a middle chunk of a row tile (j = 1, 2). Neither branch is taken: the body loads the chunk of probes and
  the chunk of the stacked weights, reads the running projection, and stores it back with the chunk's partial
  projection added. The two output buffers and the slope buffer are not touched and are handed back as found.
-/
import proofs.«108424_j41781441855509_2_alg».proof.Proof.BodyIdeal.CaseA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The store of the body at a middle chunk into the running projection, found from the run, with the proof that the
    body runs from the running projection at `a` and hands back every other buffer at the contents it had. -/
noncomputable def runMid (c : Dev nD) (i : grid0.Coords) (arg2 : Memref sig .tc .vmem S8x8192 .f32) (harg2 : arg2.IsWhole) (arg3 : Memref sig .tc .vmem S8x64x2048 .f32) (harg3 : arg3.IsWhole) (arg4 : Memref sig .tc .vmem S16x8192 .f32) (harg4 : arg4.IsWhole) (arg5 : Memref sig .tc .vmem S16 .f32) (harg5 : arg5.IsWhole) (arg6 : Memref sig .tc .vmem S16x8192 .f32) (harg6 : arg6.IsWhole) (arg7 : Memref sig .tc .vmem S8192 .f32) (harg7 : arg7.IsWhole) (arg8 : Memref sig .tc .vmem S32x2048 .f32) (harg8 : arg8.IsWhole) (arg9 : Memref sig .tc .vmem S8x8192 .f32) (harg9 : arg9.IsWhole) (arg10 : Memref sig .tc .vmem S8x64 .f32) (harg10 : arg10.IsWhole) (arg11 : Memref sig .tc .vmem S512x32 .f32) (harg11 : arg11.IsWhole) (arg12 : Memref sig .tc .vmem S8x16 .f32) (harg12 : arg12.IsWhole) (hc0 : ¬isFirst i) (hc1 : ¬isLast i)
    (x0 : Vec F S8x8192 .f32) (x1 : Vec F S8x64x2048 .f32) (x2 : Vec F S16x8192 .f32) (x3 : Vec F S16 .f32) (x4 : Vec F S16x8192 .f32) (x5 : Vec F S8192 .f32) (x6 : Vec F S32x2048 .f32) (a : Vec F S512x32 .f32) :
    { L11 : List (View.Piece (Elt F) S512x32 .f32) //
      ∀ (E : Set ℕ) (K : PUnit → sProp 𝕄) (y9 : Vec F S8x8192 .f32) (y10 : Vec F S8x64 .f32) (y12 : Vec F S8x16 .f32),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y9 ∗ owns (c : Thread nD τ) arg10 fullShare y10 ∗ owns (c : Thread nD τ) arg11 fullShare a ∗ owns (c : Thread nD τ) arg12 fullShare y12
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y9 ∗ owns (c : Thread nD τ) arg10 fullShare y10 ∗ (∃ f, arg11.view.loc (c : Thread nD τ) ↦[arg11.view.set]{fullShare} arg11.view.writes (Elt F) f L11) ∗ owns (c : Thread nD τ) arg12 fullShare y12) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, fun E K y9 y10 y12 => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; isplitr; · ipureintro; exact harg12.read_unread _
    iexact HS1

end Cert.KernelIdeal.Body

end
-- ==== Proof.BodyIdeal.CaseC.lean ====
/-
  The body at the last chunk of a row tile (j = 3). It adds the last partial projection to the running projection and
  then, in its second branch, reads the completed projection and the tanh slope and stores the tile's quadratic forms.
  The network-output buffer is not touched — it still holds what the first chunk stored — and is handed back as found,
  as is the slope buffer.
-/
import proofs.«108424_j41781441855509_2_alg».proof.Proof.BodyIdeal.CaseB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores of the body at a last chunk — into the quadratic-form buffer and the running projection — with the
    proof that the body runs from the running projection at `a` and the slope buffer at `s`, and hands back the
    network-output buffer and the slope buffer at the contents they had. -/
noncomputable def runLast (c : Dev nD) (i : grid0.Coords) (arg2 : Memref sig .tc .vmem S8x8192 .f32) (harg2 : arg2.IsWhole) (arg3 : Memref sig .tc .vmem S8x64x2048 .f32) (harg3 : arg3.IsWhole) (arg4 : Memref sig .tc .vmem S16x8192 .f32) (harg4 : arg4.IsWhole) (arg5 : Memref sig .tc .vmem S16 .f32) (harg5 : arg5.IsWhole) (arg6 : Memref sig .tc .vmem S16x8192 .f32) (harg6 : arg6.IsWhole) (arg7 : Memref sig .tc .vmem S8192 .f32) (harg7 : arg7.IsWhole) (arg8 : Memref sig .tc .vmem S32x2048 .f32) (harg8 : arg8.IsWhole) (arg9 : Memref sig .tc .vmem S8x8192 .f32) (harg9 : arg9.IsWhole) (arg10 : Memref sig .tc .vmem S8x64 .f32) (harg10 : arg10.IsWhole) (arg11 : Memref sig .tc .vmem S512x32 .f32) (harg11 : arg11.IsWhole) (arg12 : Memref sig .tc .vmem S8x16 .f32) (harg12 : arg12.IsWhole) (hc0 : ¬isFirst i) (hc1 : isLast i)
    (x0 : Vec F S8x8192 .f32) (x1 : Vec F S8x64x2048 .f32) (x2 : Vec F S16x8192 .f32) (x3 : Vec F S16 .f32) (x4 : Vec F S16x8192 .f32) (x5 : Vec F S8192 .f32) (x6 : Vec F S32x2048 .f32) (a : Vec F S512x32 .f32) (s : Vec F S8x16 .f32) :
    (L10 : List (View.Piece (Elt F) S8x64 .f32)) ×'
    { L11 : List (View.Piece (Elt F) S512x32 .f32) //
      ∀ (E : Set ℕ) (K : PUnit → sProp 𝕄) (y9 : Vec F S8x8192 .f32),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y9 ∗ (∃ d, owns (c : Thread nD τ) arg10 fullShare d) ∗ owns (c : Thread nD τ) arg11 fullShare a ∗ owns (c : Thread nD τ) arg12 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y9 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ owns (c : Thread nD τ) arg12 fullShare s) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, ?_, fun E K y9 => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexists _; iexact HS0
    iexists _; isplitr; · ipureintro; exact harg12.read_unread _
    iexact HS1

end Cert.KernelIdeal.Body

end
-- ==== Proof.BodyIdeal.Covers.lean ====
/-
  Each buffer a case writes is written whole by that case's last store into it, so the case's stores cover the buffer
  and what they leave does not depend on what the buffer held before.
-/
import proofs.«108424_j41781441855509_2_alg».proof.Proof.BodyIdeal.CaseC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem runFirst_cover9 (c : Dev nD) (i : grid0.Coords) (arg2 : Memref sig .tc .vmem S8x8192 .f32) (harg2 : arg2.IsWhole) (arg3 : Memref sig .tc .vmem S8x64x2048 .f32) (harg3 : arg3.IsWhole) (arg4 : Memref sig .tc .vmem S16x8192 .f32) (harg4 : arg4.IsWhole) (arg5 : Memref sig .tc .vmem S16 .f32) (harg5 : arg5.IsWhole) (arg6 : Memref sig .tc .vmem S16x8192 .f32) (harg6 : arg6.IsWhole) (arg7 : Memref sig .tc .vmem S8192 .f32) (harg7 : arg7.IsWhole) (arg8 : Memref sig .tc .vmem S32x2048 .f32) (harg8 : arg8.IsWhole) (arg9 : Memref sig .tc .vmem S8x8192 .f32) (harg9 : arg9.IsWhole) (arg10 : Memref sig .tc .vmem S8x64 .f32) (harg10 : arg10.IsWhole) (arg11 : Memref sig .tc .vmem S512x32 .f32) (harg11 : arg11.IsWhole) (arg12 : Memref sig .tc .vmem S8x16 .f32) (harg12 : arg12.IsWhole) (hc0 : isFirst i) (hc1 : ¬isLast i) (x0 : Vec F S8x8192 .f32) (x1 : Vec F S8x64x2048 .f32) (x2 : Vec F S16x8192 .f32) (x3 : Vec F S16 .f32) (x4 : Vec F S16x8192 .f32) (x5 : Vec F S8192 .f32) (x6 : Vec F S32x2048 .f32) (y : S8x8192.Idx) :
    ∃ pc ∈ (runFirst (F := F) c i arg2 harg2 arg3 harg3 arg4 harg4 arg5 harg5 arg6 harg6 arg7 harg7 arg8 harg8 arg9 harg9 arg10 harg10 arg11 harg11 arg12 harg12 hc0 hc1 x0 x1 x2 x3 x4 x5 x6).1, y ∈ pc.1.set :=
  View.cover_of_tiledL (runFirst (F := F) c i arg2 harg2 arg3 harg3 arg4 harg4 arg5 harg5 arg6 harg6 arg7 harg7 arg8 harg8 arg9 harg9 arg10 harg10 arg11 harg11 arg12 harg12 hc0 hc1 x0 x1 x2 x3 x4 x5 x6).1 S8x8192.size (by sl_kernel_rfl) y
theorem runFirst_cover11 (c : Dev nD) (i : grid0.Coords) (arg2 : Memref sig .tc .vmem S8x8192 .f32) (harg2 : arg2.IsWhole) (arg3 : Memref sig .tc .vmem S8x64x2048 .f32) (harg3 : arg3.IsWhole) (arg4 : Memref sig .tc .vmem S16x8192 .f32) (harg4 : arg4.IsWhole) (arg5 : Memref sig .tc .vmem S16 .f32) (harg5 : arg5.IsWhole) (arg6 : Memref sig .tc .vmem S16x8192 .f32) (harg6 : arg6.IsWhole) (arg7 : Memref sig .tc .vmem S8192 .f32) (harg7 : arg7.IsWhole) (arg8 : Memref sig .tc .vmem S32x2048 .f32) (harg8 : arg8.IsWhole) (arg9 : Memref sig .tc .vmem S8x8192 .f32) (harg9 : arg9.IsWhole) (arg10 : Memref sig .tc .vmem S8x64 .f32) (harg10 : arg10.IsWhole) (arg11 : Memref sig .tc .vmem S512x32 .f32) (harg11 : arg11.IsWhole) (arg12 : Memref sig .tc .vmem S8x16 .f32) (harg12 : arg12.IsWhole) (hc0 : isFirst i) (hc1 : ¬isLast i) (x0 : Vec F S8x8192 .f32) (x1 : Vec F S8x64x2048 .f32) (x2 : Vec F S16x8192 .f32) (x3 : Vec F S16 .f32) (x4 : Vec F S16x8192 .f32) (x5 : Vec F S8192 .f32) (x6 : Vec F S32x2048 .f32) (y : S512x32.Idx) :
    ∃ pc ∈ (runFirst (F := F) c i arg2 harg2 arg3 harg3 arg4 harg4 arg5 harg5 arg6 harg6 arg7 harg7 arg8 harg8 arg9 harg9 arg10 harg10 arg11 harg11 arg12 harg12 hc0 hc1 x0 x1 x2 x3 x4 x5 x6).2.1, y ∈ pc.1.set :=
  View.cover_of_tiledL (runFirst (F := F) c i arg2 harg2 arg3 harg3 arg4 harg4 arg5 harg5 arg6 harg6 arg7 harg7 arg8 harg8 arg9 harg9 arg10 harg10 arg11 harg11 arg12 harg12 hc0 hc1 x0 x1 x2 x3 x4 x5 x6).2.1 S512x32.size (by sl_kernel_rfl) y
theorem runFirst_cover12 (c : Dev nD) (i : grid0.Coords) (arg2 : Memref sig .tc .vmem S8x8192 .f32) (harg2 : arg2.IsWhole) (arg3 : Memref sig .tc .vmem S8x64x2048 .f32) (harg3 : arg3.IsWhole) (arg4 : Memref sig .tc .vmem S16x8192 .f32) (harg4 : arg4.IsWhole) (arg5 : Memref sig .tc .vmem S16 .f32) (harg5 : arg5.IsWhole) (arg6 : Memref sig .tc .vmem S16x8192 .f32) (harg6 : arg6.IsWhole) (arg7 : Memref sig .tc .vmem S8192 .f32) (harg7 : arg7.IsWhole) (arg8 : Memref sig .tc .vmem S32x2048 .f32) (harg8 : arg8.IsWhole) (arg9 : Memref sig .tc .vmem S8x8192 .f32) (harg9 : arg9.IsWhole) (arg10 : Memref sig .tc .vmem S8x64 .f32) (harg10 : arg10.IsWhole) (arg11 : Memref sig .tc .vmem S512x32 .f32) (harg11 : arg11.IsWhole) (arg12 : Memref sig .tc .vmem S8x16 .f32) (harg12 : arg12.IsWhole) (hc0 : isFirst i) (hc1 : ¬isLast i) (x0 : Vec F S8x8192 .f32) (x1 : Vec F S8x64x2048 .f32) (x2 : Vec F S16x8192 .f32) (x3 : Vec F S16 .f32) (x4 : Vec F S16x8192 .f32) (x5 : Vec F S8192 .f32) (x6 : Vec F S32x2048 .f32) (y : S8x16.Idx) :
    ∃ pc ∈ (runFirst (F := F) c i arg2 harg2 arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (runFirst (F := F) c i arg2 harg2 arg3 harg3 arg4 harg4 arg5 harg5 arg6 harg6 arg7 harg7 arg8 harg8 arg9 harg9 arg10 harg10 arg11 harg11 arg12 harg12 hc0 hc1 x0 x1 x2 x3 x4 x5 x6).2.2.1 S8x16.size (by sl_kernel_rfl) y
theorem runMid_cover11 (c : Dev nD) (i : grid0.Coords) (arg2 : Memref sig .tc .vmem S8x8192 .f32) (harg2 : arg2.IsWhole) (arg3 : Memref sig .tc .vmem S8x64x2048 .f32) (harg3 : arg3.IsWhole) (arg4 : Memref sig .tc .vmem S16x8192 .f32) (harg4 : arg4.IsWhole) (arg5 : Memref sig .tc .vmem S16 .f32) (harg5 : arg5.IsWhole) (arg6 : Memref sig .tc .vmem S16x8192 .f32) (harg6 : arg6.IsWhole) (arg7 : Memref sig .tc .vmem S8192 .f32) (harg7 : arg7.IsWhole) (arg8 : Memref sig .tc .vmem S32x2048 .f32) (harg8 : arg8.IsWhole) (arg9 : Memref sig .tc .vmem S8x8192 .f32) (harg9 : arg9.IsWhole) (arg10 : Memref sig .tc .vmem S8x64 .f32) (harg10 : arg10.IsWhole) (arg11 : Memref sig .tc .vmem S512x32 .f32) (harg11 : arg11.IsWhole) (arg12 : Memref sig .tc .vmem S8x16 .f32) (harg12 : arg12.IsWhole) (hc0 : ¬isFirst i) (hc1 : ¬isLast i) (x0 : Vec F S8x8192 .f32) (x1 : Vec F S8x64x2048 .f32) (x2 : Vec F S16x8192 .f32) (x3 : Vec F S16 .f32) (x4 : Vec F S16x8192 .f32) (x5 : Vec F S8192 .f32) (x6 : Vec F S32x2048 .f32) (a : Vec F S512x32 .f32) (y : S512x32.Idx) :
    ∃ pc ∈ (runMid (F := F) c i arg2 harg2 arg3 harg3 arg4 harg4 arg5 harg5 arg6 harg6 arg7 harg7 arg8 harg8 arg9 harg9 arg10 harg10 arg11 harg11 arg12 harg12 hc0 hc1 x0 x1 x2 x3 x4 x5 x6 a).1, y ∈ pc.1.set :=
  View.cover_of_tiledL (runMid (F := F) c i arg2 harg2 arg3 harg3 arg4 harg4 arg5 harg5 arg6 harg6 arg7 harg7 arg8 harg8 arg9 harg9 arg10 harg10 arg11 harg11 arg12 harg12 hc0 hc1 x0 x1 x2 x3 x4 x5 x6 a).1 S512x32.size (by sl_kernel_rfl) y
theorem runLast_cover10 (c : Dev nD) (i : grid0.Coords) (arg2 : Memref sig .tc .vmem S8x8192 .f32) (harg2 : arg2.IsWhole) (arg3 : Memref sig .tc .vmem S8x64x2048 .f32) (harg3 : arg3.IsWhole) (arg4 : Memref sig .tc .vmem S16x8192 .f32) (harg4 : arg4.IsWhole) (arg5 : Memref sig .tc .vmem S16 .f32) (harg5 : arg5.IsWhole) (arg6 : Memref sig .tc .vmem S16x8192 .f32) (harg6 : arg6.IsWhole) (arg7 : Memref sig .tc .vmem S8192 .f32) (harg7 : arg7.IsWhole) (arg8 : Memref sig .tc .vmem S32x2048 .f32) (harg8 : arg8.IsWhole) (arg9 : Memref sig .tc .vmem S8x8192 .f32) (harg9 : arg9.IsWhole) (arg10 : Memref sig .tc .vmem S8x64 .f32) (harg10 : arg10.IsWhole) (arg11 : Memref sig .tc .vmem S512x32 .f32) (harg11 : arg11.IsWhole) (arg12 : Memref sig .tc .vmem S8x16 .f32) (harg12 : arg12.IsWhole) (hc0 : ¬isFirst i) (hc1 : isLast i) (x0 : Vec F S8x8192 .f32) (x1 : Vec F S8x64x2048 .f32) (x2 : Vec F S16x8192 .f32) (x3 : Vec F S16 .f32) (x4 : Vec F S16x8192 .f32) (x5 : Vec F S8192 .f32) (x6 : Vec F S32x2048 .f32) (a : Vec F S512x32 .f32) (s : Vec F S8x16 .f32) (y : S8x64.Idx) :
    ∃ pc ∈ (runLast (F := F) c i arg2 harg2 arg3 harg3 arg4 harg4 arg5 harg5 arg6 harg6 arg7 harg7 arg8 harg8 arg9 harg9 arg10 harg10 arg11 harg11 arg12 harg12 hc0 hc1 x0 x1 x2 x3 x4 x5 x6 a s).1, y ∈ pc.1.set :=
  View.cover_of_tiledL (runLast (F := F) c i arg2 harg2 arg3 harg3 arg4 harg4 arg5 harg5 arg6 harg6 arg7 harg7 arg8 harg8 arg9 harg9 arg10 harg10 arg11 harg11 arg12 harg12 hc0 hc1 x0 x1 x2 x3 x4 x5 x6 a s).1 S8x64.size (by sl_kernel_rfl) y
theorem runLast_cover11 (c : Dev nD) (i : grid0.Coords) (arg2 : Memref sig .tc .vmem S8x8192 .f32) (harg2 : arg2.IsWhole) (arg3 : Memref sig .tc .vmem S8x64x2048 .f32) (harg3 : arg3.IsWhole) (arg4 : Memref sig .tc .vmem S16x8192 .f32) (harg4 : arg4.IsWhole) (arg5 : Memref sig .tc .vmem S16 .f32) (harg5 : arg5.IsWhole) (arg6 : Memref sig .tc .vmem S16x8192 .f32) (harg6 : arg6.IsWhole) (arg7 : Memref sig .tc .vmem S8192 .f32) (harg7 : arg7.IsWhole) (arg8 : Memref sig .tc .vmem S32x2048 .f32) (harg8 : arg8.IsWhole) (arg9 : Memref sig .tc .vmem S8x8192 .f32) (harg9 : arg9.IsWhole) (arg10 : Memref sig .tc .vmem S8x64 .f32) (harg10 : arg10.IsWhole) (arg11 : Memref sig .tc .vmem S512x32 .f32) (harg11 : arg11.IsWhole) (arg12 : Memref sig .tc .vmem S8x16 .f32) (harg12 : arg12.IsWhole) (hc0 : ¬isFirst i) (hc1 : isLast i) (x0 : Vec F S8x8192 .f32) (x1 : Vec F S8x64x2048 .f32) (x2 : Vec F S16x8192 .f32) (x3 : Vec F S16 .f32) (x4 : Vec F S16x8192 .f32) (x5 : Vec F S8192 .f32) (x6 : Vec F S32x2048 .f32) (a : Vec F S512x32 .f32) (s : Vec F S8x16 .f32) (y : S512x32.Idx) :
    ∃ pc ∈ (runLast (F := F) c i arg2 harg2 arg3 harg3 arg4 harg4 arg5 harg5 arg6 harg6 arg7 harg7 arg8 harg8 arg9 harg9 arg10 harg10 arg11 harg11 arg12 harg12 hc0 hc1 x0 x1 x2 x3 x4 x5 x6 a s).2.1, y ∈ pc.1.set :=
  View.cover_of_tiledL (runLast (F := F) c i arg2 harg2 arg3 harg3 arg4 harg4 arg5 harg5 arg6 harg6 arg7 harg7 arg8 harg8 arg9 harg9 arg10 harg10 arg11 harg11 arg12 harg12 hc0 hc1 x0 x1 x2 x3 x4 x5 x6 a s).2.1 S512x32.size (by sl_kernel_rfl) y

end Cert.KernelIdeal.Body

end
-- ==== Proof.BodyIdeal.Data.lean ====
/-
  The proof data of the kernel's one region, point by point (t = 4·i + j).

  What the three cases leave is named once: at a first chunk the network output of the tile, the reset running
  projection plus the first partial projection, and the tanh slope; at a later chunk the running projection of the
  point before plus this chunk's partial projection; at the last chunk also the tile's quadratic forms. The network
  output is stored at j = 0 and written back only after j = 3, its buffer untouched in between, so its contents at
  every point of the tile are those the tile's base point 4·i left; the slope buffer likewise. The running projection
  is a recursion on the point. From these the region invariant (the two scratch buffers at named contents after
  every point) and the body obligation follow, case by case.
-/
import proofs.«108424_j41781441855509_2_alg».proof.Proof.BodyIdeal.Covers

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases at a point -/

/-- The body's run at a first-chunk point, on the point's memrefs and input blocks. -/
def firstAt (c : Dev nD) (t : Fin cfg0.N) (h0 : t.val % 4 = 0) :=
  runFirst (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accM (Memref.isWhole_whole _) slopeM (Memref.isWhole_whole _)
    ((isFirst_iff t).mpr h0) (fun h => by have := (isLast_iff t).mp h; omega) (iblk m c 0 t) (iblk m c 1 t) (iblk m c 2 t) (iblk m c 3 t) (iblk m c 4 t) (iblk m c 5 t) (iblk m c 6 t)

/-- The body's run at a middle-chunk point, from the running projection `a`. -/
def midAt (c : Dev nD) (t : Fin cfg0.N) (h0 : ¬t.val % 4 = 0) (h3 : ¬t.val % 4 = 3) (a : Vec F S512x32 .f32) :=
  runMid (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accM (Memref.isWhole_whole _) slopeM (Memref.isWhole_whole _)
    (fun h => h0 ((isFirst_iff t).mp h)) (fun h => h3 ((isLast_iff t).mp h)) (iblk m c 0 t) (iblk m c 1 t) (iblk m c 2 t) (iblk m c 3 t) (iblk m c 4 t) (iblk m c 5 t) (iblk m c 6 t) a

/-- The body's run at a last-chunk point, from the running projection `a` and the slope `s`. -/
def lastAt (c : Dev nD) (t : Fin cfg0.N) (h3 : t.val % 4 = 3) (a : Vec F S512x32 .f32) (s : Vec F S8x16 .f32) :=
  runLast (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accM (Memref.isWhole_whole _) slopeM (Memref.isWhole_whole _)
    (fun h => by have := (isFirst_iff t).mp h; omega) ((isLast_iff t).mpr h3) (iblk m c 0 t) (iblk m c 1 t) (iblk m c 2 t) (iblk m c 3 t) (iblk m c 4 t) (iblk m c 5 t) (iblk m c 6 t) a s

/-- The network output a first chunk leaves for its tile. -/
def fOf (c : Dev nD) (t : Fin cfg0.N) (h0 : t.val % 4 = 0) : Vec F S8x8192 .f32 := View.canon (firstAt m c t h0).1
/-- The running projection a first chunk leaves: reset, plus the first partial projection. -/
def acc0Of (c : Dev nD) (t : Fin cfg0.N) (h0 : t.val % 4 = 0) : Vec F S512x32 .f32 := View.canon (firstAt m c t h0).2.1
/-- The tanh slope a first chunk leaves for its tile. -/
def slopeOf (c : Dev nD) (t : Fin cfg0.N) (h0 : t.val % 4 = 0) : Vec F S8x16 .f32 := View.canon (firstAt m c t h0).2.2.1

theorem fOf_congr (c : Dev nD) {s s' : Fin cfg0.N} (e : s = s') (h : s.val % 4 = 0) (h' : s'.val % 4 = 0) :
    fOf m c s h = fOf m c s' h' := by subst e; rfl
theorem slopeOf_congr (c : Dev nD) {s s' : Fin cfg0.N} (e : s = s') (h : s.val % 4 = 0) (h' : s'.val % 4 = 0) :
    slopeOf m c s h = slopeOf m c s' h' := by subst e; rfl

/-! ## The base point of a tile -/

/-- The first point of the row tile that point t belongs to. -/
def base (t : Fin cfg0.N) : Fin cfg0.N := ⟨t.val - t.val % 4, Nat.lt_of_le_of_lt (Nat.sub_le _ _) t.isLt⟩
theorem base_mod (t : Fin cfg0.N) : (base t).val % 4 = 0 := by show (t.val - t.val % 4) % 4 = 0; omega
theorem base_of_first (t : Fin cfg0.N) (h0 : t.val % 4 = 0) : base t = t :=
  Fin.ext (by show t.val - t.val % 4 = t.val; omega)
theorem base_pred (t : Fin cfg0.N) (hne : t.val % 4 ≠ 0) (hlt : t.val - 1 < cfg0.N) : base ⟨t.val - 1, hlt⟩ = base t :=
  Fin.ext (by show (t.val - 1) - (t.val - 1) % 4 = t.val - t.val % 4; omega)

/-! ## The running projection, point by point -/

/-- What the running-projection scratch holds after the body at position n. -/
def accAt (c : Dev nD) : (n : ℕ) → n < cfg0.N → Vec F S512x32 .f32
  | 0, hn => acc0Of m c ⟨0, hn⟩ (Nat.zero_mod _)
  | n + 1, hn =>
    if h0 : (n + 1) % 4 = 0 then acc0Of m c ⟨n + 1, hn⟩ h0
    else if h3 : (n + 1) % 4 = 3 then
      View.canon (lastAt m c ⟨n + 1, hn⟩ h3 (accAt c n (Nat.lt_of_succ_lt hn)) (slopeOf m c (base ⟨n + 1, hn⟩) (base_mod _))).2.1
    else View.canon (midAt m c ⟨n + 1, hn⟩ h0 h3 (accAt c n (Nat.lt_of_succ_lt hn))).1

theorem accAt_first (c : Dev nD) (t : Fin cfg0.N) (h0 : t.val % 4 = 0) : accAt m c t.val t.isLt = acc0Of m c t h0 := by
  obtain ⟨n, hn⟩ := t
  cases n with
  | zero => rfl
  | succ n => exact dif_pos h0
theorem accAt_mid (c : Dev nD) (t : Fin cfg0.N) (h0 : ¬t.val % 4 = 0) (h3 : ¬t.val % 4 = 3) :
    accAt m c t.val t.isLt
      = View.canon (midAt m c t h0 h3 (accAt m c (t.val - 1) (Nat.lt_of_le_of_lt (Nat.sub_le _ _) t.isLt))).1 := by
  obtain ⟨n, hn⟩ := t
  cases n with
  | zero => exact absurd (Nat.zero_mod _) h0
  | succ n => exact (dif_neg h0).trans (dif_neg h3)
theorem accAt_last (c : Dev nD) (t : Fin cfg0.N) (h3 : t.val % 4 = 3) :
    accAt m c t.val t.isLt
      = View.canon (lastAt m c t h3 (accAt m c (t.val - 1) (Nat.lt_of_le_of_lt (Nat.sub_le _ _) t.isLt)) (slopeOf m c (base t) (base_mod t))).2.1 := by
  obtain ⟨n, hn⟩ := t
  cases n with
  | zero => exact absurd (show (0 : ℕ) % 4 = 3 from h3) (by decide)
  | succ n =>
    have h3' : (n + 1) % 4 = 3 := h3
    exact (dif_neg (fun h => by omega)).trans (dif_pos h3')

/-- The tile's quadratic forms, as the last chunk leaves them. -/
def traceOf (c : Dev nD) (t : Fin cfg0.N) (h3 : t.val % 4 = 3) : Vec F S8x64 .f32 :=
  View.canon (lastAt m c t h3 (accAt m c (t.val - 1) (Nat.lt_of_le_of_lt (Nat.sub_le _ _) t.isLt)) (slopeOf m c (base t) (base_mod t))).1

/-! ## The region invariant -/

/-- Before the first point: both scratch buffers at anything. After point n: the running projection at `accAt n`, the
    slope buffer at what the tile's base point left, and the generator register at some state. -/
def Phi (c : Dev nD) : (n : ℕ) → n ≤ cfg0.N → sProp 𝕄
  | 0, _ => Pipeline.ΦA spec0 c
  | n + 1, hn => iprop(iprop(owns (c : Thread nD τ) accM fullShare (accAt m c n hn) ∗ owns (c : Thread nD τ) slopeM fullShare (slopeOf m c (base ⟨n, hn⟩) (base_mod _))) ∗ (∃ r, prngReg c r))

theorem Phi_zero (c : Dev nD) (n : ℕ) (h : n ≤ cfg0.N) (hz : n = 0) : Phi m c n h = Pipeline.ΦA spec0 c := by
  subst hz; rfl
theorem Phi_succ (c : Dev nD) (n : ℕ) (hn : n < cfg0.N) :
    Phi m c (n + 1) hn = iprop(iprop(owns (c : Thread nD τ) accM fullShare (accAt m c n hn) ∗ owns (c : Thread nD τ) slopeM fullShare (slopeOf m c (base ⟨n, hn⟩) (base_mod _))) ∗ (∃ r, prngReg c r)) := rfl
theorem Phi_pos (c : Dev nD) (n : ℕ) (h : n ≤ cfg0.N) (hz : n ≠ 0) :
    Phi m c n h = iprop(iprop(owns (c : Thread nD τ) accM fullShare (accAt m c (n - 1) (by omega)) ∗ owns (c : Thread nD τ) slopeM fullShare (slopeOf m c (base ⟨n - 1, by omega⟩) (base_mod _))) ∗ (∃ r, prngReg c r)) := by
  cases n with
  | zero => exact absurd rfl hz
  | succ n => rfl

/-! ## The proof data -/

/-- The proof data of the region on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => fOf m c (base t) (base_mod t)
    | ⟨8, h⟩ => if h3 : t.val % 4 = 3 then traceOf m c t h3 else Pipeline.Dat.unnamed (cfg := cfg0) ⟨8, h⟩ t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) :
    (dats m 0 c).Φ t.castSucc = Phi m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = fOf m c (base t) (base_mod t) := by dsimp only [dats]
theorem after_8 (c : Dev nD) (t : Fin cfg0.N) (h3 : t.val % 4 = 3) : (dats m 0 c).after 8 t = traceOf m c t h3 := by
  dsimp only [dats]; exact dif_pos h3

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- Off the first chunk the network-output buffer holds what it held a point earlier — what the base point stored,
    if that was the point before, else what was found there: it is neither fetched nor written back in between, and
    the body does not touch it. -/
theorem before_7_step (c : Dev nD) (t : Fin cfg0.N) (hne : t.val % 4 ≠ 0) (d) :
    (dats m 0 c).before 7 t d
      = if (t.val - 1) % 4 = 0 then (dats m 0 c).after 7 ⟨t.val - 1, Nat.lt_of_le_of_lt (Nat.sub_le _ _) t.isLt⟩
        else (dats m 0 c).before 7 ⟨t.val - 1, Nat.lt_of_le_of_lt (Nat.sub_le _ _) t.isLt⟩ d := by
  have ht : t.val ≠ 0 := fun h => hne (by rw [h])
  rw [Dat.before_of_pos _ 7 t ht ((cfg0.win 7).fetch_out rfl t) d]
  have hfl : (cfg0.win 7).flush ⟨t.val - 1, Nat.lt_of_le_of_lt (Nat.sub_le _ _) t.isLt⟩ = false :=
    Bool.eq_false_iff.mpr fun h => by have := (flush0_7 _).mp h; dsimp only at this; omega
  rw [hfl, if_neg Bool.false_ne_true]
  unfold Dat.left
  by_cases hb : (t.val - 1) % 4 = 0
  · have hi : cfg0.idle 7 (grid0.coords ⟨t.val - 1, Nat.lt_of_le_of_lt (Nat.sub_le _ _) t.isLt⟩) = false :=
      Bool.eq_false_iff.mpr fun h => (idle_7 _).mp h hb
    rw [if_pos hb, hi]
    unfold Dat.kept
    rw [Pipeline.fill_of_clip_none (cfg := cfg0) 7 _ (fun _ => rfl) d ((dats m 0 c).after 7 _), Window.fill_cut]
  · have hi : cfg0.idle 7 (grid0.coords ⟨t.val - 1, Nat.lt_of_le_of_lt (Nat.sub_le _ _) t.isLt⟩) = true :=
      (idle_7 _).mpr hb
    rw [if_neg hb, hi]

/-- So at every later point of a tile the network-output buffer holds the base point's output. -/
theorem before_7 (c : Dev nD) : ∀ (k : ℕ) (t : Fin cfg0.N), t.val % 4 = k + 1 → ∀ d,
    (dats m 0 c).before 7 t d = fOf m c (base t) (base_mod t)
  | 0, t, h, d => by
    rw [before_7_step m c t (by omega) d, if_pos (by omega), after_7]
    exact fOf_congr m c (base_pred t (by omega) _) _ _
  | k + 1, t, h, d => by
    rw [before_7_step m c t (by omega) d, if_neg (by omega),
      before_7 c k ⟨t.val - 1, Nat.lt_of_le_of_lt (Nat.sub_le _ _) t.isLt⟩ (by show (t.val - 1) % 4 = k + 1; omega) d]
    exact fOf_congr m c (base_pred t (by omega) _) _ _

end Cert.KernelIdeal.Body

end
-- ==== Proof.BodyIdeal.Oblig.lean ====
/-
  The body obligation of the region: at every point, from the invariant and every window's buffer at what it then
  holds, the body runs to the invariant of the next point and every buffer at what the proof data says it leaves.
  The point's position in its tile selects the case; a buffer the case does not touch is handed back as found, which
  at an idle point is all that is asked, and for the network-output buffer at the tile's last point is the base
  point's output, the very block the write-back then carries to the array.
-/
import proofs.«108424_j41781441855509_2_alg».proof.Proof.BodyIdeal.Data

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves_0 (c : Dev nD) (t : Fin cfg0.N) :
    (dats m 0 c).leavesExact 0 t = owns (c : Thread nD τ) (ms_0 t) fullShare ((dats m 0 c).after 0 t) := by
  unfold Dat.leavesExact; rw [live_0 t]
theorem leaves_1 (c : Dev nD) (t : Fin cfg0.N) :
    (dats m 0 c).leavesExact 1 t = owns (c : Thread nD τ) (ms_1 t) fullShare ((dats m 0 c).after 1 t) := by
  unfold Dat.leavesExact; rw [live_1 t]
theorem leaves_2 (c : Dev nD) (t : Fin cfg0.N) :
    (dats m 0 c).leavesExact 2 t = owns (c : Thread nD τ) (ms_2 t) fullShare ((dats m 0 c).after 2 t) := by
  unfold Dat.leavesExact; rw [live_2 t]
theorem leaves_3 (c : Dev nD) (t : Fin cfg0.N) :
    (dats m 0 c).leavesExact 3 t = owns (c : Thread nD τ) (ms_3 t) fullShare ((dats m 0 c).after 3 t) := by
  unfold Dat.leavesExact; rw [live_3 t]
theorem leaves_4 (c : Dev nD) (t : Fin cfg0.N) :
    (dats m 0 c).leavesExact 4 t = owns (c : Thread nD τ) (ms_4 t) fullShare ((dats m 0 c).after 4 t) := by
  unfold Dat.leavesExact; rw [live_4 t]
theorem leaves_5 (c : Dev nD) (t : Fin cfg0.N) :
    (dats m 0 c).leavesExact 5 t = owns (c : Thread nD τ) (ms_5 t) fullShare ((dats m 0 c).after 5 t) := by
  unfold Dat.leavesExact; rw [live_5 t]
theorem leaves_6 (c : Dev nD) (t : Fin cfg0.N) :
    (dats m 0 c).leavesExact 6 t = owns (c : Thread nD τ) (ms_6 t) fullShare ((dats m 0 c).after 6 t) := by
  unfold Dat.leavesExact; rw [live_6 t]

/-- The network-output window at a first chunk: live, left at the tile's output. -/
theorem leaves_7_first (c : Dev nD) (t : Fin cfg0.N) (h0 : t.val % 4 = 0) :
    (dats m 0 c).leavesExact 7 t = owns (c : Thread nD τ) (ms_7 t) fullShare ((dats m 0 c).after 7 t) := by
  unfold Dat.leavesExact
  rw [show cfg0.idle 7 (grid0.coords t) = false from Bool.eq_false_iff.mpr fun h => (idle_7 t).mp h h0]
/-- At a middle chunk: idle and not written back, handed back as found. -/
theorem leaves_7_mid (c : Dev nD) (t : Fin cfg0.N) (h0 : ¬t.val % 4 = 0) (h3 : ¬t.val % 4 = 3) :
    (dats m 0 c).leavesExact 7 t = iprop(∃ d, owns (c : Thread nD τ) (ms_7 t) fullShare ((dats m 0 c).before 7 t d)) :=
  Dat.leavesExact_idle _ 7 t ((idle_7 t).mpr h0) (Bool.eq_false_iff.mpr fun h => h3 ((flush0_7 t).mp h))
/-- At the last chunk: idle but written back, so it must hold the tile's output. -/
theorem leaves_7_last (c : Dev nD) (t : Fin cfg0.N) (h3 : t.val % 4 = 3) :
    (dats m 0 c).leavesExact 7 t = owns (c : Thread nD τ) (ms_7 t) fullShare ((dats m 0 c).after 7 t) := by
  unfold Dat.leavesExact
  rw [(idle_7 t).mpr (by omega), (flush0_7 t).mpr h3]
/-- The quadratic-form window off the last chunk: idle and not written back. -/
theorem leaves_8_idle (c : Dev nD) (t : Fin cfg0.N) (h3 : ¬t.val % 4 = 3) :
    (dats m 0 c).leavesExact 8 t = iprop(∃ d, owns (c : Thread nD τ) (ms_8 t) fullShare ((dats m 0 c).before 8 t d)) :=
  Dat.leavesExact_idle _ 8 t ((idle_8 t).mpr h3) (Bool.eq_false_iff.mpr fun h => h3 ((flush0_8 t).mp h))
/-- At the last chunk: live, left at the tile's quadratic forms. -/
theorem leaves_8_last (c : Dev nD) (t : Fin cfg0.N) (h3 : t.val % 4 = 3) :
    (dats m 0 c).leavesExact 8 t = owns (c : Thread nD τ) (ms_8 t) fullShare ((dats m 0 c).after 8 t) := by
  unfold Dat.leavesExact
  rw [show cfg0.idle 8 (grid0.coords t) = false from Bool.eq_false_iff.mpr fun h => (idle_8 t).mp h h3]

/-- The invariant after point t, stated at the point. -/
theorem Phi_after (c : Dev nD) (t : Fin cfg0.N) :
    (dats m 0 c).Φ t.succ = iprop(iprop(owns (c : Thread nD τ) accM fullShare (accAt m c t.val t.isLt) ∗ owns (c : Thread nD τ) slopeM fullShare (slopeOf m c (base t) (base_mod t))) ∗ (∃ r, prngReg c r)) := rfl

/-- The invariant before a point that is not the first, with the slope buffer's contents stated at this point's tile
    when the point is not a first chunk. -/
theorem Phi_before (c : Dev nD) (t : Fin cfg0.N) (hne : t.val % 4 ≠ 0) :
    (dats m 0 c).Φ t.castSucc = iprop(iprop(owns (c : Thread nD τ) accM fullShare (accAt m c (t.val - 1) (Nat.lt_of_le_of_lt (Nat.sub_le _ _) t.isLt)) ∗ owns (c : Thread nD τ) slopeM fullShare (slopeOf m c (base t) (base_mod t))) ∗ (∃ r, prngReg c r)) := by
  have hz : t.val ≠ 0 := fun h => hne (by rw [h])
  rw [Phi_castSucc m c t, Phi_pos m c _ _ hz,
    slopeOf_congr m c (base_pred t hne (Nat.lt_of_le_of_lt (Nat.sub_le _ _) t.isLt)) (base_mod _) (base_mod t)]

set_option maxHeartbeats 4000000 in
/-- The body at a first chunk. -/
theorem sound_first (c : Dev nD) (t : Fin cfg0.N) (h0 : t.val % 4 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl, Phi_after]
  rw [leaves_0, leaves_1, leaves_2, leaves_3, leaves_4, leaves_5, leaves_6, after_0, after_1, after_2, after_3, after_4, after_5, after_6]
  rw [leaves_7_first m c t h0, leaves_8_idle m c t (by omega), after_7]
  rw [accAt_first m c t h0, fOf_congr m c (base_of_first t h0) (base_mod t) h0,
    slopeOf_congr m c (base_of_first t h0) (base_mod t) h0]
  by_cases hz : t.val = 0
  · rw [Phi_castSucc m c t, Phi_zero m c _ _ hz, phiA_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((firstAt m c t h0).2.2.2 Set.univ _ ((dats m 0 c).before 8 t d8))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS0]; · iexact HS0
    isplitl [HS1]; · iexact HS1
    iintro ⟨H0, H1, H2, H3, H4, H5, H6, ⟨%e7, H7⟩, H8, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_eq_canon _ _ _ (runFirst_cover11 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accM (Memref.isWhole_whole _) slopeM (Memref.isWhole_whole _) _ _ (iblk m c 0 t) (iblk m c 1 t) (iblk m c 2 t) (iblk m c 3 t) (iblk m c 4 t) (iblk m c 5 t) (iblk m c 6 t))
        unfold owns; iexists _; isplitr
        swap; · iexact HS1
        ipureintro; exact View.read_writes_eq_canon _ _ _ (runFirst_cover12 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accM (Memref.isWhole_whole _) slopeM (Memref.isWhole_whole _) _ _ (iblk m c 0 t) (iblk m c 1 t) (iblk m c 2 t) (iblk m c 3 t) (iblk m c 4 t) (iblk m c 5 t) (iblk m c 6 t))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_eq_canon _ _ _ (runFirst_cover9 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accM (Memref.isWhole_whole _) slopeM (Memref.isWhole_whole _) _ _ (iblk m c 0 t) (iblk m c 1 t) (iblk m c 2 t) (iblk m c 3 t) (iblk m c 4 t) (iblk m c 5 t) (iblk m c 6 t))
    iexists _; iexact H8
  · rw [Phi_castSucc m c t, Phi_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((firstAt m c t h0).2.2.2 Set.univ _ ((dats m 0 c).before 8 t d8))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS0]; · iexists _; iexact HS0
    isplitl [HS1]; · iexists _; iexact HS1
    iintro ⟨H0, H1, H2, H3, H4, H5, H6, ⟨%e7, H7⟩, H8, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_eq_canon _ _ _ (runFirst_cover11 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accM (Memref.isWhole_whole _) slopeM (Memref.isWhole_whole _) _ _ (iblk m c 0 t) (iblk m c 1 t) (iblk m c 2 t) (iblk m c 3 t) (iblk m c 4 t) (iblk m c 5 t) (iblk m c 6 t))
        unfold owns; iexists _; isplitr
        swap; · iexact HS1
        ipureintro; exact View.read_writes_eq_canon _ _ _ (runFirst_cover12 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accM (Memref.isWhole_whole _) slopeM (Memref.isWhole_whole _) _ _ (iblk m c 0 t) (iblk m c 1 t) (iblk m c 2 t) (iblk m c 3 t) (iblk m c 4 t) (iblk m c 5 t) (iblk m c 6 t))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_eq_canon _ _ _ (runFirst_cover9 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accM (Memref.isWhole_whole _) slopeM (Memref.isWhole_whole _) _ _ (iblk m c 0 t) (iblk m c 1 t) (iblk m c 2 t) (iblk m c 3 t) (iblk m c 4 t) (iblk m c 5 t) (iblk m c 6 t))
    iexists _; iexact H8

set_option maxHeartbeats 4000000 in
/-- The body at a middle chunk. -/
theorem sound_mid (c : Dev nD) (t : Fin cfg0.N) (h0 : ¬t.val % 4 = 0) (h3 : ¬t.val % 4 = 3) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl, Phi_after, Phi_before m c t h0]
  rw [leaves_0, leaves_1, leaves_2, leaves_3, leaves_4, leaves_5, leaves_6, after_0, after_1, after_2, after_3, after_4, after_5, after_6]
  rw [leaves_7_mid m c t h0 h3, leaves_8_idle m c t h3]
  rw [accAt_mid m c t h0 h3]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((midAt m c t h0 h3 (accAt m c (t.val - 1) (Nat.lt_of_le_of_lt (Nat.sub_le _ _) t.isLt))).2 Set.univ _
    ((dats m 0 c).before 7 t d7) ((dats m 0 c).before 8 t d8) (slopeOf m c (base t) (base_mod t)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, ⟨%es0, HS0⟩, HS1⟩
  isplitl [HS0 HS1 Hg]
  · isplitl [HS0 HS1]
    · isplitl [HS0]
      · unfold owns; iexists _; isplitr
        swap; · iexact HS0
        ipureintro; exact View.read_writes_eq_canon _ _ _ (runMid_cover11 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accM (Memref.isWhole_whole _) slopeM (Memref.isWhole_whole _) _ _ (iblk m c 0 t) (iblk m c 1 t) (iblk m c 2 t) (iblk m c 3 t) (iblk m c 4 t) (iblk m c 5 t) (iblk m c 6 t) _)
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iexists _; iexact H8

set_option maxHeartbeats 4000000 in
/-- The body at a last chunk. -/
theorem sound_last (c : Dev nD) (t : Fin cfg0.N) (h3 : t.val % 4 = 3) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl, Phi_after, Phi_before m c t (by omega)]
  rw [leaves_0, leaves_1, leaves_2, leaves_3, leaves_4, leaves_5, leaves_6, after_0, after_1, after_2, after_3, after_4, after_5, after_6]
  rw [leaves_7_last m c t h3, leaves_8_last m c t h3, after_7, after_8 m c t h3]
  rw [accAt_last m c t h3]
  unfold traceOf
  simp only [before_7 m c 2 t h3]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((lastAt m c t h3 (accAt m c (t.val - 1) (Nat.lt_of_le_of_lt (Nat.sub_le _ _) t.isLt)) (slopeOf m c (base t) (base_mod t))).2.2 Set.univ _
    (fOf m c (base t) (base_mod t)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, ⟨%e8, H8⟩, ⟨%es0, HS0⟩, HS1⟩
  isplitl [HS0 HS1 Hg]
  · isplitl [HS0 HS1]
    · isplitl [HS0]
      · unfold owns; iexists _; isplitr
        swap; · iexact HS0
        ipureintro; exact View.read_writes_eq_canon _ _ _ (runLast_cover11 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accM (Memref.isWhole_whole _) slopeM (Memref.isWhole_whole _) _ _ (iblk m c 0 t) (iblk m c 1 t) (iblk m c 2 t) (iblk m c 3 t) (iblk m c 4 t) (iblk m c 5 t) (iblk m c 6 t) _ _)
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_eq_canon _ _ _ (runLast_cover10 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accM (Memref.isWhole_whole _) slopeM (Memref.isWhole_whole _) _ _ (iblk m c 0 t) (iblk m c 1 t) (iblk m c 2 t) (iblk m c 3 t) (iblk m c 4 t) (iblk m c 5 t) (iblk m c 6 t) _ _)

/-- The body at any point: its position in the tile selects the case. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact sound_first m c t h0
  · by_cases h3 : t.val % 4 = 3
    · exact sound_last m c t h3
    · exact sound_mid m c t h0 h3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]

/-- After the last point the invariant gives the launch's back: the scratch buffers' named contents are forgotten. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 16 := N_0; omega), phiA_eq]
  iintro ⟨⟨HS0, HS1⟩, Hg⟩
  isplitl [HS0 HS1]
  · isplitl [HS0]
    · iexists _; iexact HS0
    iexists _; iexact HS1
  iexact Hg

/-! ## The run -/

set_option backward.isDefEq.respectTransparency.types false in
/-- Every weakly fair execution of the program terminates, and every final state has each array of the region at
    what the library computes from the proof data, the buffers of the host operations after the region at those
    operations applied to them, and every other unscoped buffer as the region found it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.Spec.lean ====
/-
  The mathematics both programs compute, index by index, on the extended reals.

  A two-layer perceptron with a tanh hidden layer, f = W2 · tanh(W1 · u + b1) + b2, evaluated on 32 rows u[l, ·] of
  length 8192 with 16 hidden units, together with a Hutchinson estimate of the trace of its Jacobian
  J = W2 · diag(1 − h²) · W1: for each of 64 probe vectors w[l, t, ·] the quadratic form wᵀ J w.

  The quadratic form can be grouped in two ways. Writing p2[k] = Σ_d w[d] · W2[d, k], p1[k] = Σ_d w[d] · W1[k, d] and
  s[k] = 1 − h[k]², one grouping contracts the hidden axis last,
      traceHidden = Σ_k (p2[k] · s[k]) · p1[k],
  the other contracts the long axis last,
      traceLong   = Σ_d (Σ_k (p2[k] · s[k]) · W1[k, d]) · w[d].
  They agree whenever every entry involved is a real number (exchange the two finite sums and move w[d] inside the
  inner one); on the extended reals the distributive step may fail at an infinity, so the equality is stated for real
  entries only.
-/
import Idealize.ShloMosaic.PureOps.Ideal
import Idealize.ShloMosaic.Lib.ValueIdx

noncomputable section

open scoped BigOperators

namespace Cert.Stein

open Idealize.ShloMosaic Idealize.ShloMosaic.ValueIdx

/-- A matrix of extended reals with `a` rows and `b` columns. -/
abbrev Mat (a b : Nat) := (⟨2, ![a, b]⟩ : Shape).Idx → EReal
/-- A rank-3 array of extended reals. -/
abbrev Ten (a b c : Nat) := (⟨3, ![a, b, c]⟩ : Shape).Idx → EReal
/-- A vector of extended reals. -/
abbrev Row (a : Nat) := (⟨1, ![a]⟩ : Shape).Idx → EReal

/-- The number one, as the single-precision word both programs spell it with. -/
def one : EReal := Ideal.ofBits .f32 0x3F800000#32

/-- Every entry of an array is a real number (neither infinity). -/
def AllReal {S : Shape} (x : S.Idx → EReal) : Prop := ∀ i, ∃ r : ℝ, x i = (r : EReal)

/-- The hidden activation h[l, k] = tanh(Σ_d u[l, d] · W1[k, d] + b1[k]). -/
def hid (u : Mat 32 8192) (W1 : Mat 16 8192) (b1 : Row 16) (l : Fin 32) (k : Fin 16) : EReal :=
  Ideal.tanh ((∑ d : Fin 8192, u (ix2 l d) * W1 (ix2 k d)) + b1 (ix1 k))

/-- The network's output f[l, d] = Σ_k h[l, k] · W2[d, k] + b2[d]. -/
def fOut (u : Mat 32 8192) (W1 : Mat 16 8192) (b1 : Row 16) (W2 : Mat 8192 16) (b2 : Row 8192)
    (l : Fin 32) (d : Fin 8192) : EReal :=
  (∑ k : Fin 16, hid u W1 b1 l k * W2 (ix2 d k)) + b2 (ix1 d)

/-- The derivative of tanh at the pre-activation, s[l, k] = 1 − h[l, k]². -/
def slope (u : Mat 32 8192) (W1 : Mat 16 8192) (b1 : Row 16) (l : Fin 32) (k : Fin 16) : EReal :=
  one - hid u W1 b1 l k * hid u W1 b1 l k

/-- The probe projected through the second layer, p2[l, t, k] = Σ_d w[l, t, d] · W2[d, k]. -/
def proj2 (w : Ten 32 64 8192) (W2 : Mat 8192 16) (l : Fin 32) (t : Fin 64) (k : Fin 16) : EReal :=
  ∑ d : Fin 8192, w (ix3 l t d) * W2 (ix2 d k)

/-- The probe projected through the first layer, p1[l, t, k] = Σ_d w[l, t, d] · W1[k, d]. -/
def proj1 (w : Ten 32 64 8192) (W1 : Mat 16 8192) (l : Fin 32) (t : Fin 64) (k : Fin 16) : EReal :=
  ∑ d : Fin 8192, w (ix3 l t d) * W1 (ix2 k d)

/-- The quadratic form with the hidden axis contracted last: Σ_k (p2 · s) · p1. -/
def traceHidden (u : Mat 32 8192) (w : Ten 32 64 8192) (W1 : Mat 16 8192) (b1 : Row 16) (W2 : Mat 8192 16)
    (l : Fin 32) (t : Fin 64) : EReal :=
  ∑ k : Fin 16, (proj2 w W2 l t k * slope u W1 b1 l k) * proj1 w W1 l t k

/-- The quadratic form with the long axis contracted last: Σ_d (Σ_k (p2 · s) · W1[k, d]) · w[d]. -/
def traceLong (u : Mat 32 8192) (w : Ten 32 64 8192) (W1 : Mat 16 8192) (b1 : Row 16) (W2 : Mat 8192 16)
    (l : Fin 32) (t : Fin 64) : EReal :=
  ∑ d : Fin 8192, (∑ k : Fin 16, (proj2 w W2 l t k * slope u W1 b1 l k) * W1 (ix2 k d)) * w (ix3 l t d)

/-- The network's output as a whole array. -/
def fArr (u : Mat 32 8192) (W1 : Mat 16 8192) (b1 : Row 16) (W2 : Mat 8192 16) (b2 : Row 8192) : Mat 32 8192 :=
  fun i => fOut u W1 b1 W2 b2 (i 0) (i 1)

/-- The quadratic forms as a whole array, hidden axis last. -/
def traceHiddenArr (u : Mat 32 8192) (w : Ten 32 64 8192) (W1 : Mat 16 8192) (b1 : Row 16) (W2 : Mat 8192 16) : Mat 32 64 :=
  fun i => traceHidden u w W1 b1 W2 (i 0) (i 1)

/-- The quadratic forms as a whole array, long axis last. -/
def traceLongArr (u : Mat 32 8192) (w : Ten 32 64 8192) (W1 : Mat 16 8192) (b1 : Row 16) (W2 : Mat 8192 16) : Mat 32 64 :=
  fun i => traceLong u w W1 b1 W2 (i 0) (i 1)

end Cert.Stein

end
-- ==== Proof.BodyIdeal.Pieces.lean ====
/-
  What each case's stores leave, as the body's arithmetic applied to the contents the case started from: the network
  output, the slope and the running projection are each written whole by the case's last store into them, and every
  load reads a whole buffer, so each buffer ends at one payload term of the input blocks and the carried contents.
-/
import proofs.«108424_j41781441855509_2_alg».proof.Proof.BodyIdeal.Covers
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros1 : (![0] : Fin 1 → ℕ) = fun _ => 0 := by funext a; fin_cases a; rfl
theorem zeros2 : (![0, 0] : Fin 2 → ℕ) = fun _ => 0 := by funext a; fin_cases a <;> rfl
theorem zeros3 : (![0, 0, 0] : Fin 3 → ℕ) = fun _ => 0 := by funext a; fin_cases a <;> rfl

/-- A first chunk leaves the network output of the tile's rows. -/
theorem runFirst_f (c : Dev nD) (i : grid0.Coords) (arg2 : Memref sig .tc .vmem S8x8192 .f32) (harg2 : arg2.IsWhole) (arg3 : Memref sig .tc .vmem S8x64x2048 .f32) (harg3 : arg3.IsWhole) (arg4 : Memref sig .tc .vmem S16x8192 .f32) (harg4 : arg4.IsWhole) (arg5 : Memref sig .tc .vmem S16 .f32) (harg5 : arg5.IsWhole) (arg6 : Memref sig .tc .vmem S16x8192 .f32) (harg6 : arg6.IsWhole) (arg7 : Memref sig .tc .vmem S8192 .f32) (harg7 : arg7.IsWhole) (arg8 : Memref sig .tc .vmem S32x2048 .f32) (harg8 : arg8.IsWhole) (arg9 : Memref sig .tc .vmem S8x8192 .f32) (harg9 : arg9.IsWhole) (arg10 : Memref sig .tc .vmem S8x64 .f32) (harg10 : arg10.IsWhole) (arg11 : Memref sig .tc .vmem S512x32 .f32) (harg11 : arg11.IsWhole) (arg12 : Memref sig .tc .vmem S8x16 .f32) (harg12 : arg12.IsWhole) (hc0 : isFirst i) (hc1 : ¬isLast i) (x0 : Vec F S8x8192 .f32) (x1 : Vec F S8x64x2048 .f32) (x2 : Vec F S16x8192 .f32) (x3 : Vec F S16 .f32) (x4 : Vec F S16x8192 .f32) (x5 : Vec F S8192 .f32) (x6 : Vec F S32x2048 .f32) :
    View.canon (runFirst (F := F) c i arg2 harg2 arg3 harg3 arg4 harg4 arg5 harg5 arg6 harg6 arg7 harg7 arg8 harg8 arg9 harg9 arg10 harg10 arg11 harg11 arg12 harg12 hc0 hc1 x0 x1 x2 x3 x4 x5 x6).1 = k0_pay3 x0 x2 x3 x4 x5 := by
  unfold runFirst; dsimp only; sl_unfold_words
  rw [View.canon_unit_zero zeros2]
  simp only [View.readAt_eq_ld, harg2.read_unread, harg4.read_unread, harg5.read_unread, harg6.read_unread, harg7.read_unread,
    View.ld_unit_zero (S := S8x8192) zeros2, View.ld_unit_zero (S := S16x8192) zeros2, View.ld_unit_zero (S := S16) zeros1,
    View.ld_unit_zero (S := S8192) zeros1]

/-- A first chunk leaves the reset running projection plus the first partial projection. -/
theorem runFirst_acc (c : Dev nD) (i : grid0.Coords) (arg2 : Memref sig .tc .vmem S8x8192 .f32) (harg2 : arg2.IsWhole) (arg3 : Memref sig .tc .vmem S8x64x2048 .f32) (harg3 : arg3.IsWhole) (arg4 : Memref sig .tc .vmem S16x8192 .f32) (harg4 : arg4.IsWhole) (arg5 : Memref sig .tc .vmem S16 .f32) (harg5 : arg5.IsWhole) (arg6 : Memref sig .tc .vmem S16x8192 .f32) (harg6 : arg6.IsWhole) (arg7 : Memref sig .tc .vmem S8192 .f32) (harg7 : arg7.IsWhole) (arg8 : Memref sig .tc .vmem S32x2048 .f32) (harg8 : arg8.IsWhole) (arg9 : Memref sig .tc .vmem S8x8192 .f32) (harg9 : arg9.IsWhole) (arg10 : Memref sig .tc .vmem S8x64 .f32) (harg10 : arg10.IsWhole) (arg11 : Memref sig .tc .vmem S512x32 .f32) (harg11 : arg11.IsWhole) (arg12 : Memref sig .tc .vmem S8x16 .f32) (harg12 : arg12.IsWhole) (hc0 : isFirst i) (hc1 : ¬isLast i) (x0 : Vec F S8x8192 .f32) (x1 : Vec F S8x64x2048 .f32) (x2 : Vec F S16x8192 .f32) (x3 : Vec F S16 .f32) (x4 : Vec F S16x8192 .f32) (x5 : Vec F S8192 .f32) (x6 : Vec F S32x2048 .f32) :
    View.canon (runFirst (F := F) c i arg2 harg2 arg3 harg3 arg4 harg4 arg5 harg5 arg6 harg6 arg7 harg7 arg8 harg8 arg9 harg9 arg10 harg10 arg11 harg11 arg12 harg12 hc0 hc1 x0 x1 x2 x3 x4 x5 x6).2.1 = k0_pay5 x1 x6 (k0_pay1 (F := F)) := by
  unfold runFirst; dsimp only; sl_unfold_words
  rw [View.canon_cons_unit_zero zeros2]
  simp only [View.readAt_eq_ld, harg3.read_unread, harg8.read_unread, View.readCov_unit_zero (S := S512x32) arg11.view zeros2,
    View.ld_unit_zero (S := S8x64x2048) zeros3, View.ld_unit_zero (S := S32x2048) zeros2]

/-- A first chunk leaves the tanh slope of the tile's rows. -/
theorem runFirst_slope (c : Dev nD) (i : grid0.Coords) (arg2 : Memref sig .tc .vmem S8x8192 .f32) (harg2 : arg2.IsWhole) (arg3 : Memref sig .tc .vmem S8x64x2048 .f32) (harg3 : arg3.IsWhole) (arg4 : Memref sig .tc .vmem S16x8192 .f32) (harg4 : arg4.IsWhole) (arg5 : Memref sig .tc .vmem S16 .f32) (harg5 : arg5.IsWhole) (arg6 : Memref sig .tc .vmem S16x8192 .f32) (harg6 : arg6.IsWhole) (arg7 : Memref sig .tc .vmem S8192 .f32) (harg7 : arg7.IsWhole) (arg8 : Memref sig .tc .vmem S32x2048 .f32) (harg8 : arg8.IsWhole) (arg9 : Memref sig .tc .vmem S8x8192 .f32) (harg9 : arg9.IsWhole) (arg10 : Memref sig .tc .vmem S8x64 .f32) (harg10 : arg10.IsWhole) (arg11 : Memref sig .tc .vmem S512x32 .f32) (harg11 : arg11.IsWhole) (arg12 : Memref sig .tc .vmem S8x16 .f32) (harg12 : arg12.IsWhole) (hc0 : isFirst i) (hc1 : ¬isLast i) (x0 : Vec F S8x8192 .f32) (x1 : Vec F S8x64x2048 .f32) (x2 : Vec F S16x8192 .f32) (x3 : Vec F S16 .f32) (x4 : Vec F S16x8192 .f32) (x5 : Vec F S8192 .f32) (x6 : Vec F S32x2048 .f32) :
    View.canon (runFirst (F := F) c i arg2 harg2 arg3 harg3 arg4 harg4 arg5 harg5 arg6 harg6 arg7 harg7 arg8 harg8 arg9 harg9 arg10 harg10 arg11 harg11 arg12 harg12 hc0 hc1 x0 x1 x2 x3 x4 x5 x6).2.2.1 = k0_pay4 x0 x2 x3 := by
  unfold runFirst; dsimp only; sl_unfold_words
  rw [View.canon_unit_zero zeros2]
  simp only [View.readAt_eq_ld, harg2.read_unread, harg4.read_unread, harg5.read_unread,
    View.ld_unit_zero (S := S8x8192) zeros2, View.ld_unit_zero (S := S16x8192) zeros2, View.ld_unit_zero (S := S16) zeros1]

/-- A middle chunk leaves the running projection it found plus its partial projection. -/
theorem runMid_acc (c : Dev nD) (i : grid0.Coords) (arg2 : Memref sig .tc .vmem S8x8192 .f32) (harg2 : arg2.IsWhole) (arg3 : Memref sig .tc .vmem S8x64x2048 .f32) (harg3 : arg3.IsWhole) (arg4 : Memref sig .tc .vmem S16x8192 .f32) (harg4 : arg4.IsWhole) (arg5 : Memref sig .tc .vmem S16 .f32) (harg5 : arg5.IsWhole) (arg6 : Memref sig .tc .vmem S16x8192 .f32) (harg6 : arg6.IsWhole) (arg7 : Memref sig .tc .vmem S8192 .f32) (harg7 : arg7.IsWhole) (arg8 : Memref sig .tc .vmem S32x2048 .f32) (harg8 : arg8.IsWhole) (arg9 : Memref sig .tc .vmem S8x8192 .f32) (harg9 : arg9.IsWhole) (arg10 : Memref sig .tc .vmem S8x64 .f32) (harg10 : arg10.IsWhole) (arg11 : Memref sig .tc .vmem S512x32 .f32) (harg11 : arg11.IsWhole) (arg12 : Memref sig .tc .vmem S8x16 .f32) (harg12 : arg12.IsWhole) (hc0 : ¬isFirst i) (hc1 : ¬isLast i) (x0 : Vec F S8x8192 .f32) (x1 : Vec F S8x64x2048 .f32) (x2 : Vec F S16x8192 .f32) (x3 : Vec F S16 .f32) (x4 : Vec F S16x8192 .f32) (x5 : Vec F S8192 .f32) (x6 : Vec F S32x2048 .f32) (a : Vec F S512x32 .f32) :
    View.canon (runMid (F := F) c i arg2 harg2 arg3 harg3 arg4 harg4 arg5 harg5 arg6 harg6 arg7 harg7 arg8 harg8 arg9 harg9 arg10 harg10 arg11 harg11 arg12 harg12 hc0 hc1 x0 x1 x2 x3 x4 x5 x6 a).1 = k0_pay5 x1 x6 a := by
  unfold runMid; dsimp only; sl_unfold_words
  rw [View.canon_unit_zero zeros2]
  simp only [View.readAt_eq_ld, harg3.read_unread, harg8.read_unread, harg11.read_unread,
    View.ld_unit_zero (S := S8x64x2048) zeros3, View.ld_unit_zero (S := S32x2048) zeros2, View.ld_unit_zero (S := S512x32) zeros2]

/-- A last chunk leaves the running projection it found plus its partial projection, -/
theorem runLast_acc (c : Dev nD) (i : grid0.Coords) (arg2 : Memref sig .tc .vmem S8x8192 .f32) (harg2 : arg2.IsWhole) (arg3 : Memref sig .tc .vmem S8x64x2048 .f32) (harg3 : arg3.IsWhole) (arg4 : Memref sig .tc .vmem S16x8192 .f32) (harg4 : arg4.IsWhole) (arg5 : Memref sig .tc .vmem S16 .f32) (harg5 : arg5.IsWhole) (arg6 : Memref sig .tc .vmem S16x8192 .f32) (harg6 : arg6.IsWhole) (arg7 : Memref sig .tc .vmem S8192 .f32) (harg7 : arg7.IsWhole) (arg8 : Memref sig .tc .vmem S32x2048 .f32) (harg8 : arg8.IsWhole) (arg9 : Memref sig .tc .vmem S8x8192 .f32) (harg9 : arg9.IsWhole) (arg10 : Memref sig .tc .vmem S8x64 .f32) (harg10 : arg10.IsWhole) (arg11 : Memref sig .tc .vmem S512x32 .f32) (harg11 : arg11.IsWhole) (arg12 : Memref sig .tc .vmem S8x16 .f32) (harg12 : arg12.IsWhole) (hc0 : ¬isFirst i) (hc1 : isLast i) (x0 : Vec F S8x8192 .f32) (x1 : Vec F S8x64x2048 .f32) (x2 : Vec F S16x8192 .f32) (x3 : Vec F S16 .f32) (x4 : Vec F S16x8192 .f32) (x5 : Vec F S8192 .f32) (x6 : Vec F S32x2048 .f32) (a : Vec F S512x32 .f32) (s : Vec F S8x16 .f32) :
    View.canon (runLast (F := F) c i arg2 harg2 arg3 harg3 arg4 harg4 arg5 harg5 arg6 harg6 arg7 harg7 arg8 harg8 arg9 harg9 arg10 harg10 arg11 harg11 arg12 harg12 hc0 hc1 x0 x1 x2 x3 x4 x5 x6 a s).2.1 = k0_pay5 x1 x6 a := by
  unfold runLast; dsimp only; sl_unfold_words
  rw [View.canon_unit_zero zeros2]
  simp only [View.readAt_eq_ld, harg3.read_unread, harg8.read_unread, harg11.read_unread,
    View.ld_unit_zero (S := S8x64x2048) zeros3, View.ld_unit_zero (S := S32x2048) zeros2, View.ld_unit_zero (S := S512x32) zeros2]

/-- and the quadratic forms of that completed projection against the slope it found. -/
theorem runLast_trace (c : Dev nD) (i : grid0.Coords) (arg2 : Memref sig .tc .vmem S8x8192 .f32) (harg2 : arg2.IsWhole) (arg3 : Memref sig .tc .vmem S8x64x2048 .f32) (harg3 : arg3.IsWhole) (arg4 : Memref sig .tc .vmem S16x8192 .f32) (harg4 : arg4.IsWhole) (arg5 : Memref sig .tc .vmem S16 .f32) (harg5 : arg5.IsWhole) (arg6 : Memref sig .tc .vmem S16x8192 .f32) (harg6 : arg6.IsWhole) (arg7 : Memref sig .tc .vmem S8192 .f32) (harg7 : arg7.IsWhole) (arg8 : Memref sig .tc .vmem S32x2048 .f32) (harg8 : arg8.IsWhole) (arg9 : Memref sig .tc .vmem S8x8192 .f32) (harg9 : arg9.IsWhole) (arg10 : Memref sig .tc .vmem S8x64 .f32) (harg10 : arg10.IsWhole) (arg11 : Memref sig .tc .vmem S512x32 .f32) (harg11 : arg11.IsWhole) (arg12 : Memref sig .tc .vmem S8x16 .f32) (harg12 : arg12.IsWhole) (hc0 : ¬isFirst i) (hc1 : isLast i) (x0 : Vec F S8x8192 .f32) (x1 : Vec F S8x64x2048 .f32) (x2 : Vec F S16x8192 .f32) (x3 : Vec F S16 .f32) (x4 : Vec F S16x8192 .f32) (x5 : Vec F S8192 .f32) (x6 : Vec F S32x2048 .f32) (a : Vec F S512x32 .f32) (s : Vec F S8x16 .f32) :
    View.canon (runLast (F := F) c i arg2 harg2 arg3 harg3 arg4 harg4 arg5 harg5 arg6 harg6 arg7 harg7 arg8 harg8 arg9 harg9 arg10 harg10 arg11 harg11 arg12 harg12 hc0 hc1 x0 x1 x2 x3 x4 x5 x6 a s).1 = k0_pay6 (k0_pay5 x1 x6 a) s := by
  unfold runLast; dsimp only; sl_unfold_words
  rw [View.canon_unit_zero zeros2]
  simp only [View.readAt_eq_ld, harg3.read_unread, harg8.read_unread, harg11.read_unread, harg12.read_unread,
    View.readCov_unit_zero (S := S512x32) arg11.view zeros2,
    View.ld_unit_zero (S := S8x64x2048) zeros3, View.ld_unit_zero (S := S32x2048) zeros2, View.ld_unit_zero (S := S512x32) zeros2,
    View.ld_unit_zero (S := S8x16) zeros2]

end Cert.KernelIdeal.Body

end
-- ==== Proof.Payload.lean ====
/-
  The kernel body's arithmetic, read one index at a time on the extended reals.

  Each of the body's six pure values is a short chain of vector operations. Read at an index, the pointwise
  operations act entry by entry, a reshape keeps the row-major position, a broadcast repeats an entry along the
  new axis, a slice shifts a coordinate by its offset, and a matrix product into a zero accumulator is the sum of
  products along the contracted axis.
-/
import proofs.«108424_j41781441855509_2_alg».proof.Proof.Spec
import proofs.«108424_j41781441855509_2_alg».proof.Proof.Gen.KernelIdeal.Skeleton
import Idealize.ShloMosaic.Lib.ValueIdx
import Idealize.ShloMosaic.Lib.Pipeline.Value
import Idealize.ShloMosaic.PureOps.Ideal
import Idealize.ShloMosaic.PureOps.Ideal.Laws

noncomputable section

open scoped BigOperators

namespace Cert.Stein.Payload

open Cert.KernelIdeal Cert.KernelIdeal.Gen Idealize.ShloMosaic Idealize.ShloMosaic.ValueIdx

/-- The accumulator's reset value is zero at every index. -/
theorem pay1_apply (i : S512x32.Idx) : k0_pay1 (F := Ideal) i = 0 := by
  unfold k0_pay1
  rw [shapeCast_self]
  exact Ideal.ofBits_zero_f32

theorem matmul_hidden_apply_lhs_free (i : S8x16.Idx) (q : dot_S8x8192_S16x8192_S8x16_1_1_0_0_n_n.contr.Idx) :
    (dot_S8x8192_S16x8192_S8x16_1_1_0_0_n_n.lhsIdx i q 0).val = (i 0).val := by
  unfold DotDims.lhsIdx
  rw [dif_neg (show ¬(0 : Fin S8x8192.rank) ∈ dot_S8x8192_S16x8192_S8x16_1_1_0_0_n_n.lhsBatch by decide), dif_pos (show (0 : Fin S8x8192.rank) ∈ dot_S8x8192_S16x8192_S8x16_1_1_0_0_n_n.lhsNonContracting by decide)]
  rfl

theorem matmul_hidden_apply_rhs_free (i : S8x16.Idx) (q : dot_S8x8192_S16x8192_S8x16_1_1_0_0_n_n.contr.Idx) :
    (dot_S8x8192_S16x8192_S8x16_1_1_0_0_n_n.rhsIdx i q 0).val = (i 1).val := by
  unfold DotDims.rhsIdx
  rw [dif_neg (show ¬(0 : Fin S16x8192.rank) ∈ dot_S8x8192_S16x8192_S8x16_1_1_0_0_n_n.rhsBatch by decide), dif_pos (show (0 : Fin S16x8192.rank) ∈ dot_S8x8192_S16x8192_S8x16_1_1_0_0_n_n.rhsNonContracting by decide)]
  rfl

/-- The first layer's product into a zero accumulator: a row of each operand, contracted along the long axis. -/
theorem matmul_hidden_apply (a : FVec Ideal S8x8192 .f32) (b : FVec Ideal S16x8192 .f32) (p : Fin 8) (k : Fin 16) :
    matmul (F := Ideal) dot_S8x8192_S16x8192_S8x16_1_1_0_0_n_n none a b (constant S8x16 .f32 0x00000000#32) (ix2 p k)
      = ∑ r : Fin 8192, a (ix2 p r) * b (ix2 k r) := by
  refine (Ideal.matmul_constant_zero_apply dot_S8x8192_S16x8192_S8x16_1_1_0_0_n_n none a b (ix2 p k)).trans ?_
  rw [← Equiv.sum_comp (contrEquiv1 dot_S8x8192_S16x8192_S8x16_1_1_0_0_n_n 8192 rfl rfl).symm]
  refine Finset.sum_congr rfl fun r _ => ?_
  have hr := contrEquiv1_symm_val dot_S8x8192_S16x8192_S8x16_1_1_0_0_n_n 8192 rfl rfl r
  have el : dot_S8x8192_S16x8192_S8x16_1_1_0_0_n_n.lhsIdx (ix2 p k) ((contrEquiv1 dot_S8x8192_S16x8192_S8x16_1_1_0_0_n_n 8192 rfl rfl).symm r) = ix2 p r :=
    funext fun c => Fin.ext (by
      match c with
      | ⟨0, _⟩ => exact matmul_hidden_apply_lhs_free _ _
      | ⟨1, _⟩ => exact (dot_S8x8192_S16x8192_S8x16_1_1_0_0_n_n.lhsIdx_val_of_single rfl _ _).trans hr)
  have er : dot_S8x8192_S16x8192_S8x16_1_1_0_0_n_n.rhsIdx (ix2 p k) ((contrEquiv1 dot_S8x8192_S16x8192_S8x16_1_1_0_0_n_n 8192 rfl rfl).symm r) = ix2 k r :=
    funext fun c => Fin.ext (by
      match c with
      | ⟨0, _⟩ => exact matmul_hidden_apply_rhs_free _ _
      | ⟨1, _⟩ => exact (dot_S8x8192_S16x8192_S8x16_1_1_0_0_n_n.rhsIdx_val_of_single rfl _ _).trans hr)
  rw [el, er]

/-- A length-16 row recast to one row of 16 and repeated down 8 rows reads its own entry in every row. -/
theorem bias16_apply (x3 : Vec Ideal S16 .f32) (p : Fin 8) (k : Fin 16) :
    broadcastTo S8x16 (shapeCast S1x16 x3 shapeCasts_S16_S1x16) broadcasts_S1x16_S8x16 (ix2 p k) = x3 (ix1 k) := by
  refine (broadcastTo_apply _ broadcasts_S1x16_S8x16 (ix2 p k) (ix2 (0 : Fin 1) k) (fun c => by
    match c with
    | ⟨0, _⟩ => rfl
    | ⟨1, _⟩ => rfl)).trans ?_
  exact shapeCast_apply x3 shapeCasts_S16_S1x16 (ix2 (0 : Fin 1) k) (ix1 k) (by
    rw [Shape.rowMajor_val_one, Shape.rowMajor_val_two]
    show k.val = (0 : Fin 1).val * 16 + k.val
    simp)

/-- The hidden activation: tanh of the first layer's product plus its bias. -/
theorem pay2_apply (x0 : Vec Ideal S8x8192 .f32) (x2 : Vec Ideal S16x8192 .f32) (x3 : Vec Ideal S16 .f32)
    (p : Fin 8) (k : Fin 16) :
    k0_pay2 (F := Ideal) x0 x2 x3 (ix2 p k)
      = Ideal.tanh ((∑ d : Fin 8192, x0 (ix2 p d) * x2 (ix2 k d)) + x3 (ix1 k)) := by
  unfold k0_pay2
  show Ideal.tanh (matmul (F := Ideal) dot_S8x8192_S16x8192_S8x16_1_1_0_0_n_n none x0 x2 (constant S8x16 .f32 0x00000000#32) (ix2 p k)
      + broadcastTo S8x16 (shapeCast S1x16 x3 shapeCasts_S16_S1x16) broadcasts_S1x16_S8x16 (ix2 p k)) = _
  rw [matmul_hidden_apply, bias16_apply]

theorem matmul_out_apply_lhs_free (i : S8x8192.Idx) (q : dot_S8x16_S16x8192_S8x8192_1_0_0_1_n_n.contr.Idx) :
    (dot_S8x16_S16x8192_S8x8192_1_0_0_1_n_n.lhsIdx i q 0).val = (i 0).val := by
  unfold DotDims.lhsIdx
  rw [dif_neg (show ¬(0 : Fin S8x16.rank) ∈ dot_S8x16_S16x8192_S8x8192_1_0_0_1_n_n.lhsBatch by decide), dif_pos (show (0 : Fin S8x16.rank) ∈ dot_S8x16_S16x8192_S8x8192_1_0_0_1_n_n.lhsNonContracting by decide)]
  rfl

theorem matmul_out_apply_rhs_free (i : S8x8192.Idx) (q : dot_S8x16_S16x8192_S8x8192_1_0_0_1_n_n.contr.Idx) :
    (dot_S8x16_S16x8192_S8x8192_1_0_0_1_n_n.rhsIdx i q 1).val = (i 1).val := by
  unfold DotDims.rhsIdx
  rw [dif_neg (show ¬(1 : Fin S16x8192.rank) ∈ dot_S8x16_S16x8192_S8x8192_1_0_0_1_n_n.rhsBatch by decide), dif_pos (show (1 : Fin S16x8192.rank) ∈ dot_S8x16_S16x8192_S8x8192_1_0_0_1_n_n.rhsNonContracting by decide)]
  rfl

/-- The second layer's product into a zero accumulator: a row of the left operand against a column of the right,
    contracted along the 16 hidden units. -/
theorem matmul_out_apply (a : FVec Ideal S8x16 .f32) (b : FVec Ideal S16x8192 .f32) (p : Fin 8) (d : Fin 8192) :
    matmul (F := Ideal) dot_S8x16_S16x8192_S8x8192_1_0_0_1_n_n none a b (constant S8x8192 .f32 0x00000000#32) (ix2 p d)
      = ∑ r : Fin 16, a (ix2 p r) * b (ix2 r d) := by
  refine (Ideal.matmul_constant_zero_apply dot_S8x16_S16x8192_S8x8192_1_0_0_1_n_n none a b (ix2 p d)).trans ?_
  rw [← Equiv.sum_comp (contrEquiv1 dot_S8x16_S16x8192_S8x8192_1_0_0_1_n_n 16 rfl rfl).symm]
  refine Finset.sum_congr rfl fun r _ => ?_
  have hr := contrEquiv1_symm_val dot_S8x16_S16x8192_S8x8192_1_0_0_1_n_n 16 rfl rfl r
  have el : dot_S8x16_S16x8192_S8x8192_1_0_0_1_n_n.lhsIdx (ix2 p d) ((contrEquiv1 dot_S8x16_S16x8192_S8x8192_1_0_0_1_n_n 16 rfl rfl).symm r) = ix2 p r :=
    funext fun c => Fin.ext (by
      match c with
      | ⟨0, _⟩ => exact matmul_out_apply_lhs_free _ _
      | ⟨1, _⟩ => exact (dot_S8x16_S16x8192_S8x8192_1_0_0_1_n_n.lhsIdx_val_of_single rfl _ _).trans hr)
  have er : dot_S8x16_S16x8192_S8x8192_1_0_0_1_n_n.rhsIdx (ix2 p d) ((contrEquiv1 dot_S8x16_S16x8192_S8x8192_1_0_0_1_n_n 16 rfl rfl).symm r) = ix2 r d :=
    funext fun c => Fin.ext (by
      match c with
      | ⟨0, _⟩ => exact (dot_S8x16_S16x8192_S8x8192_1_0_0_1_n_n.rhsIdx_val_of_single rfl _ _).trans hr
      | ⟨1, _⟩ => exact matmul_out_apply_rhs_free _ _)
  rw [el, er]

/-- A length-8192 row recast to one row and repeated down 8 rows reads its own entry in every row. -/
theorem bias8192_apply (x5 : Vec Ideal S8192 .f32) (p : Fin 8) (d : Fin 8192) :
    broadcastTo S8x8192 (shapeCast S1x8192 x5 shapeCasts_S8192_S1x8192) broadcasts_S1x8192_S8x8192 (ix2 p d) = x5 (ix1 d) := by
  refine (broadcastTo_apply _ broadcasts_S1x8192_S8x8192 (ix2 p d) (ix2 (0 : Fin 1) d) (fun c => by
    match c with
    | ⟨0, _⟩ => rfl
    | ⟨1, _⟩ => rfl)).trans ?_
  exact shapeCast_apply x5 shapeCasts_S8192_S1x8192 (ix2 (0 : Fin 1) d) (ix1 d) (by
    rw [Shape.rowMajor_val_one, Shape.rowMajor_val_two]
    show d.val = (0 : Fin 1).val * 8192 + d.val
    simp)

/-- The network's output block: the hidden activations against the second layer's columns, plus its bias. -/
theorem pay3_apply (x0 : Vec Ideal S8x8192 .f32) (x2 : Vec Ideal S16x8192 .f32) (x3 : Vec Ideal S16 .f32)
    (x4 : Vec Ideal S16x8192 .f32) (x5 : Vec Ideal S8192 .f32) (p : Fin 8) (d : Fin 8192) :
    k0_pay3 (F := Ideal) x0 x2 x3 x4 x5 (ix2 p d)
      = (∑ k : Fin 16, k0_pay2 (F := Ideal) x0 x2 x3 (ix2 p k) * x4 (ix2 k d)) + x5 (ix1 d) := by
  unfold k0_pay3
  rw [shapeCast_self]
  show matmul (F := Ideal) dot_S8x16_S16x8192_S8x8192_1_0_0_1_n_n none (k0_pay2 (F := Ideal) x0 x2 x3) x4 (constant S8x8192 .f32 0x00000000#32) (ix2 p d)
      + broadcastTo S8x8192 (shapeCast S1x8192 x5 shapeCasts_S8192_S1x8192) broadcasts_S1x8192_S8x8192 (ix2 p d) = _
  rw [matmul_out_apply, bias8192_apply]

/-- The stored slope is one minus the square of the hidden activation. -/
theorem pay4_apply (x0 : Vec Ideal S8x8192 .f32) (x2 : Vec Ideal S16x8192 .f32) (x3 : Vec Ideal S16 .f32)
    (p : Fin 8) (k : Fin 16) :
    k0_pay4 (F := Ideal) x0 x2 x3 (ix2 p k)
      = Cert.Stein.one - k0_pay2 (F := Ideal) x0 x2 x3 (ix2 p k) * k0_pay2 (F := Ideal) x0 x2 x3 (ix2 p k) := by
  unfold k0_pay4
  rw [shapeCast_self]
  rfl

theorem matmul_probe_apply_lhs_free (i : S512x32.Idx) (q : dot_S512x2048_S32x2048_S512x32_1_1_0_0_n_n.contr.Idx) :
    (dot_S512x2048_S32x2048_S512x32_1_1_0_0_n_n.lhsIdx i q 0).val = (i 0).val := by
  unfold DotDims.lhsIdx
  rw [dif_neg (show ¬(0 : Fin S512x2048.rank) ∈ dot_S512x2048_S32x2048_S512x32_1_1_0_0_n_n.lhsBatch by decide), dif_pos (show (0 : Fin S512x2048.rank) ∈ dot_S512x2048_S32x2048_S512x32_1_1_0_0_n_n.lhsNonContracting by decide)]
  rfl

theorem matmul_probe_apply_rhs_free (i : S512x32.Idx) (q : dot_S512x2048_S32x2048_S512x32_1_1_0_0_n_n.contr.Idx) :
    (dot_S512x2048_S32x2048_S512x32_1_1_0_0_n_n.rhsIdx i q 0).val = (i 1).val := by
  unfold DotDims.rhsIdx
  rw [dif_neg (show ¬(0 : Fin S32x2048.rank) ∈ dot_S512x2048_S32x2048_S512x32_1_1_0_0_n_n.rhsBatch by decide), dif_pos (show (0 : Fin S32x2048.rank) ∈ dot_S512x2048_S32x2048_S512x32_1_1_0_0_n_n.rhsNonContracting by decide)]
  rfl

/-- The probe block's product into a zero accumulator: a row of each operand, contracted along the chunk of the long axis. -/
theorem matmul_probe_apply (a : FVec Ideal S512x2048 .f32) (b : FVec Ideal S32x2048 .f32) (i : Fin 512) (c : Fin 32) :
    matmul (F := Ideal) dot_S512x2048_S32x2048_S512x32_1_1_0_0_n_n none a b (constant S512x32 .f32 0x00000000#32) (ix2 i c)
      = ∑ r : Fin 2048, a (ix2 i r) * b (ix2 c r) := by
  refine (Ideal.matmul_constant_zero_apply dot_S512x2048_S32x2048_S512x32_1_1_0_0_n_n none a b (ix2 i c)).trans ?_
  rw [← Equiv.sum_comp (contrEquiv1 dot_S512x2048_S32x2048_S512x32_1_1_0_0_n_n 2048 rfl rfl).symm]
  refine Finset.sum_congr rfl fun r _ => ?_
  have hr := contrEquiv1_symm_val dot_S512x2048_S32x2048_S512x32_1_1_0_0_n_n 2048 rfl rfl r
  have el : dot_S512x2048_S32x2048_S512x32_1_1_0_0_n_n.lhsIdx (ix2 i c) ((contrEquiv1 dot_S512x2048_S32x2048_S512x32_1_1_0_0_n_n 2048 rfl rfl).symm r) = ix2 i r :=
    funext fun c => Fin.ext (by
      match c with
      | ⟨0, _⟩ => exact matmul_probe_apply_lhs_free _ _
      | ⟨1, _⟩ => exact (dot_S512x2048_S32x2048_S512x32_1_1_0_0_n_n.lhsIdx_val_of_single rfl _ _).trans hr)
  have er : dot_S512x2048_S32x2048_S512x32_1_1_0_0_n_n.rhsIdx (ix2 i c) ((contrEquiv1 dot_S512x2048_S32x2048_S512x32_1_1_0_0_n_n 2048 rfl rfl).symm r) = ix2 c r :=
    funext fun c => Fin.ext (by
      match c with
      | ⟨0, _⟩ => exact matmul_probe_apply_rhs_free _ _
      | ⟨1, _⟩ => exact (dot_S512x2048_S32x2048_S512x32_1_1_0_0_n_n.rhsIdx_val_of_single rfl _ _).trans hr)
  rw [el, er]

/-- The [8, 64, 2048] block read as 512 rows of 2048: row p·64 + t is the block's row (p, t). -/
theorem flatten_apply (x1 : Vec Ideal S8x64x2048 .f32) (p : Fin 8) (t : Fin 64) (d : Fin 2048) :
    shapeCast S512x2048 x1 shapeCasts_S8x64x2048_S512x2048 (ix2 (⟨p.val * 64 + t.val, by omega⟩ : Fin 512) d)
      = x1 (ix3 p t d) :=
  shapeCast_apply x1 shapeCasts_S8x64x2048_S512x2048 _ (ix3 p t d) (by
    rw [Shape.rowMajor_val_three, Shape.rowMajor_val_two]
    rfl)

/-- The accumulator's update: the running value plus the probe block's rows against the chunk's rows, contracted
    along the chunk of the long axis. -/
theorem pay5_apply (x1 : Vec Ideal S8x64x2048 .f32) (x6 : Vec Ideal S32x2048 .f32) (acc : Vec Ideal S512x32 .f32)
    (p : Fin 8) (t : Fin 64) (c : Fin 32) :
    k0_pay5 (F := Ideal) x1 x6 acc (ix2 (⟨p.val * 64 + t.val, by omega⟩ : Fin 512) c)
      = acc (ix2 (⟨p.val * 64 + t.val, by omega⟩ : Fin 512) c) + ∑ d : Fin 2048, x1 (ix3 p t d) * x6 (ix2 c d) := by
  unfold k0_pay5
  simp only [shapeCast_self]
  show acc (ix2 (⟨p.val * 64 + t.val, by omega⟩ : Fin 512) c)
      + matmul (F := Ideal) dot_S512x2048_S32x2048_S512x32_1_1_0_0_n_n none (shapeCast S512x2048 x1 shapeCasts_S8x64x2048_S512x2048) x6
          (constant S512x32 .f32 0x00000000#32) (ix2 (⟨p.val * 64 + t.val, by omega⟩ : Fin 512) c) = _
  rw [matmul_probe_apply]
  refine congrArg (acc (ix2 (⟨p.val * 64 + t.val, by omega⟩ : Fin 512) c) + ·) (Finset.sum_congr rfl fun r _ => ?_)
  rw [flatten_apply]

/-- The 512 rows of 32 read as an [8, 64, 32] block: entry (p, t, c) is row p·64 + t, column c. -/
theorem unflatten_apply (vq : Vec Ideal S512x32 .f32) (p : Fin 8) (t : Fin 64) (c : Fin 32) :
    shapeCast S8x64x32 vq shapeCasts_S512x32_S8x64x32 (ix3 p t c) = vq (ix2 (⟨p.val * 64 + t.val, by omega⟩ : Fin 512) c) :=
  shapeCast_apply vq shapeCasts_S512x32_S8x64x32 (ix3 p t c) _ (by
    rw [Shape.rowMajor_val_three, Shape.rowMajor_val_two]
    rfl)

/-- The slice of the first 16 columns reads the same column. -/
theorem slice_lo_apply (y : FVec Ideal S8x64x32 .f32) (p : Fin 8) (t : Fin 64) (k : Fin 16) :
    extractStridedSlice S8x64x16 ![0, 0, 0] y slices_S8x64x32_o0_0_0_S8x64x16 (ix3 p t k)
      = y (ix3 p t (⟨k.val, by omega⟩ : Fin 32)) :=
  extractStridedSlice_apply ![0, 0, 0] y slices_S8x64x32_o0_0_0_S8x64x16 (ix3 p t k) _ (fun a => by
    match a with
    | ⟨0, _⟩ => exact (Nat.zero_add _).symm
    | ⟨1, _⟩ => exact (Nat.zero_add _).symm
    | ⟨2, _⟩ => exact (Nat.zero_add _).symm)

/-- The slice of the last 16 columns reads the column 16 further along. -/
theorem slice_hi_apply (y : FVec Ideal S8x64x32 .f32) (p : Fin 8) (t : Fin 64) (k : Fin 16) :
    extractStridedSlice S8x64x16 ![0, 0, 16] y slices_S8x64x32_o0_0_16_S8x64x16 (ix3 p t k)
      = y (ix3 p t (⟨16 + k.val, by omega⟩ : Fin 32)) :=
  extractStridedSlice_apply ![0, 0, 16] y slices_S8x64x32_o0_0_16_S8x64x16 (ix3 p t k) _ (fun a => by
    match a with
    | ⟨0, _⟩ => exact (Nat.zero_add _).symm
    | ⟨1, _⟩ => exact (Nat.zero_add _).symm
    | ⟨2, _⟩ => rfl)

/-- The [8, 16] slopes given a unit middle axis and repeated along it: entry (p, t, k) is the slope (p, k). -/
theorem srow_apply (s : Vec Ideal S8x16 .f32) (p : Fin 8) (t : Fin 64) (k : Fin 16) :
    broadcastTo S8x64x16 (shapeCast S8x1x16 s shapeCasts_S8x16_S8x1x16) broadcasts_S8x1x16_S8x64x16 (ix3 p t k)
      = s (ix2 p k) := by
  refine (broadcastTo_apply _ broadcasts_S8x1x16_S8x64x16 (ix3 p t k) (ix3 p (0 : Fin 1) k) (fun a => by
    match a with
    | ⟨0, _⟩ => rfl
    | ⟨1, _⟩ => rfl
    | ⟨2, _⟩ => rfl)).trans ?_
  exact shapeCast_apply s shapeCasts_S8x16_S8x1x16 (ix3 p (0 : Fin 1) k) (ix2 p k) (by
    rw [Shape.rowMajor_val_two, Shape.rowMajor_val_three]
    show p.val * 16 + k.val = (p.val * 1 + (0 : Fin 1).val) * 16 + k.val
    simp)

/-- Summing out the last axis at (p, t) runs over the entries (p, t, k). -/
theorem lane_lift (p : Fin 8) (t : Fin 64) (k : Fin 16) :
    reduces_S8x64x16_S8x64.lift (ix2 p t) k = ix3 p t k :=
  funext fun a => Fin.ext (by
    match a with
    | ⟨0, _⟩ => rfl
    | ⟨1, _⟩ => rfl
    | ⟨2, _⟩ => rfl)

/-- The quadratic form with the hidden axis contracted last: over the 16 lanes, the accumulator's upper half
    times the slope, times its lower half. -/
theorem pay6_apply (vq : Vec Ideal S512x32 .f32) (s : Vec Ideal S8x16 .f32) (p : Fin 8) (t : Fin 64) :
    k0_pay6 (F := Ideal) vq s (ix2 p t)
      = ∑ k : Fin 16, (vq (ix2 (⟨p.val * 64 + t.val, by omega⟩ : Fin 512) (⟨16 + k.val, by omega⟩ : Fin 32)) * s (ix2 p k))
                        * vq (ix2 (⟨p.val * 64 + t.val, by omega⟩ : Fin 512) (⟨k.val, by omega⟩ : Fin 32)) := by
  unfold k0_pay6
  refine (Ideal.multiReduction_add_single _ _ reduces_S8x64x16_S8x64 (.inl rfl) rfl (ix2 p t)).trans ?_
  show ∑ k : Fin 16, _ = _
  refine Finset.sum_congr rfl fun k _ => ?_
  rw [lane_lift]
  show (extractStridedSlice S8x64x16 ![0, 0, 16] (shapeCast S8x64x32 vq shapeCasts_S512x32_S8x64x32)
            slices_S8x64x32_o0_0_16_S8x64x16 (ix3 p t k)
          * broadcastTo S8x64x16 (shapeCast S8x1x16 s shapeCasts_S8x16_S8x1x16) broadcasts_S8x1x16_S8x64x16 (ix3 p t k))
        * extractStridedSlice S8x64x16 ![0, 0, 0] (shapeCast S8x64x32 vq shapeCasts_S512x32_S8x64x32)
            slices_S8x64x32_o0_0_0_S8x64x16 (ix3 p t k) = _
  rw [slice_hi_apply, slice_lo_apply, srow_apply, unflatten_apply, unflatten_apply]

end Cert.Stein.Payload

end
-- ==== Proof.Blocks.lean ====
/-
  Where each window's block sits in its array, one index at a time.

  The region runs over a 4 × 4 grid of 16 points t = 4·i + j: i = t / 4 is the tile of 8 rows, j = t % 4 the chunk of
  2048 positions of the long axis. A block's coordinate in its array is always the block index times the block's size
  plus the coordinate inside the block. The block indices are decided once over the grid; each read then follows axis
  by axis. The two output arrays are covered by the blocks written back at the last chunk of each row tile.
-/
import proofs.«108424_j41781441855509_2_alg».proof.Proof.Spec
import proofs.«108424_j41781441855509_2_alg».proof.Proof.Gen.KernelIdeal.Frame
import Idealize.ShloMosaic.Lib.Pipeline.Value
import Idealize.ShloMosaic.Lib.ValueIdx

set_option maxRecDepth 16384

noncomputable section

open scoped BigOperators

namespace Cert.Stein.Blocks

open Cert.KernelIdeal Cert.KernelIdeal.Gen Idealize.ShloMosaic Idealize.ShloMosaic.ValueIdx Idealize.ShloMosaic.TcCoe

variable (m : (ℓ : Loc nD τ sig) → Buf (Elt Ideal) ℓ)

/-- The block indices of every window at every point, decided over the grid: the row tile is t / 4, the chunk t % 4,
    and a window that holds its whole array stays at block 0. -/
theorem idx0 : ∀ t : Fin cfg0.N, win0_0.index t (0 : Fin 2) = t.val / 4 ∧ win0_0.index t (1 : Fin 2) = 0 :=
  (by decide +kernel : ∀ t : Fin grid0.N, _)
theorem idx1 : ∀ t : Fin cfg0.N, win0_1.index t (0 : Fin 3) = t.val / 4 ∧ win0_1.index t (1 : Fin 3) = 0
    ∧ win0_1.index t (2 : Fin 3) = t.val % 4 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 1) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 1) = 0 :=
  (by decide +kernel : ∀ t : Fin grid0.N, _)
theorem idx6 : ∀ t : Fin cfg0.N, win0_6.index t (0 : Fin 2) = 0 ∧ win0_6.index t (1 : Fin 2) = t.val % 4 :=
  (by decide +kernel : ∀ t : Fin grid0.N, _)
theorem idx7 : ∀ t : Fin cfg0.N, win0_7.index t (0 : Fin 2) = t.val / 4 ∧ win0_7.index t (1 : Fin 2) = 0 :=
  (by decide +kernel : ∀ t : Fin grid0.N, _)
theorem idx8 : ∀ t : Fin cfg0.N, win0_8.index t (0 : Fin 2) = t.val / 4 ∧ win0_8.index t (1 : Fin 2) = 0 :=
  (by decide +kernel : ∀ t : Fin grid0.N, _)

/-- The first operand's block at point t is rows 8·(t / 4) … of its array, all columns. -/
theorem blk0_apply (c : Dev nD) (t : Fin cfg0.N) (p : Fin 8) (d : Fin 8192) :
    (iblk (F := Ideal) m c 0 t : Vec Ideal S8x8192 .f32) (ix2 p d)
      = (V (F := Ideal) m c main_arg0 : S32x8192.Idx → EReal) (ix2 (⟨8 * (t.val / 4) + p.val, by have hN : t.val < 16 := lt_of_lt_of_eq t.isLt N_0; omega⟩ : Fin 32) d) := by
  obtain ⟨e0, e1⟩ := idx0 t
  unfold iblk
  rw [View.read_apply]
  show V (F := Ideal) m c main_arg0 (((cfg0.win 0).blk t).view.emb (ix2 p d)) = V (F := Ideal) m c main_arg0 _
  congr 1
  funext a
  apply Fin.ext
  match a with
  | ⟨0, _⟩ => show win0_0.index t (0 : Fin 2) * 8 + 1 * p.val = 8 * (t.val / 4) + p.val; rw [e0]; omega
  | ⟨1, _⟩ => show win0_0.index t (1 : Fin 2) * 8192 + 1 * d.val = d.val; rw [e1]; omega

/-- The probes' block at point t: rows 8·(t / 4) …, every probe, and chunk t % 4 of the long axis. -/
theorem blk1_apply (c : Dev nD) (t : Fin cfg0.N) (p : Fin 8) (s : Fin 64) (d : Fin 2048) :
    (iblk (F := Ideal) m c 1 t : Vec Ideal S8x64x2048 .f32) (ix3 p s d)
      = (V (F := Ideal) m c main_arg1 : S32x64x8192.Idx → EReal) (ix3 (⟨8 * (t.val / 4) + p.val, by have hN : t.val < 16 := lt_of_lt_of_eq t.isLt N_0; omega⟩ : Fin 32) s (⟨(t.val % 4) * 2048 + d.val, by have hN : t.val < 16 := lt_of_lt_of_eq t.isLt N_0; omega⟩ : Fin 8192)) := by
  obtain ⟨e0, e1, e2⟩ := idx1 t
  unfold iblk
  rw [View.read_apply]
  show V (F := Ideal) m c main_arg1 (((cfg0.win 1).blk t).view.emb (ix3 p s d)) = V (F := Ideal) m c main_arg1 _
  congr 1
  funext a
  apply Fin.ext
  match a with
  | ⟨0, _⟩ => show win0_1.index t (0 : Fin 3) * 8 + 1 * p.val = 8 * (t.val / 4) + p.val; rw [e0]; omega
  | ⟨1, _⟩ => show win0_1.index t (1 : Fin 3) * 64 + 1 * s.val = s.val; rw [e1]; omega
  | ⟨2, _⟩ => show win0_1.index t (2 : Fin 3) * 2048 + 1 * d.val = (t.val % 4) * 2048 + d.val; rw [e2]; omega

/-- The first layer's weights are held whole: the block is the array. -/
theorem blk2_apply (c : Dev nD) (t : Fin cfg0.N) (k : Fin 16) (d : Fin 8192) :
    (iblk (F := Ideal) m c 2 t : Vec Ideal S16x8192 .f32) (ix2 k d)
      = (V (F := Ideal) m c main_arg2 : S16x8192.Idx → EReal) (ix2 k d) := by
  obtain ⟨e0, e1⟩ := idx2 t
  unfold iblk
  rw [View.read_apply]
  show V (F := Ideal) m c main_arg2 (((cfg0.win 2).blk t).view.emb (ix2 k d)) = V (F := Ideal) m c main_arg2 _
  congr 1
  funext a
  apply Fin.ext
  match a with
  | ⟨0, _⟩ => show win0_2.index t (0 : Fin 2) * 16 + 1 * k.val = k.val; rw [e0]; omega
  | ⟨1, _⟩ => show win0_2.index t (1 : Fin 2) * 8192 + 1 * d.val = d.val; rw [e1]; omega

/-- The first layer's bias is held whole. -/
theorem blk3_apply (c : Dev nD) (t : Fin cfg0.N) (k : Fin 16) :
    (iblk (F := Ideal) m c 3 t : Vec Ideal S16 .f32) (ix1 k)
      = (V (F := Ideal) m c main_arg3 : S16.Idx → EReal) (ix1 k) := by
  have e0 := idx3 t
  unfold iblk
  rw [View.read_apply]
  show V (F := Ideal) m c main_arg3 (((cfg0.win 3).blk t).view.emb (ix1 k)) = V (F := Ideal) m c main_arg3 _
  congr 1
  funext a
  apply Fin.ext
  match a with
  | ⟨0, _⟩ => show win0_3.index t (0 : Fin 1) * 16 + 1 * k.val = k.val; rw [e0]; omega

/-- The second layer's transposed weights are held whole. -/
theorem blk4_apply (c : Dev nD) (t : Fin cfg0.N) (k : Fin 16) (d : Fin 8192) :
    (iblk (F := Ideal) m c 4 t : Vec Ideal S16x8192 .f32) (ix2 k d)
      = (V (F := Ideal) m c main_v0 : S16x8192.Idx → EReal) (ix2 k d) := by
  obtain ⟨e0, e1⟩ := idx4 t
  unfold iblk
  rw [View.read_apply]
  show V (F := Ideal) m c main_v0 (((cfg0.win 4).blk t).view.emb (ix2 k d)) = V (F := Ideal) m c main_v0 _
  congr 1
  funext a
  apply Fin.ext
  match a with
  | ⟨0, _⟩ => show win0_4.index t (0 : Fin 2) * 16 + 1 * k.val = k.val; rw [e0]; omega
  | ⟨1, _⟩ => show win0_4.index t (1 : Fin 2) * 8192 + 1 * d.val = d.val; rw [e1]; omega

/-- The second layer's bias is held whole. -/
theorem blk5_apply (c : Dev nD) (t : Fin cfg0.N) (d : Fin 8192) :
    (iblk (F := Ideal) m c 5 t : Vec Ideal S8192 .f32) (ix1 d)
      = (V (F := Ideal) m c main_arg5 : S8192.Idx → EReal) (ix1 d) := by
  have e0 := idx5 t
  unfold iblk
  rw [View.read_apply]
  show V (F := Ideal) m c main_arg5 (((cfg0.win 5).blk t).view.emb (ix1 d)) = V (F := Ideal) m c main_arg5 _
  congr 1
  funext a
  apply Fin.ext
  match a with
  | ⟨0, _⟩ => show win0_5.index t (0 : Fin 1) * 8192 + 1 * d.val = d.val; rw [e0]; omega

/-- The stacked weights' block at point t: all 32 rows, chunk t % 4 of the long axis. -/
theorem blk6_apply (c : Dev nD) (t : Fin cfg0.N) (r : Fin 32) (d : Fin 2048) :
    (iblk (F := Ideal) m c 6 t : Vec Ideal S32x2048 .f32) (ix2 r d)
      = (V (F := Ideal) m c main_v1 : S32x8192.Idx → EReal) (ix2 r (⟨(t.val % 4) * 2048 + d.val, by have hN : t.val < 16 := lt_of_lt_of_eq t.isLt N_0; omega⟩ : Fin 8192)) := by
  obtain ⟨e0, e1⟩ := idx6 t
  unfold iblk
  rw [View.read_apply]
  show V (F := Ideal) m c main_v1 (((cfg0.win 6).blk t).view.emb (ix2 r d)) = V (F := Ideal) m c main_v1 _
  congr 1
  funext a
  apply Fin.ext
  match a with
  | ⟨0, _⟩ => show win0_6.index t (0 : Fin 2) * 32 + 1 * r.val = r.val; rw [e0]; omega
  | ⟨1, _⟩ => show win0_6.index t (1 : Fin 2) * 2048 + 1 * d.val = (t.val % 4) * 2048 + d.val; rw [e1]; omega

/-- Any contents of the first output array, read through point t's block: rows 8·(t / 4) …, all columns. -/
theorem out7_read (c : Dev nD) (t : Fin cfg0.N) (G : Buf (Elt Ideal) ((cfg0.win 7).arr.view.loc (c.tc : Thread nD τ)))
    (p : Fin 8) (d : Fin 8192) :
    (((cfg0.win 7).blk t).view.read (Elt Ideal) G : Vec Ideal S8x8192 .f32) (ix2 p d)
      = (G : S32x8192.Idx → EReal) (ix2 (⟨8 * (t.val / 4) + p.val, by have hN : t.val < 16 := lt_of_lt_of_eq t.isLt N_0; omega⟩ : Fin 32) d) := by
  obtain ⟨e0, e1⟩ := idx7 t
  rw [View.read_apply]
  show G (((cfg0.win 7).blk t).view.emb (ix2 p d)) = G _
  congr 1
  funext a
  apply Fin.ext
  match a with
  | ⟨0, _⟩ => show win0_7.index t (0 : Fin 2) * 8 + 1 * p.val = 8 * (t.val / 4) + p.val; rw [e0]; omega
  | ⟨1, _⟩ => show win0_7.index t (1 : Fin 2) * 8192 + 1 * d.val = d.val; rw [e1]; omega

/-- Any contents of the second output array, read through point t's block: rows 8·(t / 4) …, every probe. -/
theorem out8_read (c : Dev nD) (t : Fin cfg0.N) (G : Buf (Elt Ideal) ((cfg0.win 8).arr.view.loc (c.tc : Thread nD τ)))
    (p : Fin 8) (s : Fin 64) :
    (((cfg0.win 8).blk t).view.read (Elt Ideal) G : Vec Ideal S8x64 .f32) (ix2 p s)
      = (G : S32x64.Idx → EReal) (ix2 (⟨8 * (t.val / 4) + p.val, by have hN : t.val < 16 := lt_of_lt_of_eq t.isLt N_0; omega⟩ : Fin 32) s) := by
  obtain ⟨e0, e1⟩ := idx8 t
  rw [View.read_apply]
  show G (((cfg0.win 8).blk t).view.emb (ix2 p s)) = G _
  congr 1
  funext a
  apply Fin.ext
  match a with
  | ⟨0, _⟩ => show win0_8.index t (0 : Fin 2) * 8 + 1 * p.val = 8 * (t.val / 4) + p.val; rw [e0]; omega
  | ⟨1, _⟩ => show win0_8.index t (1 : Fin 2) * 64 + 1 * s.val = s.val; rw [e1]; omega

/-- An index of the array is in point t's block iff each coordinate is in the block's range on its axis. -/
theorem mem_blk7 (t : Fin cfg0.N) (i : S32x8192.Idx) :
    i ∈ ((cfg0.win 7).blk t).view.set
      ↔ ∀ a : Fin 2, win0_7.index t a * S8x8192.size a ≤ (i a).val ∧ (i a).val < win0_7.index t a * S8x8192.size a + S8x8192.size a := by
  show i ∈ ((View.whole main_v2_0).slice (win0_7.rect t)).set ↔ _
  rw [View.set_slice_whole, Rect.mem_set_unit]
  exact Iff.rfl

/-- Every index of the first output array lies in the block written back at the last chunk of its row tile:
    row r is covered by point 4·(r / 8) + 3. -/
theorem cover7_idx (i : S32x8192.Idx) :
    ∃ t : Fin cfg0.N, (cfg0.win 7).flush t = true ∧ i ∈ ((cfg0.win 7).blk t).view.set := by
  have hi0 : (i 0).val < 32 := (i 0).isLt
  have hi1 : (i 1).val < 8192 := (i 1).isLt
  obtain ⟨t, ht⟩ : ∃ t : Fin cfg0.N, t.val = 4 * ((i 0).val / 8) + 3 :=
    ⟨⟨4 * ((i 0).val / 8) + 3, by rw [show cfg0.N = 16 from N_0]; omega⟩, rfl⟩
  obtain ⟨e0, e1⟩ := idx7 t
  refine ⟨t, (flush0_7 t).mpr (by omega), ?_⟩
  rw [mem_blk7]
  intro a
  match a with
  | ⟨0, _⟩ =>
    show win0_7.index t (0 : Fin 2) * 8 ≤ (i 0).val ∧ (i 0).val < win0_7.index t (0 : Fin 2) * 8 + 8
    rw [e0]; omega
  | ⟨1, _⟩ =>
    show win0_7.index t (1 : Fin 2) * 8192 ≤ (i 1).val ∧ (i 1).val < win0_7.index t (1 : Fin 2) * 8192 + 8192
    rw [e1]; omega

/-- The same, at the array's index type as the pipeline names it. -/
theorem cover7 (c : Dev nD) (i : ((cfg0.win 7).arr.view.loc (c.tc : Thread nD τ)).2.ty.Idx) :
    ∃ t : Fin cfg0.N, (cfg0.win 7).flush t = true ∧ i ∈ ((cfg0.win 7).blk t).view.set :=
  cover7_idx i

/-- An index of the array is in point t's block iff each coordinate is in the block's range on its axis. -/
theorem mem_blk8 (t : Fin cfg0.N) (i : S32x64.Idx) :
    i ∈ ((cfg0.win 8).blk t).view.set
      ↔ ∀ a : Fin 2, win0_8.index t a * S8x64.size a ≤ (i a).val ∧ (i a).val < win0_8.index t a * S8x64.size a + S8x64.size a := by
  show i ∈ ((View.whole main_v2_1).slice (win0_8.rect t)).set ↔ _
  rw [View.set_slice_whole, Rect.mem_set_unit]
  exact Iff.rfl

/-- Every index of the second output array lies in the block written back at the last chunk of its row tile. -/
theorem cover8_idx (i : S32x64.Idx) :
    ∃ t : Fin cfg0.N, (cfg0.win 8).flush t = true ∧ i ∈ ((cfg0.win 8).blk t).view.set := by
  have hi0 : (i 0).val < 32 := (i 0).isLt
  have hi1 : (i 1).val < 64 := (i 1).isLt
  obtain ⟨t, ht⟩ : ∃ t : Fin cfg0.N, t.val = 4 * ((i 0).val / 8) + 3 :=
    ⟨⟨4 * ((i 0).val / 8) + 3, by rw [show cfg0.N = 16 from N_0]; omega⟩, rfl⟩
  obtain ⟨e0, e1⟩ := idx8 t
  refine ⟨t, (flush0_8 t).mpr (by omega), ?_⟩
  rw [mem_blk8]
  intro a
  match a with
  | ⟨0, _⟩ =>
    show win0_8.index t (0 : Fin 2) * 8 ≤ (i 0).val ∧ (i 0).val < win0_8.index t (0 : Fin 2) * 8 + 8
    rw [e0]; omega
  | ⟨1, _⟩ =>
    show win0_8.index t (1 : Fin 2) * 64 ≤ (i 1).val ∧ (i 1).val < win0_8.index t (1 : Fin 2) * 64 + 64
    rw [e1]; omega

/-- The same, at the array's index type as the pipeline names it. -/
theorem cover8 (c : Dev nD) (i : ((cfg0.win 8).arr.view.loc (c.tc : Thread nD τ)).2.ty.Idx) :
    ∃ t : Fin cfg0.N, (cfg0.win 8).flush t = true ∧ i ∈ ((cfg0.win 8).blk t).view.set :=
  cover8_idx i

end Cert.Stein.Blocks

end
-- ==== Proof.HostPre.lean ====
/-
  The two host operations before the kernel region, read at an index: the transposed second-layer weights and the
  stacked weights (the first layer's rows above the transposed second layer's).
-/
import proofs.«108424_j41781441855509_2_alg».proof.Proof.Spec
import proofs.«108424_j41781441855509_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.Stein.HostPre

open Cert.KernelIdeal Cert.KernelIdeal.Gen Idealize.ShloMosaic Idealize.ShloMosaic.ValueIdx Idealize.ShloMosaic.TcCoe

variable (m : (ℓ : Loc nD τ sig) → Buf (Elt Ideal) ℓ)

/-- The first host operation's array is the transpose of `W2`. -/
theorem V_v0_eq (c : Dev nD) :
    (V (F := Ideal) m c main_v0 : S16x8192.Idx → EReal)
      = transpose S16x8192 [1, 0] (m ((c : Thread nD τ).loc main_arg4) : S8192x16.Idx → EReal) transposes_S8192x16_S16x8192_1_0 := by
  show StableHlo.after (List.flatten [hostOps0]) (fun b => m (c, b)) (Proc.devRef .tc main_v0) = _
  simp only [hostOps0, List.flatten_cons, List.flatten_nil, List.append_nil, List.cons_append, List.nil_append]
  after_results

/-- The second host operation's array is `W1` stacked on the transpose of `W2`. -/
theorem V_v1_eq (c : Dev nD) :
    (V (F := Ideal) m c main_v1 : S32x8192.Idx → EReal)
      = concatenate S32x8192 0
          [⟨S16x8192, (m ((c : Thread nD τ).loc main_arg2) : S16x8192.Idx → EReal)⟩,
           ⟨S16x8192, transpose S16x8192 [1, 0] (m ((c : Thread nD τ).loc main_arg4) : S8192x16.Idx → EReal) transposes_S8192x16_S16x8192_1_0⟩]
          concatenates_S16x8192_S16x8192_S32x8192_d0 := by
  show StableHlo.after (List.flatten [hostOps0]) (fun b => m (c, b)) (Proc.devRef .tc main_v1) = _
  simp only [hostOps0, List.flatten_cons, List.flatten_nil, List.append_nil, List.cons_append, List.nil_append]
  after_results

/-- The transposed second-layer weights at `(k, d)` are `W2` at `(d, k)`. -/
theorem w2t_apply (c : Dev nD) (k : Fin 16) (d : Fin 8192) :
    (V (F := Ideal) m c main_v0 : S16x8192.Idx → EReal) (ix2 k d)
      = (m ((c : Thread nD τ).loc main_arg4) : S8192x16.Idx → EReal) (ix2 d k) := by
  rw [V_v0_eq]
  exact transpose_ix2_apply _ _ k d

/-- Rows 0 to 15 of the stacked weights are the rows of `W1`. -/
theorem w12_lo_apply (c : Dev nD) (k : Fin 16) (d : Fin 8192) :
    (V (F := Ideal) m c main_v1 : S32x8192.Idx → EReal) (ix2 (⟨k.val, by omega⟩ : Fin 32) d)
      = (m ((c : Thread nD τ).loc main_arg2) : S16x8192.Idx → EReal) (ix2 k d) := by
  rw [V_v1_eq]
  exact concatenate_pair_apply_left (t := S32x8192) 0 _ _ concatenates_S16x8192_S16x8192_S32x8192_d0
    (ix2 (⟨k.val, by omega⟩ : Fin 32) d) rfl (ix2 k d) (fun b => match b with
    | ⟨0, _⟩ => rfl
    | ⟨1, _⟩ => rfl)

/-- Rows 16 to 31 of the stacked weights are the columns of `W2`. -/
theorem w12_hi_apply (c : Dev nD) (k : Fin 16) (d : Fin 8192) :
    (V (F := Ideal) m c main_v1 : S32x8192.Idx → EReal) (ix2 (⟨16 + k.val, by omega⟩ : Fin 32) d)
      = (m ((c : Thread nD τ).loc main_arg4) : S8192x16.Idx → EReal) (ix2 d k) := by
  rw [V_v1_eq]
  refine (concatenate_pair_apply_right (t := S32x8192) 0 _ _ concatenates_S16x8192_S16x8192_S32x8192_d0
    (ix2 (⟨16 + k.val, by omega⟩ : Fin 32) d) rfl rfl (ix2 k d) (fun b => match b with
    | ⟨0, _⟩ => fun h => absurd rfl h
    | ⟨1, _⟩ => fun _ => rfl) (by show k.val + 16 = 16 + k.val; omega)).trans ?_
  exact transpose_ix2_apply _ _ k d

end Cert.Stein.HostPre

end
-- ==== Proof.Tile.lean ====
/-
  The rows of a tile, and the hidden activation the kernel computes for them.

  The grid's 16 points t = 4·i + j split the 32 rows into four tiles of 8: row p of point t's tile is row 8·(t / 4) + p
  of the arrays. The first operand's block holds those rows whole, and the first layer's weights and bias are held
  whole at every point, so the hidden activation computed from any point's blocks is the specification's hidden
  activation at the tile's rows.
-/
import proofs.«108424_j41781441855509_2_alg».proof.Proof.Spec
import proofs.«108424_j41781441855509_2_alg».proof.Proof.Payload
import proofs.«108424_j41781441855509_2_alg».proof.Proof.Blocks

set_option maxRecDepth 16384

noncomputable section

open scoped BigOperators

namespace Cert.Stein.Tile

open Cert.KernelIdeal Cert.KernelIdeal.Gen Idealize.ShloMosaic Idealize.ShloMosaic.ValueIdx
  Idealize.ShloMosaic.TcCoe
open Cert.Stein.Payload Cert.Stein.Blocks

variable (m : (ℓ : Loc nD τ sig) → Buf (Elt Ideal) ℓ)

/-! ## The argument arrays as launched -/

/-- The inputs u, one row of 8192 per sample. -/
abbrev aU (c : Dev nD) : Mat 32 8192 := (m ((c : Thread nD τ).loc main_arg0) : S32x8192.Idx → EReal)
/-- The probes w. -/
abbrev aWp (c : Dev nD) : Ten 32 64 8192 := (m ((c : Thread nD τ).loc main_arg1) : S32x64x8192.Idx → EReal)
/-- The first layer's weights W1. -/
abbrev aW1 (c : Dev nD) : Mat 16 8192 := (m ((c : Thread nD τ).loc main_arg2) : S16x8192.Idx → EReal)
/-- The first layer's bias b1. -/
abbrev ab1 (c : Dev nD) : Row 16 := (m ((c : Thread nD τ).loc main_arg3) : S16.Idx → EReal)
/-- The second layer's weights W2. -/
abbrev aW2 (c : Dev nD) : Mat 8192 16 := (m ((c : Thread nD τ).loc main_arg4) : S8192x16.Idx → EReal)
/-- The second layer's bias b2. -/
abbrev ab2 (c : Dev nD) : Row 8192 := (m ((c : Thread nD τ).loc main_arg5) : S8192.Idx → EReal)

/-- Row p of point t's tile is a row of the 32. -/
theorem row_lt (t : Fin cfg0.N) (p : Fin 8) : 8 * (t.val / 4) + p.val < 32 := by
  have hN : t.val < 16 := lt_of_lt_of_eq t.isLt N_0
  omega

/-! ## The hidden activation of a tile -/

/-- The hidden activation computed from point s's blocks is the specification's, at the tile's row. -/
theorem hid_blk (c : Dev nD) (s : Fin cfg0.N) (p : Fin 8) (k : Fin 16) :
    k0_pay2 (F := Ideal) (iblk m c 0 s) (iblk m c 2 s) (iblk m c 3 s) (ix2 p k)
      = Cert.Stein.hid (aU m c) (aW1 m c) (ab1 m c) (⟨8 * (s.val / 4) + p.val, row_lt s p⟩ : Fin 32) k := by
  refine (pay2_apply _ _ _ p k).trans ?_
  unfold Cert.Stein.hid
  have e0 : ∀ d : Fin 8192, (iblk (F := Ideal) m c 0 s : Vec Ideal S8x8192 .f32) (ix2 p d)
      = aU m c (ix2 (⟨8 * (s.val / 4) + p.val, row_lt s p⟩ : Fin 32) d) := fun d =>
    (blk0_apply m c s p d).trans (congrFun (V_main_arg0 m c) _)
  have e2 : ∀ d : Fin 8192, (iblk (F := Ideal) m c 2 s : Vec Ideal S16x8192 .f32) (ix2 k d) = aW1 m c (ix2 k d) := fun d =>
    (blk2_apply m c s k d).trans (congrFun (V_main_arg2 m c) _)
  have e3 : (iblk (F := Ideal) m c 3 s : Vec Ideal S16 .f32) (ix1 k) = ab1 m c (ix1 k) :=
    (blk3_apply m c s k).trans (congrFun (V_main_arg3 m c) _)
  exact congrArg Ideal.tanh (congrArg₂ (· + ·)
    (Finset.sum_congr rfl fun d _ => congrArg₂ (· * ·) (e0 d) (e2 d)) e3)

end Cert.Stein.Tile

end
-- ==== Proof.KernelOut.lean ====
/-
  The network's output as the kernel leaves it.

  At the first chunk of each tile (j = 0) the kernel computes the tile's 8 rows of f = W2 · tanh(W1 · u + b1) + b2 from
  blocks that hold those rows of u and the weights whole, and stores them in the output's staging buffer; the buffer is
  untouched for the rest of the tile and written back to the array after the tile's last chunk. So the block written
  back at point t is what the tile's base point t − t % 4 computed, which is the specification's output at rows
  8·(t / 4) …, and the four write-backs cover the array.
-/
import proofs.«108424_j41781441855509_2_alg».proof.Proof.Spec
import proofs.«108424_j41781441855509_2_alg».proof.Proof.BodyIdeal.Oblig
import proofs.«108424_j41781441855509_2_alg».proof.Proof.BodyIdeal.Pieces
import proofs.«108424_j41781441855509_2_alg».proof.Proof.Payload
import proofs.«108424_j41781441855509_2_alg».proof.Proof.Blocks
import proofs.«108424_j41781441855509_2_alg».proof.Proof.HostPre
import proofs.«108424_j41781441855509_2_alg».proof.Proof.Tile

set_option maxRecDepth 16384

noncomputable section

open scoped BigOperators

namespace Cert.Stein.KernelOut

open Cert.KernelIdeal Cert.KernelIdeal.Gen Cert.KernelIdeal.Body Idealize.ShloMosaic Idealize.ShloMosaic.ValueIdx
  Idealize.ShloMosaic.TcCoe
open Cert.Stein.Payload Cert.Stein.Blocks Cert.Stein.HostPre Cert.Stein.Tile

variable (m : (ℓ : Loc nD τ sig) → Buf (Elt Ideal) ℓ)

/-- What a first chunk stores for the network's output: the body's output term of the point's blocks. -/
theorem fOf_eq (c : Dev nD) (s : Fin cfg0.N) (hs : s.val % 4 = 0) :
    fOf (F := Ideal) m c s hs
      = k0_pay3 (iblk m c 0 s) (iblk m c 2 s) (iblk m c 3 s) (iblk m c 4 s) (iblk m c 5 s) := by
  unfold fOf firstAt
  exact runFirst_f ..

/-- The output a first chunk stores is the specification's output at the tile's rows. -/
theorem fOf_apply (c : Dev nD) (s : Fin cfg0.N) (hs : s.val % 4 = 0) (p : Fin 8) (d : Fin 8192) :
    fOf (F := Ideal) m c s hs (ix2 p d)
      = Cert.Stein.fOut (aU m c) (aW1 m c) (ab1 m c) (aW2 m c) (ab2 m c)
          (⟨8 * (s.val / 4) + p.val, row_lt s p⟩ : Fin 32) d := by
  rw [fOf_eq m c s hs]
  refine (pay3_apply _ _ _ _ _ p d).trans ?_
  unfold Cert.Stein.fOut
  have e4 : ∀ k : Fin 16, (iblk (F := Ideal) m c 4 s : Vec Ideal S16x8192 .f32) (ix2 k d) = aW2 m c (ix2 d k) := fun k =>
    (blk4_apply m c s k d).trans (w2t_apply m c k d)
  have e5 : (iblk (F := Ideal) m c 5 s : Vec Ideal S8192 .f32) (ix1 d) = ab2 m c (ix1 d) :=
    (blk5_apply m c s d).trans (congrFun (V_main_arg5 m c) _)
  exact congrArg₂ (· + ·)
    (Finset.sum_congr rfl fun k _ => congrArg₂ (· * ·) (hid_blk m c s p k) (e4 k)) e5

/-- The base point of t's tile names the same rows as t. -/
theorem base_row (t : Fin cfg0.N) (p : Fin 8) :
    (⟨8 * ((base t).val / 4) + p.val, row_lt (base t) p⟩ : Fin 32) = ⟨8 * (t.val / 4) + p.val, row_lt t p⟩ :=
  Fin.ext (by show 8 * ((t.val - t.val % 4) / 4) + p.val = 8 * (t.val / 4) + p.val; omega)

/-- After the region the first output array holds the network's output. -/
theorem final7 (c : Dev nD) :
    (dats (F := Ideal) m 0 c).arrAt 7 cfg0.N
      = Cert.Stein.fArr (aU m c) (aW1 m c) (ab1 m c) (aW2 m c) (ab2 m c) := by
  refine (dats (F := Ideal) m 0 c).arrAt_eq_of_cover 7 _ (fun t hf => ?_) (cover7 c)
  show (cfg0.win 7).cut (grid0.coords t) ((dats (F := Ideal) m 0 c).after 7 t) = _
  rw [after_7 m c t]
  funext i
  obtain ⟨p, d, rfl⟩ : ∃ (p : Fin 8) (d : Fin 8192), i = ix2 p d := ⟨i 0, i 1, eq_ix2 i⟩
  refine (fOf_apply m c (base t) (base_mod t) p d).trans ?_
  rw [base_row t p]
  exact (out7_read c t (Cert.Stein.fArr (aU m c) (aW1 m c) (ab1 m c) (aW2 m c) (ab2 m c)) p d).symm

end Cert.Stein.KernelOut

end
-- ==== Proof.Chunks.lean ====
/-
  A sum over 8192 positions taken in four chunks of 2048, with a running value.

  The running value starts from 0 plus the first chunk's partial sum and then adds each later chunk's partial sum to what
  the previous chunk left. Addition on the extended reals is associative and commutative with neutral element 0, so the
  value after the last chunk is the sum over all positions: the positions j · 2048 + d, for j below 4 and d below 2048,
  enumerate every position below 8192 exactly once (the pair (j, d) is the quotient and the remainder of the position by
  2048). No finiteness is needed.
-/
import Mathlib.Data.EReal.Basic
import Mathlib.Algebra.BigOperators.Fin
import Mathlib.Logic.Equiv.Fin.Basic

open scoped BigOperators

namespace Cert.Stein

/-- Position j · B + d of chunk j lies below n · B. -/
theorem chunk_bound {n B : ℕ} (j : Fin n) (d : Fin B) : j.val * B + d.val < n * B :=
  calc j.val * B + d.val < j.val * B + B := Nat.add_lt_add_left d.isLt _
    _ = (j.val + 1) * B := (Nat.succ_mul _ _).symm
    _ ≤ n * B := Nat.mul_le_mul_right _ j.isLt

/-- A sum over N = n · B positions is the sum over the n chunks of the chunks' partial sums, in any commutative
additive monoid. -/
theorem sum_chunks {M : Type} [AddCommMonoid M] {N : ℕ} (n B : ℕ) (h : N = n * B) (g : Fin N → M) :
    ∑ j : Fin n, ∑ d : Fin B, g ⟨j.val * B + d.val, h ▸ chunk_bound j d⟩ = ∑ x, g x := by
  subst h
  rw [← Finset.sum_product', Finset.univ_product_univ, ← finProdFinEquiv.sum_comp]
  refine Finset.sum_congr rfl fun p _ => congrArg g (Fin.ext ?_)
  show p.1.val * B + p.2.val = p.2.val + B * p.1.val
  rw [Nat.mul_comm, Nat.add_comm]

/-- The running value after the fourth chunk of 2048 is the sum over all 8192 positions. -/
theorem acc_chunks (A : ℕ → EReal) (g : Fin 8192 → EReal)
    (h0 : A 0 = 0 + ∑ d : Fin 2048, g ⟨0 * 2048 + d.val, by omega⟩)
    (hs : ∀ j : ℕ, 0 < j → (hj : j < 4) → A j = A (j - 1) + ∑ d : Fin 2048, g ⟨j * 2048 + d.val, by omega⟩) :
    A 3 = ∑ x : Fin 8192, g x := by
  have e := sum_chunks 4 2048 (by norm_num : 8192 = 4 * 2048) g
  rw [Fin.sum_univ_four] at e
  have h1 : A 1 = A 0 + _ := hs 1 (by norm_num) (by norm_num)
  have h2 : A 2 = A 1 + _ := hs 2 (by norm_num) (by norm_num)
  have h3 : A 3 = A 2 + _ := hs 3 (by norm_num) (by norm_num)
  rw [h3, h2, h1, h0, zero_add]
  exact e

end Cert.Stein
-- ==== Proof.KernelTrace.lean ====
/-
  The quadratic forms as the kernel leaves them.

  The kernel walks the 16 points t = 4·i + j of its grid: i names a tile of 8 rows, j a chunk of 2048 positions of the
  long axis. At j = 0 it stores the tile's tanh slope and resets a running projection of the 8 · 64 probes against
  the 32 stacked weight rows (the 16 rows of the first layer over the 16 columns of the second), adding the first
  chunk's partial projection; at each later chunk it adds that chunk's partial projection; at j = 3 it contracts the
  completed projection's upper half, the slope and its lower half over the 16 hidden units.

  Read index by index, the completed projection at (p · 64 + s, col) is the sum over all 8192 positions of the probe
  entry times the stacked weight entry (four chunks of 2048, summed left to right from zero); its upper half is the
  probe projected through the second layer, its lower half the probe projected through the first layer, and the
  slope is one minus the square of the hidden activation. The contraction over the hidden units is therefore the
  quadratic form with the hidden axis contracted last, factor for factor as the specification spells it.
-/
import proofs.«108424_j41781441855509_2_alg».proof.Proof.Spec
import proofs.«108424_j41781441855509_2_alg».proof.Proof.BodyIdeal.Oblig
import proofs.«108424_j41781441855509_2_alg».proof.Proof.BodyIdeal.Pieces
import proofs.«108424_j41781441855509_2_alg».proof.Proof.Payload
import proofs.«108424_j41781441855509_2_alg».proof.Proof.Blocks
import proofs.«108424_j41781441855509_2_alg».proof.Proof.HostPre
import proofs.«108424_j41781441855509_2_alg».proof.Proof.Chunks
import proofs.«108424_j41781441855509_2_alg».proof.Proof.Tile

set_option maxRecDepth 16384

noncomputable section

open scoped BigOperators

namespace Cert.Stein.KernelTrace

open Cert.KernelIdeal Cert.KernelIdeal.Gen Cert.KernelIdeal.Body Idealize.ShloMosaic Idealize.ShloMosaic.ValueIdx
  Idealize.ShloMosaic.TcCoe
open Cert.Stein.Payload Cert.Stein.Blocks Cert.Stein.HostPre Cert.Stein.Tile

variable (m : (ℓ : Loc nD τ sig) → Buf (Elt Ideal) ℓ)

/-! ## The slope of a tile -/

/-- The slope a first chunk leaves is the specification's slope at the tile's rows. -/
theorem slopeOf_apply (c : Dev nD) (s : Fin cfg0.N) (hs : s.val % 4 = 0) (p : Fin 8) (k : Fin 16) :
    slopeOf (F := Ideal) m c s hs (ix2 p k)
      = Cert.Stein.slope (aU m c) (aW1 m c) (ab1 m c) (⟨8 * (s.val / 4) + p.val, row_lt s p⟩ : Fin 32) k := by
  have e : slopeOf (F := Ideal) m c s hs = k0_pay4 (iblk m c 0 s) (iblk m c 2 s) (iblk m c 3 s) := by
    unfold slopeOf firstAt
    exact runFirst_slope ..
  rw [e]
  refine (pay4_apply _ _ _ p k).trans ?_
  unfold Cert.Stein.slope
  rw [hid_blk m c s p k]

/-! ## The running projection, chunk by chunk -/

/-- The running projection after position n, made total (zero beyond the grid). -/
def accN (c : Dev nD) (n : ℕ) : Vec Ideal S512x32 .f32 :=
  if h : n < cfg0.N then accAt (F := Ideal) m c n h else fun _ => 0

theorem accN_eq (c : Dev nD) (n : ℕ) (h : n < cfg0.N) : accN m c n = accAt (F := Ideal) m c n h := dif_pos h

/-- Point q's block of the probes: 8 rows, every probe, one chunk of the long axis. -/
abbrev probeBlk (c : Dev nD) (q : Fin cfg0.N) : Vec Ideal S8x64x2048 .f32 := iblk (F := Ideal) m c 1 q
/-- Point q's block of the stacked weights: all 32 rows, one chunk of the long axis. -/
abbrev stackBlk (c : Dev nD) (q : Fin cfg0.N) : Vec Ideal S32x2048 .f32 := iblk (F := Ideal) m c 6 q

/-- Point q's partial projection: its probe block against its stacked-weights block is chunk q % 4 of the probes' rows
against chunk q % 4 of the stacked weights. -/
theorem chunk_term (c : Dev nD) (q : Fin cfg0.N) (j : ℕ) (hj : q.val % 4 = j) (p : Fin 8) (s : Fin 64) (col : Fin 32)
    (r : Fin 32) (hr : r.val = 8 * (q.val / 4) + p.val) :
    ∑ d : Fin 2048, probeBlk m c q (ix3 p s d) * stackBlk m c q (ix2 col d)
      = ∑ d : Fin 2048, aWp m c (ix3 r s (⟨j * 2048 + d.val, by omega⟩ : Fin 8192))
          * (V (F := Ideal) m c main_v1 : S32x8192.Idx → EReal) (ix2 col (⟨j * 2048 + d.val, by omega⟩ : Fin 8192)) := by
  subst hj
  obtain rfl : r = ⟨8 * (q.val / 4) + p.val, row_lt q p⟩ := Fin.ext hr
  refine Finset.sum_congr rfl fun d _ => ?_
  exact congrArg₂ (· * ·) ((blk1_apply m c q p s d).trans (congrFun (V_main_arg1 m c) _)) (blk6_apply m c q col d)

/-- After a first chunk the running projection is zero plus chunk 0's partial projection. -/
theorem accN_zero (c : Dev nD) (q : ℕ) (hq : q < cfg0.N) (h0 : q % 4 = 0) (p : Fin 8) (s : Fin 64) (col : Fin 32)
    (r : Fin 32) (hr : r.val = 8 * (q / 4) + p.val) :
    accN m c q (ix2 (⟨p.val * 64 + s.val, by omega⟩ : Fin 512) col)
      = 0 + ∑ d : Fin 2048, aWp m c (ix3 r s (⟨0 * 2048 + d.val, by omega⟩ : Fin 8192))
          * (V (F := Ideal) m c main_v1 : S32x8192.Idx → EReal) (ix2 col (⟨0 * 2048 + d.val, by omega⟩ : Fin 8192)) := by
  rw [accN_eq m c q hq]
  have e : accAt (F := Ideal) m c q hq
      = k0_pay5 (iblk m c 1 ⟨q, hq⟩) (iblk m c 6 ⟨q, hq⟩) (k0_pay1 (F := Ideal)) := by
    refine (accAt_first m c ⟨q, hq⟩ h0).trans ?_
    unfold acc0Of firstAt
    exact runFirst_acc ..
  rw [e]
  refine (pay5_apply _ _ _ p s col).trans ?_
  rw [pay1_apply]
  exact congrArg (0 + ·) (chunk_term m c ⟨q, hq⟩ 0 h0 p s col r hr)

/-- After a later chunk j the running projection is what the point before left plus chunk j's partial projection. -/
theorem accN_next (c : Dev nD) (q : ℕ) (hq : q < cfg0.N) (j : ℕ) (hj : q % 4 = j) (hj0 : 0 < j) (p : Fin 8)
    (s : Fin 64) (col : Fin 32) (r : Fin 32) (hr : r.val = 8 * (q / 4) + p.val) :
    accN m c q (ix2 (⟨p.val * 64 + s.val, by omega⟩ : Fin 512) col)
      = accN m c (q - 1) (ix2 (⟨p.val * 64 + s.val, by omega⟩ : Fin 512) col)
        + ∑ d : Fin 2048, aWp m c (ix3 r s (⟨j * 2048 + d.val, by omega⟩ : Fin 8192))
            * (V (F := Ideal) m c main_v1 : S32x8192.Idx → EReal) (ix2 col (⟨j * 2048 + d.val, by omega⟩ : Fin 8192)) := by
  have hq' : q - 1 < cfg0.N := Nat.lt_of_le_of_lt (Nat.sub_le _ _) hq
  rw [accN_eq m c q hq, accN_eq m c (q - 1) hq']
  have e : accAt (F := Ideal) m c q hq
      = k0_pay5 (iblk m c 1 ⟨q, hq⟩) (iblk m c 6 ⟨q, hq⟩) (accAt (F := Ideal) m c (q - 1) hq') := by
    by_cases h3 : q % 4 = 3
    · refine (accAt_last m c ⟨q, hq⟩ h3).trans ?_
      unfold lastAt
      exact runLast_acc ..
    · refine (accAt_mid m c ⟨q, hq⟩ (show ¬q % 4 = 0 by omega) h3).trans ?_
      unfold midAt
      exact runMid_acc ..
  rw [e]
  refine (pay5_apply _ _ _ p s col).trans ?_
  exact congrArg (_ + ·) (chunk_term m c ⟨q, hq⟩ j hj p s col r hr)

/-- After the last chunk of a tile the running projection holds, at row p · 64 + s and column col, the sum over the
whole long axis of the probe entry times the stacked weight entry. -/
theorem accAt_apply (c : Dev nD) (t : Fin cfg0.N) (h3 : t.val % 4 = 3) (p : Fin 8) (s : Fin 64) (col : Fin 32) :
    accAt (F := Ideal) m c t.val t.isLt (ix2 (⟨p.val * 64 + s.val, by omega⟩ : Fin 512) col)
      = ∑ x : Fin 8192, aWp m c (ix3 (⟨8 * (t.val / 4) + p.val, row_lt t p⟩ : Fin 32) s x)
          * (V (F := Ideal) m c main_v1 : S32x8192.Idx → EReal) (ix2 col x) := by
  have key := acc_chunks
    (fun j => accN m c (t.val - 3 + j) (ix2 (⟨p.val * 64 + s.val, by omega⟩ : Fin 512) col))
    (fun x => aWp m c (ix3 (⟨8 * (t.val / 4) + p.val, row_lt t p⟩ : Fin 32) s x)
      * (V (F := Ideal) m c main_v1 : S32x8192.Idx → EReal) (ix2 col x))
    (accN_zero m c (t.val - 3 + 0) (Nat.lt_of_le_of_lt (by omega) t.isLt) (by omega) p s col _
      (by show 8 * (t.val / 4) + p.val = 8 * ((t.val - 3 + 0) / 4) + p.val; omega))
    (fun j hj0 hj =>
      (accN_next m c (t.val - 3 + j) (Nat.lt_of_le_of_lt (by omega) t.isLt) j (by omega) hj0 p s col _
        (by show 8 * (t.val / 4) + p.val = 8 * ((t.val - 3 + j) / 4) + p.val; omega)).trans
        (congrArg (fun n => accN m c n (ix2 (⟨p.val * 64 + s.val, by omega⟩ : Fin 512) col) + _)
          (show t.val - 3 + j - 1 = t.val - 3 + (j - 1) by omega)))
  have e3 : t.val - 3 + 3 = t.val := by omega
  have key' : accN m c (t.val - 3 + 3) (ix2 (⟨p.val * 64 + s.val, by omega⟩ : Fin 512) col) = _ := key
  rw [e3, accN_eq m c t.val t.isLt] at key'
  exact key'

/-! ## The quadratic forms of a tile -/

/-- What a last chunk stores: the contraction of the completed projection against the tile's slope. -/
theorem traceOf_eq (c : Dev nD) (t : Fin cfg0.N) (h3 : t.val % 4 = 3) :
    traceOf (F := Ideal) m c t h3
      = k0_pay6 (accAt (F := Ideal) m c t.val t.isLt) (slopeOf (F := Ideal) m c (base t) (base_mod t)) := by
  have e2 : accAt (F := Ideal) m c t.val t.isLt
      = k0_pay5 (iblk m c 1 t) (iblk m c 6 t)
          (accAt (F := Ideal) m c (t.val - 1) (Nat.lt_of_le_of_lt (Nat.sub_le _ _) t.isLt)) := by
    refine (accAt_last m c t h3).trans ?_
    unfold lastAt
    exact runLast_acc ..
  rw [e2]
  unfold traceOf lastAt
  exact runLast_trace ..

/-- The quadratic forms a last chunk leaves are the specification's, hidden axis contracted last, at the tile's rows. -/
theorem traceOf_apply (c : Dev nD) (t : Fin cfg0.N) (h3 : t.val % 4 = 3) (p : Fin 8) (s : Fin 64) :
    traceOf (F := Ideal) m c t h3 (ix2 p s)
      = Cert.Stein.traceHidden (aU m c) (aWp m c) (aW1 m c) (ab1 m c) (aW2 m c)
          (⟨8 * (t.val / 4) + p.val, row_lt t p⟩ : Fin 32) s := by
  rw [traceOf_eq m c t h3]
  refine (pay6_apply _ _ p s).trans ?_
  unfold Cert.Stein.traceHidden Cert.Stein.proj2 Cert.Stein.proj1
  refine Finset.sum_congr rfl fun k _ => ?_
  have ha := (accAt_apply m c t h3 p s (⟨16 + k.val, by omega⟩ : Fin 32)).trans
    (Finset.sum_congr rfl fun x _ => congrArg (aWp m c (ix3 (⟨8 * (t.val / 4) + p.val, row_lt t p⟩ : Fin 32) s x) * ·)
      (w12_hi_apply m c k x))
  have hc := (accAt_apply m c t h3 p s (⟨k.val, by omega⟩ : Fin 32)).trans
    (Finset.sum_congr rfl fun x _ => congrArg (aWp m c (ix3 (⟨8 * (t.val / 4) + p.val, row_lt t p⟩ : Fin 32) s x) * ·)
      (w12_lo_apply m c k x))
  have hb := (slopeOf_apply m c (base t) (base_mod t) p k).trans
    (congrArg (fun r : Fin 32 => Cert.Stein.slope (aU m c) (aW1 m c) (ab1 m c) r k)
      (Fin.ext (by show 8 * ((t.val - t.val % 4) / 4) + p.val = 8 * (t.val / 4) + p.val; omega) :
        (⟨8 * ((base t).val / 4) + p.val, row_lt (base t) p⟩ : Fin 32) = ⟨8 * (t.val / 4) + p.val, row_lt t p⟩))
  exact congrArg₂ (· * ·) (congrArg₂ (· * ·) ha hb) hc

/-! ## The second output array after the region -/

/-- After the region the second output array holds the quadratic forms, hidden axis contracted last. -/
theorem final8 (c : Dev nD) :
    (dats (F := Ideal) m 0 c).arrAt 8 cfg0.N
      = Cert.Stein.traceHiddenArr (aU m c) (aWp m c) (aW1 m c) (ab1 m c) (aW2 m c) := by
  refine (dats (F := Ideal) m 0 c).arrAt_eq_of_cover 8 _ (fun t hf => ?_) (cover8 c)
  have h3 : t.val % 4 = 3 := (flush0_8 t).mp hf
  show (cfg0.win 8).cut (grid0.coords t) ((dats (F := Ideal) m 0 c).after 8 t) = _
  rw [after_8 m c t h3]
  funext i
  obtain ⟨p, s, rfl⟩ : ∃ (p : Fin 8) (s : Fin 64), i = ix2 p s := ⟨i 0, i 1, eq_ix2 i⟩
  refine (traceOf_apply m c t h3 p s).trans ?_
  exact (out8_read c t (Cert.Stein.traceHiddenArr (aU m c) (aWp m c) (aW1 m c) (ab1 m c) (aW2 m c)) p s).symm

end Cert.Stein.KernelTrace

end
-- ==== Proof.RefRead.lean ====
/-
  The reference program read at an index: its two results as the specification's arrays.
-/
import proofs.«108424_j41781441855509_2_alg».proof.Proof.Spec
import proofs.«108424_j41781441855509_2_alg».proof.Proof.Gen.ReferenceIdeal.Read

noncomputable section

open scoped BigOperators

namespace Cert.Stein.Ref

open Cert.ReferenceIdeal Cert.ReferenceIdeal.Read Idealize.ShloMosaic Idealize.ShloMosaic.ValueIdx

/-! ## The index maps of the first chain, at an index given by its coordinates -/

/-- The first contraction reads row `l` of `u` at column `d`. -/
theorem lidx_v1 (l : Fin 32) (k : Fin 16) (d : Fin 8192) : lidx_main_v1 (ix2 l k) d = ix2 l d :=
  funext fun a => Fin.ext (by match a with | ⟨0, _⟩ => rfl | ⟨1, _⟩ => rfl)

/-- The first contraction reads the transposed `W1` at `(d, k)`, that is `W1` at `(k, d)`. -/
theorem ridx_v1 (l : Fin 32) (k : Fin 16) (d : Fin 8192) : idx_main_v0 (ridx_main_v1 (ix2 l k) d) = ix2 k d :=
  funext fun a => Fin.ext (by match a with | ⟨0, _⟩ => rfl | ⟨1, _⟩ => rfl)

/-- The bias `b1`, broadcast twice, is read at the hidden coordinate. -/
theorem idx_v3 (l : Fin 32) (k : Fin 16) : idx_main_v2 (idx_main_v3 (ix2 l k)) = ix1 k :=
  funext fun a => Fin.ext (by match a with | ⟨0, _⟩ => rfl)

/-- The second contraction reads row `l` of the hidden activation at `k`. -/
theorem lidx_v7 (l : Fin 32) (d : Fin 8192) (k : Fin 16) : lidx_main_v7 (ix2 l d) k = ix2 l k :=
  funext fun a => Fin.ext (by match a with | ⟨0, _⟩ => rfl | ⟨1, _⟩ => rfl)

/-- The second contraction reads the transposed `W2` at `(k, d)`, that is `W2` at `(d, k)`. -/
theorem ridx_v7 (l : Fin 32) (d : Fin 8192) (k : Fin 16) : idx_main_v6 (ridx_main_v7 (ix2 l d) k) = ix2 d k :=
  funext fun a => Fin.ext (by match a with | ⟨0, _⟩ => rfl | ⟨1, _⟩ => rfl)

/-- The bias `b2`, broadcast twice, is read at the long coordinate. -/
theorem idx_v9 (l : Fin 32) (d : Fin 8192) : idx_main_v8 (idx_main_v9 (ix2 l d)) = ix1 d :=
  funext fun a => Fin.ext (by match a with | ⟨0, _⟩ => rfl)

/-! ## The hidden activation and the network's output -/

/-- The tanh stage at `(l, k)` is the specification's hidden activation. -/
theorem ref_hid (x0 : (⟨S32x8192, .f32⟩ : BufTy).Contents (Elt Ideal)) (x2 : (⟨S16x8192, .f32⟩ : BufTy).Contents (Elt Ideal))
    (x3 : (⟨S16, .f32⟩ : BufTy).Contents (Elt Ideal)) (l : Fin 32) (k : Fin 16) :
    val_main_v5 (F := Ideal) x0 x2 x3 (ix2 l k) = Cert.Stein.hid x0 x2 x3 l k := by
  rw [val_main_v5_apply, val_main_v4_apply, val_main_v1_apply, val_main_v3_apply, val_main_v2_apply]
  simp only [val_main_v0_apply, lidx_v1, ridx_v1, idx_v3, Ideal.hostUnary_tanh_def, Ideal.addf_def]
  rfl

/-- The reference's first result is the network's output, index by index. -/
theorem ref_f (x0 : (⟨S32x8192, .f32⟩ : BufTy).Contents (Elt Ideal)) (x2 : (⟨S16x8192, .f32⟩ : BufTy).Contents (Elt Ideal))
    (x3 : (⟨S16, .f32⟩ : BufTy).Contents (Elt Ideal)) (x4 : (⟨S8192x16, .f32⟩ : BufTy).Contents (Elt Ideal))
    (x5 : (⟨S8192, .f32⟩ : BufTy).Contents (Elt Ideal)) :
    val_main_v10 (F := Ideal) x0 x2 x3 x4 x5 = Cert.Stein.fArr x0 x2 x3 x4 x5 := by
  funext i
  obtain ⟨l, d, rfl⟩ : ∃ (l : Fin 32) (d : Fin 8192), i = ix2 l d := ⟨i 0, i 1, eq_ix2 i⟩
  rw [val_main_v10_apply, val_main_v7_apply, val_main_v9_apply, val_main_v8_apply]
  simp only [val_main_v6_apply, lidx_v7, ridx_v7, idx_v9, ref_hid, Ideal.addf_def]
  rfl

/-! ## The index maps of the second chain -/

/-- The last sum runs over the long axis at fixed `(l, t)`. -/
theorem idx_v20 (l : Fin 32) (t : Fin 64) (d : Fin 8192) : idx_main_v20 (ix2 l t) d = ix3 l t d :=
  funext fun a => Fin.ext (by match a with | ⟨0, _⟩ => rfl | ⟨1, _⟩ => rfl | ⟨2, _⟩ => rfl)

/-- The contraction back to the long axis reads the scaled projection at `(l, t, k)`. -/
theorem lidx_v18 (l : Fin 32) (t : Fin 64) (d : Fin 8192) (k : Fin 16) : lidx_main_v18 (ix3 l t d) k = ix3 l t k :=
  funext fun a => Fin.ext (by match a with | ⟨0, _⟩ => rfl | ⟨1, _⟩ => rfl | ⟨2, _⟩ => rfl)

/-- The contraction back to the long axis reads `W1` at `(k, d)`. -/
theorem ridx_v18 (l : Fin 32) (t : Fin 64) (d : Fin 8192) (k : Fin 16) : ridx_main_v18 (ix3 l t d) k = ix2 k d :=
  funext fun a => Fin.ext (by match a with | ⟨0, _⟩ => rfl | ⟨1, _⟩ => rfl)

/-- The projection through the second layer reads the probe at `(l, t, d)`. -/
theorem lidx_v14 (l : Fin 32) (t : Fin 64) (k : Fin 16) (d : Fin 8192) : lidx_main_v14 (ix3 l t k) d = ix3 l t d :=
  funext fun a => Fin.ext (by match a with | ⟨0, _⟩ => rfl | ⟨1, _⟩ => rfl | ⟨2, _⟩ => rfl)

/-- The projection through the second layer reads `W2` at `(d, k)`. -/
theorem ridx_v14 (l : Fin 32) (t : Fin 64) (k : Fin 16) (d : Fin 8192) : ridx_main_v14 (ix3 l t k) d = ix2 d k :=
  funext fun a => Fin.ext (by match a with | ⟨0, _⟩ => rfl | ⟨1, _⟩ => rfl)

/-- The slope, broadcast along the probe axis, is read at `(l, k)`. -/
theorem idx_v16 (l : Fin 32) (t : Fin 64) (k : Fin 16) : idx_main_v15 (idx_main_v16 (ix3 l t k)) = ix2 l k :=
  funext fun a => Fin.ext (by match a with | ⟨0, _⟩ => rfl | ⟨1, _⟩ => rfl)

/-! ## The slope, the projection, and the quadratic forms -/

/-- The stage `1 − h·h` at `(l, k)` is the specification's slope. -/
theorem ref_slope (x0 : (⟨S32x8192, .f32⟩ : BufTy).Contents (Elt Ideal)) (x2 : (⟨S16x8192, .f32⟩ : BufTy).Contents (Elt Ideal))
    (x3 : (⟨S16, .f32⟩ : BufTy).Contents (Elt Ideal)) (l : Fin 32) (k : Fin 16) :
    val_main_v13 (F := Ideal) x0 x2 x3 (ix2 l k) = Cert.Stein.slope x0 x2 x3 l k := by
  rw [val_main_v13_apply, val_main_v12_apply, val_main_cst_apply, val_main_v11_apply, ref_hid]
  simp only [Ideal.subf_def, Ideal.mulf_def, Ideal.ofBits_def]
  rfl

/-- The probe contracted with `W2` at `(l, t, k)` is the specification's projection through the second layer. -/
theorem ref_proj2 (x1 : (⟨S32x64x8192, .f32⟩ : BufTy).Contents (Elt Ideal)) (x4 : (⟨S8192x16, .f32⟩ : BufTy).Contents (Elt Ideal))
    (l : Fin 32) (t : Fin 64) (k : Fin 16) :
    val_main_v14 (F := Ideal) x1 x4 (ix3 l t k) = Cert.Stein.proj2 x1 x4 l t k := by
  rw [val_main_v14_apply]
  simp only [lidx_v14, ridx_v14]
  rfl

/-- The reference's row sums are the quadratic forms with the long axis contracted last, index by index. -/
theorem ref_traces (x0 : (⟨S32x8192, .f32⟩ : BufTy).Contents (Elt Ideal)) (x1 : (⟨S32x64x8192, .f32⟩ : BufTy).Contents (Elt Ideal))
    (x2 : (⟨S16x8192, .f32⟩ : BufTy).Contents (Elt Ideal)) (x3 : (⟨S16, .f32⟩ : BufTy).Contents (Elt Ideal))
    (x4 : (⟨S8192x16, .f32⟩ : BufTy).Contents (Elt Ideal)) :
    val_main_v20 (F := Ideal) x0 x1 x2 x3 x4 = Cert.Stein.traceLongArr x0 x1 x2 x3 x4 := by
  funext i
  obtain ⟨l, t, rfl⟩ : ∃ (l : Fin 32) (t : Fin 64), i = ix2 l t := ⟨i 0, i 1, eq_ix2 i⟩
  rw [val_main_v20_apply, val_main_cst_0_apply, Ideal.ofBits_def, Ideal.ofBits_zero_f32, zero_add]
  simp only [idx_v20, val_main_v19_apply, val_main_v18_apply, lidx_v18, ridx_v18, val_main_v17_apply, ref_proj2,
    val_main_v16_apply, val_main_v15_apply, idx_v16, ref_slope, Ideal.mulf_def]
  rfl

end Cert.Stein.Ref

end
-- ==== Proof.Law.lean ====
/-
  The two groupings of the quadratic form agree on real entries.

  Both `traceHidden` and `traceLong` are finite sums of products of the same quantities; they differ only in which of
  the two finite sums is taken last. Over the real numbers the exchange is `Finset.sum_comm` together with the
  distributive law. The extended reals are not distributive at the infinities, so the proof first shows that every
  quantity involved is the image of a real number (the entries by hypothesis, a finite sum of reals is real, a product
  of reals is real, the hyperbolic tangent of a real is real, and the constant one is the real one), moves the coercion
  outside both sides, and then cites the real identity.
-/
import proofs.«108424_j41781441855509_2_alg».proof.Proof.Spec
import Idealize.ShloMosaic.Lib.IdealHost

noncomputable section

open scoped BigOperators

namespace Cert.Stein

open Idealize.ShloMosaic Idealize.ShloMosaic.ValueIdx

/-- A finite sum of real numbers, read in the extended reals, is the sum of the images. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exchange of the two finite sums over the real numbers:
Σ_k a[k] · (Σ_d x[d] · W[k, d]) = Σ_d (Σ_k a[k] · W[k, d]) · x[d]. -/
theorem quad_exchange {K D : Type} [Fintype K] [Fintype D] (a : K → ℝ) (W : K → D → ℝ) (x : D → ℝ) :
    ∑ k, a k * (∑ d, x d * W k d) = ∑ d, (∑ k, a k * W k d) * x d := by
  simp only [Finset.mul_sum, Finset.sum_mul]
  rw [Finset.sum_comm]
  refine Finset.sum_congr rfl fun d _ => Finset.sum_congr rfl fun k _ => ?_
  ring

/-- The constant one of the specification is the real number one. -/
theorem one_eq_coe : one = ((1 : ℝ) : EReal) := by
  unfold one
  rw [Ideal.ofBits_one_f32, EReal.coe_one]

/-- On real entries the two groupings of the quadratic form agree. -/
theorem traceHidden_eq_traceLong (u : Mat 32 8192) (w : Ten 32 64 8192) (W1 : Mat 16 8192) (b1 : Row 16)
    (W2 : Mat 8192 16) (hu : AllReal u) (hw : AllReal w) (hW1 : AllReal W1) (hb1 : AllReal b1) (hW2 : AllReal W2)
    (l : Fin 32) (t : Fin 64) :
    traceHidden u w W1 b1 W2 l t = traceLong u w W1 b1 W2 l t := by
  unfold AllReal at hu hw hW1 hb1 hW2
  choose ru hru using hu
  choose pw hpw using hw
  choose rW1 hrW1 using hW1
  choose rb1 hrb1 using hb1
  choose rW2 hrW2 using hW2
  -- the hidden activation, the slope and the two projections as real numbers
  have hh : ∀ k, hid u W1 b1 l k
      = ((Real.tanh ((∑ d : Fin 8192, ru (ix2 l d) * rW1 (ix2 k d)) + rb1 (ix1 k)) : ℝ) : EReal) := by
    intro k
    unfold hid
    simp only [hru, hrW1, hrb1, ← EReal.coe_mul, ← coe_finset_sum, ← EReal.coe_add, Ideal.tanh_coe]
  have hs : ∀ k, slope u W1 b1 l k
      = ((1 - Real.tanh ((∑ d : Fin 8192, ru (ix2 l d) * rW1 (ix2 k d)) + rb1 (ix1 k))
            * Real.tanh ((∑ d : Fin 8192, ru (ix2 l d) * rW1 (ix2 k d)) + rb1 (ix1 k)) : ℝ) : EReal) := by
    intro k
    unfold slope
    rw [hh k, one_eq_coe, ← EReal.coe_mul, ← EReal.coe_sub]
  have hp2 : ∀ k, proj2 w W2 l t k = ((∑ d : Fin 8192, pw (ix3 l t d) * rW2 (ix2 d k) : ℝ) : EReal) := by
    intro k
    unfold proj2
    simp only [hpw, hrW2, ← EReal.coe_mul, ← coe_finset_sum]
  have hp1 : ∀ k, proj1 w W1 l t k = ((∑ d : Fin 8192, pw (ix3 l t d) * rW1 (ix2 k d) : ℝ) : EReal) := by
    intro k
    unfold proj1
    simp only [hpw, hrW1, ← EReal.coe_mul, ← coe_finset_sum]
  unfold traceHidden traceLong
  simp only [hh, hs, hp2, hp1, hpw, hrW1, ← EReal.coe_mul, ← coe_finset_sum]
  exact congrArg _ (quad_exchange _ (fun k d => rW1 (ix2 k d)) (fun d => pw (ix3 l t d)))

/-- The whole-array form of the agreement. -/
theorem traceHiddenArr_eq_traceLongArr (u : Mat 32 8192) (w : Ten 32 64 8192) (W1 : Mat 16 8192) (b1 : Row 16)
    (W2 : Mat 8192 16) (hu : AllReal u) (hw : AllReal w) (hW1 : AllReal W1) (hb1 : AllReal b1) (hW2 : AllReal W2) :
    traceHiddenArr u w W1 b1 W2 = traceLongArr u w W1 b1 W2 := by
  funext i
  exact traceHidden_eq_traceLong u w W1 b1 W2 hu hw hW1 hb1 hW2 (i 0) (i 1)

end Cert.Stein

end
-- ==== Proof.Finite.lean ====
/-
  From the precondition to "every entry is a real number".

  The precondition is the conjunction, over the six float inputs, of "every entry x has |x| < +∞". On the extended reals
  the absolute value is max x (−x) and the comparison is the strict order, so the fact at one entry says x < ⊤ and
  −x < ⊤: x is neither infinity, hence a real number. The conjunction is an `and` of one-bit words, each of them the
  reduction by `and` of the array of entrywise comparisons; a reduction by `and` over every axis that came out 1 met a 1
  at every entry.
-/
import proofs.«108424_j41781441855509_2_alg».proof.Pre_finite_inputs
import proofs.«108424_j41781441855509_2_alg».proof.Proof.Spec
import Idealize.ShloMosaic.Lib.ReduceAll

noncomputable section

namespace Cert.Stein

open Idealize.ShloMosaic Idealize.ShloMosaic.ValueIdx

/-- The shape of a scalar has exactly one index. -/
instance subsingleton_scalar_idx : Subsingleton (⟨0, ![]⟩ : Shape).Idx := ⟨fun a b => funext fun d => d.elim0⟩

/-- An extended real whose absolute value max x (−x) lies strictly below +∞ is a real number. -/
theorem exists_real_of_abs_lt_top (y : EReal) (h : max y (-y) < ⊤) : ∃ r : ℝ, y = (r : EReal) := by
  rw [max_lt_iff] at h
  induction y using EReal.rec with
  | bot => simp at h
  | coe r => exact ⟨r, rfl⟩
  | top => simp at h

/-- A Boolean read as a one-bit word is 1 exactly when it is true. -/
theorem ofBool_eq_one_iff (b : Bool) : BitVec.ofBool b = 1#1 ↔ b = true := by cases b <;> decide

/-- The single-precision word of +∞ denotes the top element. -/
theorem ofBits_inf_f32 : Ideal.ofBits .f32 0x7F800000#32 = ⊤ := by simp [Ideal.ofBits, Ideal.ieee]

/-- An array over any shape whose entrywise test |x| < +∞, reduced by `and` over every axis, came out 1 has only real
entries. -/
theorem allReal_of_all_finite {S : Shape} {axes : List (Fin S.rank)} (x : FVec Ideal S .f32)
    (hb : (⟨0, ![]⟩ : Shape).BroadcastsInDim S (![] : Fin 0 → Fin S.rank))
    (hr : S.ReducesTo axes (⟨0, ![]⟩ : Shape)) (hS : 0 < (⟨0, ![]⟩ : Shape).numel)
    (e : Host.reduce IntOp.andi
          (cmpf .olt (Host.absf x)
            (broadcastInDim S ![] hb (constant (F := Ideal) (⟨0, ![]⟩ : Shape) .f32 0x7F800000#32)))
          (constantI (⟨0, ![]⟩ : Shape) 1 1#1) hr hS ix0 = 1#1) :
    AllReal x := by
  intro i
  have h1 := Host.reduce_andi_all _ _ hr hS ix0 e i
  have h2 : Ideal.cmp .olt (max (x i) (-(x i))) (Ideal.ofBits .f32 0x7F800000#32) = 1#1 := h1
  rw [ofBits_inf_f32] at h2
  unfold Ideal.cmp at h2
  have h3 : max (x i) (-(x i)) < ⊤ := of_decide_eq_true ((ofBool_eq_one_iff _).1 h2)
  exact exists_real_of_abs_lt_top (x i) h3

open Cert.Pre_finite_inputs in
/-- The precondition of the certificate gives real entries at all six float inputs. -/
theorem allReal_of_pre [Cert.Pre_finite_inputs.Facts]
    (a0 : FVec Ideal S32x8192 .f32) (a1 : FVec Ideal S32x64x8192 .f32) (a2 : FVec Ideal S16x8192 .f32)
    (a3 : FVec Ideal S16 .f32) (a4 : FVec Ideal S8192x16 .f32) (a5 : FVec Ideal S8192 .f32)
    (h : Cert.Pre_finite_inputs.fn (F := Ideal) a0 a1 a2 a3 a4 a5 = (fun _ => 1#1)) :
    AllReal a0 ∧ AllReal a1 ∧ AllReal a2 ∧ AllReal a3 ∧ AllReal a4 ∧ AllReal a5 := by
  have h0 := congrFun h ix0
  dsimp only [Cert.Pre_finite_inputs.fn, Cert.Pre_finite_inputs.fn_part1] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨allReal_of_all_finite a0 _ _ _ h0', allReal_of_all_finite a1 _ _ _ h1, allReal_of_all_finite a2 _ _ _ h2,
    allReal_of_all_finite a3 _ _ _ h3, allReal_of_all_finite a4 _ _ _ h4, allReal_of_all_finite a5 _ _ _ h5⟩

end Cert.Stein

end
-- ==== Proof.Assembly.lean ====
/-
  The two programs' results as one pair of arrays.

  Both programs end with the same host tail on the 32 × 64 quadratic forms: their sum, divided by 2048, as a 1 × 1 array.
  The kernel's region leaves the network's output in its first output array and the quadratic forms, hidden axis
  contracted last, in its second; the tail then runs on the second. The reference computes the same output, and the
  quadratic forms with the long axis contracted last, which on finite inputs are the same numbers.
-/
import proofs.«108424_j41781441855509_2_alg».proof.Proof.KernelOut
import proofs.«108424_j41781441855509_2_alg».proof.Proof.KernelTrace
import proofs.«108424_j41781441855509_2_alg».proof.Proof.RefRead
import proofs.«108424_j41781441855509_2_alg».proof.Proof.Law
import proofs.«108424_j41781441855509_2_alg».proof.Proof.Finite
import proofs.«108424_j41781441855509_2_alg».proof.Proof.Gen.Pre_finite_inputs
import proofs.«108424_j41781441855509_2_alg».proof.Defs
import Idealize.ShloMosaic.Lib.StableHlo.Run

set_option maxRecDepth 16384

noncomputable section

open scoped BigOperators

namespace Cert.Stein.Assembly

open Cert.KernelIdeal Cert.KernelIdeal.Gen Cert.KernelIdeal.Body Idealize.ShloMosaic Idealize.ShloMosaic.ValueIdx
  Idealize.ShloMosaic.TcCoe Idealize.SL.Sem
open Idealize.ShloMosaic.Pipeline (Dat)
open Cert.Stein.Tile Cert.Stein.KernelOut Cert.Stein.KernelTrace

/-- The tail both programs end with: the sum of all the quadratic forms, divided by 2048, as a 1 × 1 array. -/
def meanTrace (x : (⟨S32x64, .f32⟩ : BufTy).Contents (Elt Ideal)) : (⟨S1x1, .f32⟩ : BufTy).Contents (Elt Ideal) :=
  shapeCast S1x1
    (Host.divf (F := Ideal)
      (Host.reduceAdd (F := Ideal) x (constant (F := Ideal) S_ .f32 0x00000000#32) reducesTo_S32x64_S_d0_1 h_S_)
      (constant (F := Ideal) S_ .f32 0x45000000#32))
    shapeCasts_S_S1x1

variable (m : (ℓ : Loc nD τ sig) → Buf (Elt Ideal) ℓ)

/-- The host operations after the region, run on what the region left, give the tail of the second output array. -/
theorem tail_eq (c : Dev nD) :
    Pipeline.afterTail₀ cfgs (dats (F := Ideal) m) 0 (V0 m) [hostOps1] c main_v5
      = meanTrace (Cert.Stein.traceHiddenArr (aU m c) (aWp m c) (aW1 m c) (ab1 m c) (aW2 m c)) := by
  unfold Pipeline.afterTail₀
  show StableHlo.after hostOps1 _ (Proc.devRef .tc main_v5) = _
  after_results
  have e := (Pipeline.withArrays_arr spec0 launch0.win.arr_inj c (V0 m c)
    (fun w => (dats (F := Ideal) m 0 c).arrAt w cfg0.N) 8).trans (final8 m c)
  refine Eq.trans ?_ (congrArg meanTrace e)
  rfl

/-- The idealized kernel's run: its first result is the network's output, its second the tail of the quadratic forms
    with the hidden axis contracted last, and its arguments end unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v2_0)
          = Cert.Stein.fArr (aU m c) (aW1 m c) (ab1 m c) (aW2 m c) (ab2 m c)
      ∧ r.2.mem ((c.tc : Thread nD τ).loc main_v5)
          = meanTrace (Cert.Stein.traceHiddenArr (aU m c) (aWp m c) (aW1 m c) (ab1 m c) (aW2 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 7).trans (final7 m c),
      ((h c).2 main_v5 (Pipeline.mem_restRefs_of main_v5 (by decide) (by decide))).trans (tail_eq m c),
      ((h c).1 0).trans (((dats (F := Ideal) m 0 c).arrAt_in 0 rfl _).trans ((A_eq m c 0).trans (V_main_arg0 m c))),
      ((h c).1 1).trans (((dats (F := Ideal) m 0 c).arrAt_in 1 rfl _).trans ((A_eq m c 1).trans (V_main_arg1 m c))),
      ((h c).1 2).trans (((dats (F := Ideal) m 0 c).arrAt_in 2 rfl _).trans ((A_eq m c 2).trans (V_main_arg2 m c))),
      ((h c).1 3).trans (((dats (F := Ideal) m 0 c).arrAt_in 3 rfl _).trans ((A_eq m c 3).trans (V_main_arg3 m c))),
      ((h c).2 main_arg4 (Pipeline.mem_restRefs_of main_arg4 (by decide) (by decide))).trans
        (W_main_arg4 m (dats (F := Ideal) m) c),
      ((h c).1 5).trans (((dats (F := Ideal) m 0 c).arrAt_in 5 rfl _).trans ((A_eq m c 5).trans (V_main_arg5 m c)))⟩)
    (run_main (F := Ideal) m ρ)

/-- The reference's second result, on real entries, is the same tail of the same quadratic forms: its own grouping
    contracts the long axis last, and the two groupings agree on real entries. -/
theorem ref_tail (x0 : Mat 32 8192) (x1 : Ten 32 64 8192) (x2 : Mat 16 8192) (x3 : Row 16) (x4 : Mat 8192 16)
    (h0 : AllReal x0) (h1 : AllReal x1) (h2 : AllReal x2) (h3 : AllReal x3) (h4 : AllReal x4) :
    Cert.ReferenceIdeal.Read.val_main_v23 (F := Ideal) x0 x1 x2 x3 x4
      = meanTrace (Cert.Stein.traceHiddenArr x0 x1 x2 x3 x4) := by
  rw [Cert.Stein.traceHiddenArr_eq_traceLongArr x0 x1 x2 x3 x4 h0 h1 h2 h3 h4, ← Cert.Stein.Ref.ref_traces]
  rfl

/-- From memories that agree on the arguments, under the precondition, both idealized programs run and end with equal
    results and unchanged arguments. -/
theorem algebraic : Cert.algebraic_KernelIdeal_ReferenceIdeal := by
  intro m ρ m' ρ' hpre hagree
  refine ⟨fun c => Cert.Stein.fArr (aU m c) (aW1 m c) (ab1 m c) (aW2 m c) (ab2 m c),
    fun c => meanTrace (Cert.Stein.traceHiddenArr (aU m c) (aWp m c) (aW1 m c) (ab1 m c) (aW2 m c)),
    kernel_run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [Cert.ReferenceIdeal.Read.val_main_v10_eq, Cert.Stein.Ref.ref_f, (hagree c).1, (hagree c).2.2.1,
      (hagree c).2.2.2.1, (hagree c).2.2.2.2.1, (hagree c).2.2.2.2.2]
  · obtain ⟨h0, h1, h2, h3, h4, h5⟩ := Cert.Stein.allReal_of_pre _ _ _ _ _ _ (hpre c)
    rw [Cert.ReferenceIdeal.Read.val_main_v23_eq, (hagree c).1, (hagree c).2.1, (hagree c).2.2.1,
      (hagree c).2.2.2.1, (hagree c).2.2.2.2.1]
    exact ref_tail _ _ _ _ _ h0 h1 h2 h3 h4

end Cert.Stein.Assembly

end
-- ==== Proof.lean ====
/-
  The certificate of a two-layer tanh network with a Hutchinson trace estimate of its Jacobian.

  Both programs take 32 rows u[l, ·] of length 8192, 64 probe vectors w[l, t, ·] per row, and the weights W1 (16 × 8192),
  b1 (16), W2 (8192 × 16), b2 (8192). They return the network's output f = W2 · tanh(W1 · u + b1) + b2 and the mean, over
  the 32 · 64 probes with a divisor of 2048, of the quadratic forms wᵀ J w of its Jacobian J = W2 · diag(1 − h²) · W1.

  The kernel walks a 4 × 4 grid: a tile of 8 rows by a chunk of 2048 positions of the long axis. At a tile's first
  chunk it stores the tile's output and tanh slope and resets a running projection of the probes against the stacked
  weights; at each chunk it adds that chunk's partial projection; at the last chunk it contracts the completed
  projection with the slope over the 16 hidden units. The reference contracts the long axis last instead. The two
  groupings of the quadratic form differ by an exchange of two finite sums and a distributive step, which holds on
  real entries; the precondition (every input finite) supplies exactly that.

  The three frames: the kernel's body is run once, for any float instance, at each of its three control cases, and the
  region's invariant carries the two scratch buffers from point to point; the reference's frame is its run with the
  results dropped. The ideal pass rewrote nothing, so the kernel's idealization is its own text.
-/
import proofs.«108424_j41781441855509_2_alg».proof.Defs
import proofs.«108424_j41781441855509_2_alg».proof.Proof.Gen.Kernel
import proofs.«108424_j41781441855509_2_alg».proof.Proof.Gen.KernelIdeal
import proofs.«108424_j41781441855509_2_alg».proof.Proof.Gen.ReferenceIdeal
import proofs.«108424_j41781441855509_2_alg».proof.Proof.Gen.Pre_finite_inputs
import proofs.«108424_j41781441855509_2_alg».proof.Proof.Gen.ReferenceIdeal.Run
import proofs.«108424_j41781441855509_2_alg».proof.Proof.BodyBits.Oblig
import proofs.«108424_j41781441855509_2_alg».proof.Proof.BodyIdeal.Oblig
import proofs.«108424_j41781441855509_2_alg».proof.Proof.Assembly
import Idealize.ShloMosaic.Adequacy
import Idealize.ShloMosaic.Init

noncomputable section

namespace Cert.Proof

open Idealize.ShloMosaic Idealize.SL.Sem

/-- The kernel as printed runs, and its arguments end unchanged. -/
theorem frame_kernel : Cert.frame_Kernel := fun m ρ _ => Cert.Kernel.Body.frame (F := Bits) m ρ

/-- The idealized kernel runs, and its arguments end unchanged. -/
theorem frame_kernelIdeal : Cert.frame_KernelIdeal := fun m ρ _ => Cert.KernelIdeal.Body.frame (F := Ideal) m ρ

/-- The idealized reference runs, and its arguments end unchanged: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, Cert.Stein.Assembly.algebraic⟩

end Cert.Proof

end
